-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S1536x256 : Shape := ⟨2, ![1536, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S1536x256 : S_.BroadcastsInDim S1536x256 (![] : Fin 0 → Fin S1536x256.rank)
  reducesTo_S1536x256_S_d0_1 : S1536x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S512x768 .f32) (main_arg1 : FVec F S1536x256 .f32) (main_arg2 : FVec F S256 .f32) (main_arg3 : FVec F S256x1 .f32) (main_arg4 : FVec F S1 .f32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_v4 : FVec F S1536x256 .f32 := Host.absf main_arg1
  let main_cst_0 : FVec F S_ .f32 := constant S_ .f32 0x7F800000#32
  let main_v5 : FVec F S1536x256 .f32 := broadcastInDim S1536x256 ![] bcast_S_S1536x256 main_cst_0
  let main_v6 : IVec S1536x256 1 := cmpf .olt main_v4 main_v5
  let main_c_1 : IVec S_ 1 := constantI S_ 1 1#1
  let main_v7 : IVec S_ 1 := (fun x v => Host.reduce IntOp.andi x v reducesTo_S1536x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S512x768 : Shape := ⟨2, ![512, 768]⟩
abbrev S1536x256 : Shape := ⟨2, ![1536, 256]⟩
abbrev S256 : Shape := ⟨1, ![256]⟩
abbrev S256x1 : Shape := ⟨2, ![256, 1]⟩
abbrev S1 : Shape := ⟨1, ![1]⟩
abbrev S768x256 : Shape := ⟨2, ![768, 256]⟩
abbrev S1x256 : Shape := ⟨2, ![1, 256]⟩
abbrev S512x256 : Shape := ⟨2, ![512, 256]⟩
abbrev S1x1 : Shape := ⟨2, ![1, 1]⟩
abbrev S512x512 : Shape := ⟨2, ![512, 512]⟩
abbrev S_ : Shape := ⟨0, ![]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x2 : Shape := ⟨2, ![130816, 2]⟩
abbrev S128x256 : Shape := ⟨2, ![128, 256]⟩
abbrev S128x128 : Shape := ⟨2, ![128, 128]⟩
abbrev S128x64 : Shape := ⟨2, ![128, 64]⟩
abbrev S1x64 : Shape := ⟨2, ![1, 64]⟩
abbrev S64 : Shape := ⟨1, ![64]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩

abbrev nBuf : Space → Nat
  | .hbm => 149
  | .vmem => 14
  | .smem => 0
  | _ => 0

abbrev hbmTy0_0 (i : Nat) : BufTy := match i % 128 with
  | 0 => ⟨S512x768, .f32⟩
  | 1 => ⟨S1536x256, .f32⟩
  | 2 => ⟨S256, .f32⟩
  | 3 => ⟨S256x1, .f32⟩
  | 4 => ⟨S1, .f32⟩
  | 5 => ⟨S768x256, .f32⟩
  | 6 => ⟨S768x256, .f32⟩
  | 7 => ⟨S1x256, .f32⟩
  | 8 => ⟨S512x256, .f32⟩
  | 9 => ⟨S512x256, .f32⟩
  | 10 => ⟨S1x256, .f32⟩
  | 11 => ⟨S1x1, .f32⟩
  | 12 => ⟨S512x512, .f32⟩
  | 13 => ⟨S_, .f32⟩
  | 14 => ⟨S512x512, .f32⟩
  | 15 => ⟨S512x512, .i32⟩
  | 16 => ⟨S_, .i32⟩
  | 17 => ⟨S512x512, .i32⟩
  | 18 => ⟨S512x512, .i32⟩
  | 19 => ⟨S512x512, .i32⟩
  | 20 => ⟨S512x512, .i1⟩
  | 21 => ⟨S_, .f32⟩
  | 22 => ⟨S512x512, .f32⟩
  | 23 => ⟨S512x512, .f32⟩
  | 24 => ⟨S_, .f32⟩
  | 25 => ⟨S512x512, .f32⟩
  | 26 => ⟨S512x512, .i1⟩
  | 27 => ⟨S262144, .i1⟩
  | 28 => ⟨S262144, .i32⟩
  | 29 => ⟨S_, .i32⟩
  | 30 => ⟨S_, .i32⟩
  | 31 => ⟨S262144, .i32⟩
  | 32 => ⟨S_, .i32⟩
  | 33 => ⟨S130816, .i32⟩
  | 34 => ⟨S_, .i32⟩
  | 35 => ⟨S_, .i32⟩
  | 36 => ⟨S262144, .i32⟩
  | 37 => ⟨S262144, .i32⟩
  | 38 => ⟨S_, .i32⟩
  | 39 => ⟨S262144, .i32⟩
  | 40 => ⟨S262144, .i1⟩
  | 41 => ⟨S_, .i32⟩
  | 42 => ⟨S262144, .i32⟩
  | 43 => ⟨S262144, .i32⟩
  | 44 => ⟨S262144, .i32⟩
  | 45 => ⟨S262144x1, .i32⟩
  | 46 => ⟨S_, .i32⟩
  | 47 => ⟨S262144, .i32⟩
  | 48 => ⟨S130816, .i32⟩
  | 49 => ⟨S_, .i32⟩
  | 50 => ⟨S_, .i32⟩
  | 51 => ⟨S130816, .i32⟩
  | 52 => ⟨S_, .i32⟩
  | 53 => ⟨S130816, .i32⟩
  | 54 => ⟨S130816, .i32⟩
  | 55 => ⟨S130816, .i32⟩
  | 56 => ⟨S_, .i32⟩
  | 57 => ⟨S130816, .i32⟩
  | 58 => ⟨S130816, .i1⟩
  | 59 => ⟨S130816, .i32⟩
  | 60 => ⟨S130816, .i32⟩
  | 61 => ⟨S_, .i32⟩
  | 62 => ⟨S130816, .i32⟩
  | 63 => ⟨S130816, .i1⟩
  | 64 => ⟨S130816, .i1⟩
  | 65 => ⟨S_, .i32⟩
  | 66 => ⟨S130816, .i32⟩
  | 67 => ⟨S130816, .i32⟩
  | 68 => ⟨S130816, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S130816, .i32⟩
  | 76 => ⟨S130816, .i32⟩
  | 77 => ⟨S_, .i32⟩
  | 78 => ⟨S130816, .i32⟩
  | 79 => ⟨S130816, .i1⟩
  | 80 => ⟨S_, .i32⟩
  | 81 => ⟨S130816, .i32⟩
  | 82 => ⟨S130816, .i1⟩
  | 83 => ⟨S_, .i32⟩
  | 84 => ⟨S_, .i1⟩
  | 85 => ⟨S130816, .i1⟩
  | 86 => ⟨S130816, .i1⟩
  | 87 => ⟨S130816, .i1⟩
  | 88 => ⟨S130816, .i32⟩
  | 89 => ⟨S130816, .i32⟩
  | 90 => ⟨S130816, .i32⟩
  | 91 => ⟨S_, .i32⟩
  | 92 => ⟨S130816, .i32⟩
  | 93 => ⟨S130816, .i32⟩
  | 94 => ⟨S130816, .i32⟩
  | 95 => ⟨S_, .i32⟩
  | 96 => ⟨S130816, .i32⟩
  | 97 => ⟨S130816, .i1⟩
  | 98 => ⟨S130816, .i32⟩
  | 99 => ⟨S130816, .i32⟩
  | 100 => ⟨S_, .i32⟩
  | 101 => ⟨S130816, .i32⟩
  | 102 => ⟨S130816, .i1⟩
  | 103 => ⟨S130816, .i1⟩
  | 104 => ⟨S_, .i32⟩
  | 105 => ⟨S130816, .i32⟩
  | 106 => ⟨S130816, .i32⟩
  | 107 => ⟨S130816, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S130816, .i32⟩
  | 115 => ⟨S130816, .i32⟩
  | 116 => ⟨S_, .i32⟩
  | 117 => ⟨S130816, .i32⟩
  | 118 => ⟨S130816, .i1⟩
  | 119 => ⟨S_, .i32⟩
  | 120 => ⟨S130816, .i32⟩
  | 121 => ⟨S130816, .i1⟩
  | 122 => ⟨S_, .i32⟩
  | 123 => ⟨S_, .i1⟩
  | 124 => ⟨S130816, .i1⟩
  | 125 => ⟨S130816, .i1⟩
  | 126 => ⟨S130816, .i1⟩
  | 127 => ⟨S130816, .i32⟩
  | _ => ⟨S512x768, .f32⟩

abbrev hbmTy0_1 (i : Nat) : BufTy := match i % 128 with
  | 0 => ⟨S130816, .i32⟩
  | 1 => ⟨S130816, .i32⟩
  | 2 => ⟨S_, .i32⟩
  | 3 => ⟨S130816, .i32⟩
  | 4 => ⟨S130816, .i1⟩
  | 5 => ⟨S_, .i32⟩
  | 6 => ⟨S130816, .i32⟩
  | 7 => ⟨S130816, .i32⟩
  | 8 => ⟨S130816, .i32⟩
  | 9 => ⟨S_, .i32⟩
  | 10 => ⟨S130816, .i32⟩
  | 11 => ⟨S130816, .i1⟩
  | 12 => ⟨S_, .i32⟩
  | 13 => ⟨S130816, .i32⟩
  | 14 => ⟨S130816, .i32⟩
  | 15 => ⟨S130816, .i32⟩
  | 16 => ⟨S130816x1, .i32⟩
  | 17 => ⟨S130816x1, .i32⟩
  | 18 => ⟨S130816x2, .i32⟩
  | 19 => ⟨S130816, .f32⟩
  | 20 => ⟨S130816x1, .f32⟩
  | _ => ⟨S512x768, .f32⟩

abbrev hbmTy (i : Nat) : BufTy := match i / 128 with
  | 0 => hbmTy0_0 i
  | 1 => hbmTy0_1 i
  | _ => ⟨S512x768, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S768x256, .f32⟩
  | .local _ .vmem, ⟨2, _⟩ => ⟨S768x256, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x256, .f32⟩
  | .local _ .vmem, ⟨11, _⟩ => ⟨S1x1, .f32⟩
  | .local _ .vmem, ⟨12, _⟩ => ⟨S128x128, .f32⟩
  | .local _ .vmem, ⟨13, _⟩ => ⟨S128x128, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_call0_v0 : Ref sig .tc := ⟨.hbm, 15, rfl⟩
abbrev main_call0_call0_c : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_cst : Ref sig .tc := ⟨.hbm, 21, rfl⟩
abbrev main_call0_call0_v5 : Ref sig .tc := ⟨.hbm, 22, rfl⟩
abbrev main_call0_v8 : Ref sig .tc := ⟨.hbm, 23, rfl⟩
abbrev main_call0_cst_0 : Ref sig .tc := ⟨.hbm, 24, rfl⟩
abbrev main_call0_v9 : Ref sig .tc := ⟨.hbm, 25, rfl⟩
abbrev main_call0_v10 : Ref sig .tc := ⟨.hbm, 26, rfl⟩
abbrev main_call0_call1_v0 : Ref sig .tc := ⟨.hbm, 27, rfl⟩
abbrev main_call0_call1_v1 : Ref sig .tc := ⟨.hbm, 28, rfl⟩
abbrev main_call0_call1_call0_c : Ref sig .tc := ⟨.hbm, 29, rfl⟩
abbrev main_call0_call1_call0_v0 : Ref sig .tc := ⟨.hbm, 30, rfl⟩
abbrev main_call0_v11 : Ref sig .tc := ⟨.hbm, 31, rfl⟩
abbrev main_call0_c : Ref sig .tc := ⟨.hbm, 32, rfl⟩
abbrev main_call0_v12 : Ref sig .tc := ⟨.hbm, 33, rfl⟩
abbrev main_call0_c_1 : Ref sig .tc := ⟨.hbm, 34, rfl⟩
abbrev main_call0_call2_v0 : Ref sig .tc := ⟨.hbm, 35, rfl⟩
abbrev main_call0_call2_v1 : Ref sig .tc := ⟨.hbm, 36, rfl⟩
abbrev main_call0_v13 : Ref sig .tc := ⟨.hbm, 37, rfl⟩
abbrev main_call0_c_2 : Ref sig .tc := ⟨.hbm, 38, rfl⟩
abbrev main_call0_v14 : Ref sig .tc := ⟨.hbm, 39, rfl⟩
abbrev main_call0_v15 : Ref sig .tc := ⟨.hbm, 40, rfl⟩
abbrev main_call0_c_3 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_c_4 : Ref sig .tc := ⟨.hbm, 46, rfl⟩
abbrev main_call0_v20 : Ref sig .tc := ⟨.hbm, 47, rfl⟩
abbrev main_call0_v21 : Ref sig .tc := ⟨.hbm, 48, rfl⟩
abbrev main_call0_call3_call0_c : Ref sig .tc := ⟨.hbm, 49, rfl⟩
abbrev main_call0_call3_call0_v0 : Ref sig .tc := ⟨.hbm, 50, rfl⟩
abbrev main_call0_v22 : Ref sig .tc := ⟨.hbm, 51, rfl⟩
abbrev main_call0_c_5 : Ref sig .tc := ⟨.hbm, 52, rfl⟩
abbrev main_call0_call4_v0 : Ref sig .tc := ⟨.hbm, 53, rfl⟩
abbrev main_call0_call4_v1 : Ref sig .tc := ⟨.hbm, 54, rfl⟩
abbrev main_call0_call4_v2 : Ref sig .tc := ⟨.hbm, 55, rfl⟩
abbrev main_call0_call4_v3 : Ref sig .tc := ⟨.hbm, 56, rfl⟩
abbrev main_call0_call4_v4 : Ref sig .tc := ⟨.hbm, 57, rfl⟩
abbrev main_call0_call4_v5 : Ref sig .tc := ⟨.hbm, 58, rfl⟩
abbrev main_call0_call4_v6 : Ref sig .tc := ⟨.hbm, 59, rfl⟩
abbrev main_call0_call4_v7 : Ref sig .tc := ⟨.hbm, 60, rfl⟩
abbrev main_call0_call4_c : Ref sig .tc := ⟨.hbm, 61, rfl⟩
abbrev main_call0_call4_v8 : Ref sig .tc := ⟨.hbm, 62, rfl⟩
abbrev main_call0_call4_v9 : Ref sig .tc := ⟨.hbm, 63, rfl⟩
abbrev main_call0_call4_v10 : Ref sig .tc := ⟨.hbm, 64, rfl⟩
abbrev main_call0_call4_c_0 : Ref sig .tc := ⟨.hbm, 65, rfl⟩
abbrev main_call0_call4_v11 : Ref sig .tc := ⟨.hbm, 66, rfl⟩
abbrev main_call0_call4_v12 : Ref sig .tc := ⟨.hbm, 67, rfl⟩
abbrev main_call0_v23 : Ref sig .tc := ⟨.hbm, 68, rfl⟩
abbrev main_call0_c_6 : Ref sig .tc := ⟨.hbm, 69, rfl⟩
abbrev main_call0_call5_v0 : Ref sig .tc := ⟨.hbm, 70, rfl⟩
abbrev main_call0_call5_c : Ref sig .tc := ⟨.hbm, 71, rfl⟩
abbrev main_call0_call5_v1 : Ref sig .tc := ⟨.hbm, 72, rfl⟩
abbrev main_call0_call5_c_0 : Ref sig .tc := ⟨.hbm, 73, rfl⟩
abbrev main_call0_call5_v2 : Ref sig .tc := ⟨.hbm, 74, rfl⟩
abbrev main_call0_call5_v3 : Ref sig .tc := ⟨.hbm, 75, rfl⟩
abbrev main_call0_call5_v4 : Ref sig .tc := ⟨.hbm, 76, rfl⟩
abbrev main_call0_call5_c_1 : Ref sig .tc := ⟨.hbm, 77, rfl⟩
abbrev main_call0_call5_v5 : Ref sig .tc := ⟨.hbm, 78, rfl⟩
abbrev main_call0_call5_v6 : Ref sig .tc := ⟨.hbm, 79, rfl⟩
abbrev main_call0_call5_c_2 : Ref sig .tc := ⟨.hbm, 80, rfl⟩
abbrev main_call0_call5_v7 : Ref sig .tc := ⟨.hbm, 81, rfl⟩
abbrev main_call0_call5_v8 : Ref sig .tc := ⟨.hbm, 82, rfl⟩
abbrev main_call0_call5_c_3 : Ref sig .tc := ⟨.hbm, 83, rfl⟩
abbrev main_call0_call5_v9 : Ref sig .tc := ⟨.hbm, 84, rfl⟩
abbrev main_call0_call5_v10 : Ref sig .tc := ⟨.hbm, 85, rfl⟩
abbrev main_call0_call5_v11 : Ref sig .tc := ⟨.hbm, 86, rfl⟩
abbrev main_call0_call5_v12 : Ref sig .tc := ⟨.hbm, 87, rfl⟩
abbrev main_call0_call5_v13 : Ref sig .tc := ⟨.hbm, 88, rfl⟩
abbrev main_call0_call5_v14 : Ref sig .tc := ⟨.hbm, 89, rfl⟩
abbrev main_v0_0 : Ref sig .tc := ⟨.hbm, 90, rfl⟩
abbrev main_call0_c_7 : Ref sig .tc := ⟨.hbm, 91, rfl⟩
abbrev main_call0_call6_v0 : Ref sig .tc := ⟨.hbm, 92, rfl⟩
abbrev main_call0_call6_v1 : Ref sig .tc := ⟨.hbm, 93, rfl⟩
abbrev main_call0_call6_v2 : Ref sig .tc := ⟨.hbm, 94, rfl⟩
abbrev main_call0_call6_v3 : Ref sig .tc := ⟨.hbm, 95, rfl⟩
abbrev main_call0_call6_v4 : Ref sig .tc := ⟨.hbm, 96, rfl⟩
abbrev main_call0_call6_v5 : Ref sig .tc := ⟨.hbm, 97, rfl⟩
abbrev main_call0_call6_v6 : Ref sig .tc := ⟨.hbm, 98, rfl⟩
abbrev main_call0_call6_v7 : Ref sig .tc := ⟨.hbm, 99, rfl⟩
abbrev main_call0_call6_c : Ref sig .tc := ⟨.hbm, 100, rfl⟩
abbrev main_call0_call6_v8 : Ref sig .tc := ⟨.hbm, 101, rfl⟩
abbrev main_call0_call6_v9 : Ref sig .tc := ⟨.hbm, 102, rfl⟩
abbrev main_call0_call6_v10 : Ref sig .tc := ⟨.hbm, 103, rfl⟩
abbrev main_call0_call6_c_0 : Ref sig .tc := ⟨.hbm, 104, rfl⟩
abbrev main_call0_call6_v11 : Ref sig .tc := ⟨.hbm, 105, rfl⟩
abbrev main_call0_call6_v12 : Ref sig .tc := ⟨.hbm, 106, rfl⟩
abbrev main_call0_v25 : Ref sig .tc := ⟨.hbm, 107, rfl⟩
abbrev main_call0_c_8 : Ref sig .tc := ⟨.hbm, 108, rfl⟩
abbrev main_call0_call7_v0 : Ref sig .tc := ⟨.hbm, 109, rfl⟩
abbrev main_call0_call7_c : Ref sig .tc := ⟨.hbm, 110, rfl⟩
abbrev main_call0_call7_v1 : Ref sig .tc := ⟨.hbm, 111, rfl⟩
abbrev main_call0_call7_c_0 : Ref sig .tc := ⟨.hbm, 112, rfl⟩
abbrev main_call0_call7_v2 : Ref sig .tc := ⟨.hbm, 113, rfl⟩
abbrev main_call0_call7_v3 : Ref sig .tc := ⟨.hbm, 114, rfl⟩
abbrev main_call0_call7_v4 : Ref sig .tc := ⟨.hbm, 115, rfl⟩
abbrev main_call0_call7_c_1 : Ref sig .tc := ⟨.hbm, 116, rfl⟩
abbrev main_call0_call7_v5 : Ref sig .tc := ⟨.hbm, 117, rfl⟩
abbrev main_call0_call7_v6 : Ref sig .tc := ⟨.hbm, 118, rfl⟩
abbrev main_call0_call7_c_2 : Ref sig .tc := ⟨.hbm, 119, rfl⟩
abbrev main_call0_call7_v7 : Ref sig .tc := ⟨.hbm, 120, rfl⟩
abbrev main_call0_call7_v8 : Ref sig .tc := ⟨.hbm, 121, rfl⟩
abbrev main_call0_call7_c_3 : Ref sig .tc := ⟨.hbm, 122, rfl⟩
abbrev main_call0_call7_v9 : Ref sig .tc := ⟨.hbm, 123, rfl⟩
abbrev main_call0_call7_v10 : Ref sig .tc := ⟨.hbm, 124, rfl⟩
abbrev main_call0_call7_v11 : Ref sig .tc := ⟨.hbm, 125, rfl⟩
abbrev main_call0_call7_v12 : Ref sig .tc := ⟨.hbm, 126, rfl⟩
abbrev main_call0_call7_v13 : Ref sig .tc := ⟨.hbm, 127, rfl⟩
abbrev main_call0_call7_v14 : Ref sig .tc := ⟨.hbm, 128, rfl⟩
abbrev main_v0_1 : Ref sig .tc := ⟨.hbm, 129, rfl⟩
abbrev main_call0_c_9 : Ref sig .tc := ⟨.hbm, 130, rfl⟩
abbrev main_call0_v27 : Ref sig .tc := ⟨.hbm, 131, rfl⟩
abbrev main_call0_v28 : Ref sig .tc := ⟨.hbm, 132, rfl⟩
abbrev main_call0_c_10 : Ref sig .tc := ⟨.hbm, 133, rfl⟩
abbrev main_call0_v29 : Ref sig .tc := ⟨.hbm, 134, rfl⟩
abbrev main_call0_v30 : Ref sig .tc := ⟨.hbm, 135, rfl⟩
abbrev main_call0_v31 : Ref sig .tc := ⟨.hbm, 136, rfl⟩
abbrev main_call0_c_11 : Ref sig .tc := ⟨.hbm, 137, rfl⟩
abbrev main_call0_v32 : Ref sig .tc := ⟨.hbm, 138, rfl⟩
abbrev main_call0_v33 : Ref sig .tc := ⟨.hbm, 139, rfl⟩
abbrev main_call0_c_12 : Ref sig .tc := ⟨.hbm, 140, rfl⟩
abbrev main_call0_v34 : Ref sig .tc := ⟨.hbm, 141, rfl⟩
abbrev main_call0_v35 : Ref sig .tc := ⟨.hbm, 142, rfl⟩
abbrev main_call0_v36 : Ref sig .tc := ⟨.hbm, 143, rfl⟩
abbrev main_call0_v37 : Ref sig .tc := ⟨.hbm, 144, rfl⟩
abbrev main_call0_v38 : Ref sig .tc := ⟨.hbm, 145, rfl⟩
abbrev main_call0_v39 : Ref sig .tc := ⟨.hbm, 146, rfl⟩
abbrev main_call0_v40 : Ref sig .tc := ⟨.hbm, 147, rfl⟩
abbrev main_v0_2 : Ref sig .tc := ⟨.hbm, 148, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S1536x256_S768x256_0_0 : S1536x256.Slices ![0, 0] S768x256
  slices_S1536x256_S768x256_768_0 : S1536x256.Slices ![768, 0] S768x256
  shapeCasts_S256_S1x256 : S256.ShapeCasts S1x256
  shapeCasts_S256x1_S1x256 : S256x1.ShapeCasts S1x256
  shapeCasts_S1_S1x1 : S1.ShapeCasts S1x1
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x1_S130816x1_S130816x2_d1 : Shape.Concatenates [S130816x1, S130816x1] S130816x2 1
  shapeCasts_S130816_S130816x1 : S130816.ShapeCasts S130816x1
  inb_S512x768_S512x768_0_0 : ∀ a, (![0, 0] : Fin 2 → Nat) a + S512x768.size a ≤ S512x768.size a
  h_S512x768 : 0 < S512x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S128x128_S128x128_0_0 : ∀ a, (![0, 0] : Fin 2 → Nat) a + S128x128.size a ≤ S128x128.size a
  h_S128x128 : 0 < S128x128.numel
  inb_S128x256_S128x64_0_0 : ∀ a, (![0, 0] : Fin 2 → Nat) a + S128x64.size a ≤ S128x256.size a
  h_S128x64 : 0 < S128x64.numel
  shapeCasts_S128x64_S128x64 : S128x64.ShapeCasts S128x64
  inb_S1x256_S1x64_0_0 : ∀ a, (![0, 0] : Fin 2 → Nat) a + S1x64.size a ≤ S1x256.size a
  h_S1x64 : 0 < S1x64.numel
  shapeCasts_S1x64_S64 : S1x64.ShapeCasts S64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S64_S1x1x64 : S64.ShapeCasts S1x1x64
  broadcasts_S1x1x64_S128x128x64 : S1x1x64.Broadcasts S128x128x64
  reduces_S128x128x64_S128x128 : S128x128x64.Reduces [2] S128x128
  inb_S128x256_S128x64_0_64 : ∀ a, (![0, 64] : Fin 2 → Nat) a + S128x64.size a ≤ S128x256.size a
  inb_S1x256_S1x64_0_64 : ∀ a, (![0, 64] : Fin 2 → Nat) a + S1x64.size a ≤ S1x256.size a
  inb_S128x256_S128x64_0_128 : ∀ a, (![0, 128] : Fin 2 → Nat) a + S128x64.size a ≤ S128x256.size a
  inb_S1x256_S1x64_0_128 : ∀ a, (![0, 128] : Fin 2 → Nat) a + S1x64.size a ≤ S1x256.size a
  inb_S128x256_S128x64_0_192 : ∀ a, (![0, 192] : Fin 2 → Nat) a + S128x64.size a ≤ S128x256.size a
  inb_S1x256_S1x64_0_192 : ∀ a, (![0, 192] : Fin 2 → Nat) a + S1x64.size a ≤ S1x256.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S130816_S262144x1_S262144_n_0_0_1_wf : ScatterDims.WF S130816 S262144x1 S262144 [] [0] [0] 1
  gather_S512x512_S130816x2_S130816_n_01_n_n_01_1_11_wf : GatherDims.WF S512x512 S130816x2 S130816 [] [0, 1] [] [0, 1] [] 1 ![1, 1]
  dot_S512x768_S768x256_S512x256_1_0_0_1_n_n_wf : DotDims.WF S512x768 S768x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S512x768.size a
  hwx0_0 : ∀ i : grid0.Coords, EltTy.bits .f32 = 32 ∨ (Rect.block (s := S512x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S512x256.size a
  hwx1_0 : ∀ i : grid1.Coords, EltTy.bits .f32 = 32 ∨ (Rect.block (s := S512x256) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S512x256.size a
  hwx1_1 : ∀ i : grid1.Coords, EltTy.bits .f32 = 32 ∨ (Rect.block (s := S512x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S512x512.size a
  hwx1_4 : ∀ i : grid1.Coords, EltTy.bits .f32 = 32 ∨ (Rect.block (s := S512x512) S128x128.size (cc1_transform_4 i) (hinb1_4 i)).WholeWords (EltTy.packing .f32)

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x512_S130816x2_S130816_n_01_n_n_01_1_11 : GatherDims S512x512 S130816x2 S130816 where
  offsetDims := []
  collapsedSliceDims := [0, 1]
  operandBatchingDims := []
  startIndicesBatchingDims := []
  startIndexMap := [0, 1]
  indexVectorDim := 1
  sliceSizes := ![1, 1]
  wf := gather_S512x512_S130816x2_S130816_n_01_n_n_01_1_11_wf
def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf

abbrev win0_0 : Pipeline.Window sig grid0 :=
  Pipeline.Window.ofSpec (Memref.whole main_arg0) S512x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_0) S512x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_1) S512x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v3_0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_1) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x768 : Shape := ⟨2, ![512, 768]⟩
abbrev S1536x256 : Shape := ⟨2, ![1536, 256]⟩
abbrev S256 : Shape := ⟨1, ![256]⟩
abbrev S256x1 : Shape := ⟨2, ![256, 1]⟩
abbrev S1 : Shape := ⟨1, ![1]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x768 : Shape := ⟨2, ![130816, 768]⟩
abbrev S130816x1536 : Shape := ⟨2, ![130816, 1536]⟩
abbrev S130816x256 : Shape := ⟨2, ![130816, 256]⟩
abbrev S1x256 : Shape := ⟨2, ![1, 256]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S512x768, .f32⟩
  | 1 => ⟨S1536x256, .f32⟩
  | 2 => ⟨S256, .f32⟩
  | 3 => ⟨S256x1, .f32⟩
  | 4 => ⟨S1, .f32⟩
  | 5 => ⟨S_, .f32⟩
  | 6 => ⟨S512x512, .f32⟩
  | 7 => ⟨S512x512, .i32⟩
  | 8 => ⟨S_, .i32⟩
  | 9 => ⟨S512x512, .i32⟩
  | 10 => ⟨S512x512, .i32⟩
  | 11 => ⟨S512x512, .i32⟩
  | 12 => ⟨S512x512, .i1⟩
  | 13 => ⟨S_, .f32⟩
  | 14 => ⟨S512x512, .f32⟩
  | 15 => ⟨S512x512, .f32⟩
  | 16 => ⟨S_, .f32⟩
  | 17 => ⟨S512x512, .f32⟩
  | 18 => ⟨S512x512, .i1⟩
  | 19 => ⟨S262144, .i1⟩
  | 20 => ⟨S262144, .i32⟩
  | 21 => ⟨S_, .i32⟩
  | 22 => ⟨S_, .i32⟩
  | 23 => ⟨S262144, .i32⟩
  | 24 => ⟨S_, .i32⟩
  | 25 => ⟨S130816, .i32⟩
  | 26 => ⟨S_, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S262144x1, .i32⟩
  | 38 => ⟨S_, .i32⟩
  | 39 => ⟨S262144, .i32⟩
  | 40 => ⟨S130816, .i32⟩
  | 41 => ⟨S_, .i32⟩
  | 42 => ⟨S_, .i32⟩
  | 43 => ⟨S130816, .i32⟩
  | 44 => ⟨S_, .i32⟩
  | 45 => ⟨S130816, .i32⟩
  | 46 => ⟨S130816, .i32⟩
  | 47 => ⟨S130816, .i32⟩
  | 48 => ⟨S_, .i32⟩
  | 49 => ⟨S130816, .i32⟩
  | 50 => ⟨S130816, .i1⟩
  | 51 => ⟨S130816, .i32⟩
  | 52 => ⟨S130816, .i32⟩
  | 53 => ⟨S_, .i32⟩
  | 54 => ⟨S130816, .i32⟩
  | 55 => ⟨S130816, .i1⟩
  | 56 => ⟨S130816, .i1⟩
  | 57 => ⟨S_, .i32⟩
  | 58 => ⟨S130816, .i32⟩
  | 59 => ⟨S130816, .i32⟩
  | 60 => ⟨S130816, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S130816, .i32⟩
  | 68 => ⟨S130816, .i32⟩
  | 69 => ⟨S_, .i32⟩
  | 70 => ⟨S130816, .i32⟩
  | 71 => ⟨S130816, .i1⟩
  | 72 => ⟨S_, .i32⟩
  | 73 => ⟨S130816, .i32⟩
  | 74 => ⟨S130816, .i1⟩
  | 75 => ⟨S_, .i32⟩
  | 76 => ⟨S_, .i1⟩
  | 77 => ⟨S130816, .i1⟩
  | 78 => ⟨S130816, .i1⟩
  | 79 => ⟨S130816, .i1⟩
  | 80 => ⟨S130816, .i32⟩
  | 81 => ⟨S130816, .i32⟩
  | 82 => ⟨S130816, .i32⟩
  | 83 => ⟨S_, .i32⟩
  | 84 => ⟨S130816, .i32⟩
  | 85 => ⟨S130816, .i32⟩
  | 86 => ⟨S130816, .i32⟩
  | 87 => ⟨S_, .i32⟩
  | 88 => ⟨S130816, .i32⟩
  | 89 => ⟨S130816, .i1⟩
  | 90 => ⟨S130816, .i32⟩
  | 91 => ⟨S130816, .i32⟩
  | 92 => ⟨S_, .i32⟩
  | 93 => ⟨S130816, .i32⟩
  | 94 => ⟨S130816, .i1⟩
  | 95 => ⟨S130816, .i1⟩
  | 96 => ⟨S_, .i32⟩
  | 97 => ⟨S130816, .i32⟩
  | 98 => ⟨S130816, .i32⟩
  | 99 => ⟨S130816, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S130816, .i32⟩
  | 107 => ⟨S130816, .i32⟩
  | 108 => ⟨S_, .i32⟩
  | 109 => ⟨S130816, .i32⟩
  | 110 => ⟨S130816, .i1⟩
  | 111 => ⟨S_, .i32⟩
  | 112 => ⟨S130816, .i32⟩
  | 113 => ⟨S130816, .i1⟩
  | 114 => ⟨S_, .i32⟩
  | 115 => ⟨S_, .i1⟩
  | 116 => ⟨S130816, .i1⟩
  | 117 => ⟨S130816, .i1⟩
  | 118 => ⟨S130816, .i1⟩
  | 119 => ⟨S130816, .i32⟩
  | 120 => ⟨S130816, .i32⟩
  | 121 => ⟨S130816, .i32⟩
  | 122 => ⟨S_, .i32⟩
  | 123 => ⟨S130816, .i32⟩
  | 124 => ⟨S130816, .i1⟩
  | 125 => ⟨S_, .i32⟩
  | 126 => ⟨S130816, .i32⟩
  | 127 => ⟨S130816, .i32⟩
  | _ => ⟨S512x768, .f32⟩

abbrev hbmTy0_1 (i : Nat) : BufTy := match i % 128 with
  | 0 => ⟨S130816, .i32⟩
  | 1 => ⟨S130816x1, .i32⟩
  | 2 => ⟨S130816x768, .f32⟩
  | 3 => ⟨S_, .i32⟩
  | 4 => ⟨S130816, .i32⟩
  | 5 => ⟨S130816, .i1⟩
  | 6 => ⟨S_, .i32⟩
  | 7 => ⟨S130816, .i32⟩
  | 8 => ⟨S130816, .i32⟩
  | 9 => ⟨S130816, .i32⟩
  | 10 => ⟨S130816x1, .i32⟩
  | 11 => ⟨S130816x768, .f32⟩
  | 12 => ⟨S130816x1536, .f32⟩
  | 13 => ⟨S130816x256, .f32⟩
  | 14 => ⟨S1x256, .f32⟩
  | 15 => ⟨S130816x256, .f32⟩
  | 16 => ⟨S130816x256, .f32⟩
  | 17 => ⟨S_, .f32⟩
  | 18 => ⟨S130816x256, .f32⟩
  | 19 => ⟨S130816x256, .f32⟩
  | 20 => ⟨S130816x1, .f32⟩
  | 21 => ⟨S1x1, .f32⟩
  | 22 => ⟨S130816x1, .f32⟩
  | 23 => ⟨S130816x1, .f32⟩
  | _ => ⟨S512x768, .f32⟩

abbrev hbmTy (i : Nat) : BufTy := match i / 128 with
  | 0 => hbmTy0_0 i
  | 1 => hbmTy0_1 i
  | _ => ⟨S512x768, .f32⟩

abbrev bufTy : (tb : Table) → Fin (tcTables nBuf tb) → BufTy
  | .hbm, ⟨i, _⟩ => hbmTy i
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_call0_c : Ref sig .tc := ⟨.hbm, 21, rfl⟩
abbrev main_call1_call0_v0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_call2_v1 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_c_3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_call3_call0_c : Ref sig .tc := ⟨.hbm, 41, rfl⟩
abbrev main_call3_call0_v0 : Ref sig .tc := ⟨.hbm, 42, rfl⟩
abbrev main_v15 : Ref sig .tc := ⟨.hbm, 43, rfl⟩
abbrev main_c_5 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_v6 : Ref sig .tc := ⟨.hbm, 51, rfl⟩
abbrev main_call4_v7 : Ref sig .tc := ⟨.hbm, 52, rfl⟩
abbrev main_call4_c : Ref sig .tc := ⟨.hbm, 53, rfl⟩
abbrev main_call4_v8 : Ref sig .tc := ⟨.hbm, 54, rfl⟩
abbrev main_call4_v9 : Ref sig .tc := ⟨.hbm, 55, rfl⟩
abbrev main_call4_v10 : Ref sig .tc := ⟨.hbm, 56, rfl⟩
abbrev main_call4_c_0 : Ref sig .tc := ⟨.hbm, 57, rfl⟩
abbrev main_call4_v11 : Ref sig .tc := ⟨.hbm, 58, rfl⟩
abbrev main_call4_v12 : Ref sig .tc := ⟨.hbm, 59, rfl⟩
abbrev main_v16 : Ref sig .tc := ⟨.hbm, 60, rfl⟩
abbrev main_c_6 : Ref sig .tc := ⟨.hbm, 61, rfl⟩
abbrev main_call5_v0 : Ref sig .tc := ⟨.hbm, 62, rfl⟩
abbrev main_call5_c : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_c_1 : Ref sig .tc := ⟨.hbm, 69, rfl⟩
abbrev main_call5_v5 : Ref sig .tc := ⟨.hbm, 70, rfl⟩
abbrev main_call5_v6 : Ref sig .tc := ⟨.hbm, 71, rfl⟩
abbrev main_call5_c_2 : Ref sig .tc := ⟨.hbm, 72, rfl⟩
abbrev main_call5_v7 : Ref sig .tc := ⟨.hbm, 73, rfl⟩
abbrev main_call5_v8 : Ref sig .tc := ⟨.hbm, 74, rfl⟩
abbrev main_call5_c_3 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_v17 : Ref sig .tc := ⟨.hbm, 82, rfl⟩
abbrev main_c_7 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_c : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_c_0 : Ref sig .tc := ⟨.hbm, 96, rfl⟩
abbrev main_call6_v11 : Ref sig .tc := ⟨.hbm, 97, rfl⟩
abbrev main_call6_v12 : Ref sig .tc := ⟨.hbm, 98, rfl⟩
abbrev main_v18 : Ref sig .tc := ⟨.hbm, 99, rfl⟩
abbrev main_c_8 : Ref sig .tc := ⟨.hbm, 100, rfl⟩
abbrev main_call7_v0 : Ref sig .tc := ⟨.hbm, 101, rfl⟩
abbrev main_call7_c : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_1 : Ref sig .tc := ⟨.hbm, 108, rfl⟩
abbrev main_call7_v5 : Ref sig .tc := ⟨.hbm, 109, rfl⟩
abbrev main_call7_v6 : Ref sig .tc := ⟨.hbm, 110, rfl⟩
abbrev main_call7_c_2 : Ref sig .tc := ⟨.hbm, 111, rfl⟩
abbrev main_call7_v7 : Ref sig .tc := ⟨.hbm, 112, rfl⟩
abbrev main_call7_v8 : Ref sig .tc := ⟨.hbm, 113, rfl⟩
abbrev main_call7_c_3 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_v12 : Ref sig .tc := ⟨.hbm, 118, rfl⟩
abbrev main_call7_v13 : Ref sig .tc := ⟨.hbm, 119, rfl⟩
abbrev main_call7_v14 : Ref sig .tc := ⟨.hbm, 120, rfl⟩
abbrev main_v19 : Ref sig .tc := ⟨.hbm, 121, rfl⟩
abbrev main_c_9 : Ref sig .tc := ⟨.hbm, 122, rfl⟩
abbrev main_v20 : Ref sig .tc := ⟨.hbm, 123, rfl⟩
abbrev main_v21 : Ref sig .tc := ⟨.hbm, 124, rfl⟩
abbrev main_c_10 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_c_11 : Ref sig .tc := ⟨.hbm, 131, rfl⟩
abbrev main_v27 : Ref sig .tc := ⟨.hbm, 132, rfl⟩
abbrev main_v28 : Ref sig .tc := ⟨.hbm, 133, rfl⟩
abbrev main_c_12 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_call8_cst : Ref sig .tc := ⟨.hbm, 145, rfl⟩
abbrev main_call8_v0 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x768_S130816x768_S130816x1536_d1 : Shape.Concatenates [S130816x768, S130816x768] S130816x1536 1
  bcast_S256_S1x256_1 : S256.BroadcastsInDim S1x256 (![1] : Fin 1 → Fin S1x256.rank)
  bcast_S1x256_S130816x256_0_1 : S1x256.BroadcastsInDim S130816x256 (![0, 1] : Fin 2 → Fin S130816x256.rank)
  bcast_S_S130816x256 : S_.BroadcastsInDim S130816x256 (![] : Fin 0 → Fin S130816x256.rank)
  bcast_S1_S1x1_1 : S1.BroadcastsInDim S1x1 (![1] : Fin 1 → Fin S1x1.rank)
  bcast_S1x1_S130816x1_0_1 : S1x1.BroadcastsInDim S130816x1 (![0, 1] : Fin 2 → Fin S130816x1.rank)
  scatter_S130816_S262144x1_S262144_n_0_0_1_wf : ScatterDims.WF S130816 S262144x1 S262144 [] [0] [0] 1
  gather_S512x768_S130816x1_S130816x768_1_0_n_n_0_1_1768_wf : GatherDims.WF S512x768 S130816x1 S130816x768 [1] [0] [] [0] [] 1 ![1, 768]
  dot_S130816x1536_S1536x256_S130816x256_1_0_0_1_n_n_wf : DotDims.WF S130816x1536 S1536x256 S130816x256 [1] [0] [0] [1] [] []
  dot_S130816x256_S256x1_S130816x1_1_0_0_1_n_n_wf : DotDims.WF S130816x256 S256x1 S130816x1 [1] [0] [0] [1] [] []

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x768_S130816x1_S130816x768_1_0_n_n_0_1_1768 : GatherDims S512x768 S130816x1 S130816x768 where
  offsetDims := [1]
  collapsedSliceDims := [0]
  operandBatchingDims := []
  startIndicesBatchingDims := []
  startIndexMap := [0]
  indexVectorDim := 1
  sliceSizes := ![1, 768]
  wf := gather_S512x768_S130816x1_S130816x768_1_0_n_n_0_1_1768_wf
def dot_S130816x1536_S1536x256_S130816x256_1_0_0_1_n_n : DotDims S130816x1536 S1536x256 S130816x256 where
  lhsContracting := [1]
  rhsContracting := [0]
  lhsNonContracting := [0]
  rhsNonContracting := [1]
  lhsBatch := []
  rhsBatch := []
  wf := dot_S130816x1536_S1536x256_S130816x256_1_0_0_1_n_n_wf
def dot_S130816x256_S256x1_S130816x1_1_0_0_1_n_n : DotDims S130816x256 S256x1 S130816x1 where
  lhsContracting := [1]
  rhsContracting := [0]
  lhsNonContracting := [0]
  rhsNonContracting := [1]
  lhsBatch := []
  rhsBatch := []
  wf := dot_S130816x256_S256x1_S130816x1_1_0_0_1_n_n_wf

class Facts : Prop extends Facts₀ where

variable [Facts]
-- ==== Proof.ABBody.lean ====
/-
  The first launch of the kernel program: ONE grid point, whose body reads the whole feature matrix
  E (512 x 768), the two halves W1a, W1b (768 x 256 each) of the first layer's weights and the bias row
  b1 (1 x 256), and stores  A = E · W1a + b1  and  B = E · W1b  (512 x 256 each) whole.
  Stated at a parameter `V`: the TensorCore's buffer contents when the launch is entered.  What each
  output's staging buffer holds after the body is the body's one store over the blocks it loaded; the
  body's triple is the symbolic run of its skeleton; the proof data name, per window, the array found at
  entry and the block the body leaves.
-/
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the point, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body starts, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rE : Rect S512x768 := Rect.unit (s := S512x768) ![0, 0] S512x768.size inb_S512x768_S512x768_0_0
abbrev rW : Rect S768x256 := Rect.unit (s := S768x256) ![0, 0] S768x256.size inb_S768x256_S768x256_0_0
abbrev rb : Rect S1x256 := Rect.unit (s := S1x256) ![0, 0] S1x256.size inb_S1x256_S1x256_0_0
abbrev rO : Rect S512x256 := Rect.unit (s := S512x256) ![0, 0] S512x256.size inb_S512x256_S512x256_0_0

/-- The first output's buffer after the body: the product of the feature block with the first half of the
    weights, plus the bias row. -/
def outA (x0 : Vec F S512x768 .f32) (x1 : Vec F S768x256 .f32) (x3 : Vec F S1x256 .f32) : Vec F S512x256 .f32 :=
  View.canon [⟨rO, k0_pay1 (View.ld x0 rE) (View.ld x1 rW) (View.ld x3 rb)⟩]
/-- The second output's buffer after the body: the product of the feature block with the second half. -/
def outB (x0 : Vec F S512x768 .f32) (x2 : Vec F S768x256 .f32) : Vec F S512x256 .f32 :=
  View.canon [⟨rO, k0_pay2 (View.ld x0 rE) (View.ld x2 rW)⟩]

/-- The one store covers the output's buffer. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

set_option maxHeartbeats 1000000 in
/-- The body on whole staging memrefs, the inputs' at read contents and the outputs' at anything, runs to the
    continuation holding the inputs' as they were and the outputs' at `outA`, `outB` of the inputs'. -/
theorem sound_kernel0 (c : Dev nD) (E : Set ℕ) (i : grid0.Coords)
    (arg1 : Memref sig .tc .vmem S512x768 .f32) (harg1 : arg1.IsWhole) (arg2 : Memref sig .tc .vmem S768x256 .f32) (harg2 : arg2.IsWhole)
    (arg3 : Memref sig .tc .vmem S768x256 .f32) (harg3 : arg3.IsWhole) (arg4 : Memref sig .tc .vmem S1x256 .f32) (harg4 : arg4.IsWhole)
    (arg5 : Memref sig .tc .vmem S512x256 .f32) (harg5 : arg5.IsWhole) (arg6 : Memref sig .tc .vmem S512x256 .f32) (harg6 : arg6.IsWhole)
    (x0 : Vec F S512x768 .f32) (x1 : Vec F S768x256 .f32) (x2 : Vec F S768x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x0 x1 x3)
            ∗ owns (c : Thread nD τ) arg6 fullShare (outB x0 x2)) -∗ K ⟨⟩))
      ⊢ wp frame (wpE (defs₀ (F := F)) Variants.none c none) E (cc0__ab_kernel i arg1 harg1 arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The proof data of the first launch -/

/-- On core `c`: the arrays as the launch finds them; after the body the inputs' buffers at their blocks and the
    outputs' at `outA` / `outB` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outA (iblk0 V c 0 t) (iblk0 V c 1 t) (iblk0 V c 3 t)
    | ⟨5, _⟩ => outB (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outA (iblk0 V c 0 t) (iblk0 V c 1 t) (iblk0 V c 3 t) := by dsimp only [dat0]
theorem after0_5 (c : Dev nD) (t : Fin cfg0.N) : (dat0 V c).after 5 t = outB (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at the point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.AB

end
-- ==== Proof.KRun.lean ====
/-
  The kernel program's run, from the launch to the return.  Its entry function is three stretches of host
  operations around two launches:  slice W1 into its halves and reshape b1;  launch 1 (A = E·W1a + b1,
  B = E·W1b);  reshape W2 and b2;  launch 2 (the 512 x 512 score matrix, tile by tile);  then the index lists of
  the strict upper triangle and the gather of the scores at them.
  The buffer contents at each boundary are a fold from the launch memory: a host stretch applies its operations,
  a launch replaces its output arrays by what its write-backs leave and keeps everything else.  Each launch is a
  segment entered from "every unscoped buffer at the boundary's contents", and the composition of the five
  segments gives: every execution terminates, nothing faults, and the final memory is the last boundary's
  contents at every unscoped buffer.
  The second launch's half is taken as a bundle `Pair1` (its proof data, their projections and the body
  obligation): the run needs nothing else of that launch.
-/
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import proofs.«145914_j27221502722563_2_alg».proof.Proof.ABBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The second launch's half, at any entry contents `V`: its proof data, with arrays read off `V`, the class
    invariant (the scoped rest and the generator register), full shares, nothing owed, and the body obligation. -/
structure Pair1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hΦ : ∀ V c k, (dat V c).Φ k = Pipeline.ΦA spec1 c
  hq : ∀ V c w, (dat V c).q w = fullShare
  howed : ∀ V c k, (dat V c).owed k = 0
  hrec : ∀ V c k, (dat V c).recorded k = Set.univ
  hbody : ∀ V c, BodyObligation (dat V c) (defs₀ (F := F)) Variants.none () Set.univ

variable (P1 : Pair1 F)
variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the write-backs leave, every other buffer as entered. -/
def W2 (c : Dev nD) : Valuation τ sig (Elt F) :=
  Pipeline.withArrays spec0 c (W1 m ρ c) fun w => (AB.dat0 (V1 m ρ) c).arrAt w cfg0.N
theorem W2_arr (c : Dev nD) (w : Fin cfg0.W) :
    W2 m ρ c (Proc.devRef .tc (Pipeline.arrRef spec0 w)) = (AB.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second host stretch (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (P1.dat (V3 m ρ) c).arrAt w cfg1.N
theorem W4_arr (c : Dev nD) (w : Fin cfg1.W) :
    W4 P1 m ρ c (Proc.devRef .tc (Pipeline.arrRef spec1 w)) = (P1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 P1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 P1 m ρ c b
/-- After the last host stretch: what the program returns with. -/
abbrev W5 : Dev nD → Valuation τ sig (Elt F) := fun c => StableHlo.after hostOps2 (W4 P1 m ρ c)

theorem hF0 (c : Dev nD) (w : Fin cfg0.W) : (AB.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (P1.dat (V3 m ρ) c).arrAt w cfg1.N = V4 P1 m ρ c (Pipeline.arrRef spec1 w) :=
  (W4_arr P1 m ρ c w).symm
theorem hrest1 (c : Dev nD) : ∀ b, b ∉ Finset.univ.image (Pipeline.arrRef spec1) → V4 P1 m ρ c b = V3 m ρ c b :=
  fun b hb => W4_of_ne P1 m ρ c b fun w e => hb (Finset.mem_image.mpr ⟨w, Finset.mem_univ _, e⟩)

/-! ## The proof data family and the thread state -/

/-- No launch has a prefetched table. -/
abbrev adm : (p : Fin 2) → (pcfgs (F := F) p).Adm := fun p => (cfgs p).toPCfg_adm
/-- Every launch's proof data, each at its entry contents. -/
def pdats : (p : Fin 2) → (c : Dev nD) → Dat τ (Elt F) Unit ℕ (UR sig nD τ) ℕ (Pipeline.pin (pcfgs (F := F)) adm p) c
  | ⟨0, _⟩ => fun c => AB.dat0 (V1 m ρ) c
  | ⟨1, _⟩ => fun c => P1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core
    owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W5 P1 m ρ c) ∗ ∃ r, prngReg c r)

/-! ## The launches as segments -/

set_option backward.isDefEq.respectTransparency.types false in
/-- The first launch: entered from every unscoped buffer at `W1`, left at `W2`. -/
def reg0 : Pipeline.RegionSeg (pcfgs (F := F)) adm (pdats P1 m ρ) () defs₀ 𝒱₀ L lv 0 where
  win := launch0.win.to₀
  block_pos := launch0.block_pos
  stage_whole := launch0.stage_whole
  K := PEmpty
  osem k := k.elim
  ho := Pipeline.OwnSemFacts.none _
  hbody c := (AB.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats P1 m ρ) launch0.win launch0.arr_whole c
      ((pdats P1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats P1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats P1 m ρ) ((pdats P1 m ρ 0 c).share_full fun _ => rfl)
      (V1 m ρ c) (V2 m ρ c) ((pdats P1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) adm (pdats P1 m ρ) () defs₀ 𝒱₀ L lv 1 where
  win := launch1.win.to₀
  block_pos := launch1.block_pos
  stage_whole := launch1.stage_whole
  K := PEmpty
  osem k := k.elim
  ho := Pipeline.OwnSemFacts.none _
  hbody c := (P1.hbody (V3 m ρ) c).loose
  hwaits := Pipeline.hwaits_of_owed_zero _ _ _ _ L lv 1 fun c t => P1.howed (V3 m ρ) c t
  pre c := iprop(StableHlo.held (c : Thread nD τ) (Pipeline.ucRefs τ sig) (W3 m ρ c) ∗ R c)
  post c := iprop(StableHlo.held (c : Thread nD τ) (Pipeline.ucRefs τ sig) (W4 P1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats P1 m ρ) launch1.win launch1.arr_whole c
      ((pdats P1 m ρ 1 c).share_full fun w => P1.hq (V3 m ρ) c w) (V3 m ρ c) fun w => P1.hA (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P1 m ρ 1 c).owed 0 = 0 from P1.howed (V3 m ρ) c 0]
      icases HO with ⟨%W, HO⟩; iexists W; isplitr; · ipureintro; exact fun _ _ => Or.inl (by rw [show (pdats P1 m ρ 1 c).recorded 0 = Set.univ from P1.hrec (V3 m ρ) c 0]; exact Set.mem_univ _)
      iexact HO
    isplitl [Hp]; · iexact Hp
    iexact Hrest
  hin c := by
    rw [show (pdats P1 m ρ 1 c).Φ 0 = Pipeline.ΦA spec1 c from P1.hΦ (V3 m ρ) c 0]; unfold Pipeline.ΦA
    iintro ⟨Hp, -, Hr⟩
    isplitl [Hr]; · iexact Hr
    iexact Hp
  hout c := by
    rw [Pipeline.ownSems0_none, show (pdats P1 m ρ 1 c).Φ (Fin.last _) = Pipeline.ΦA spec1 c from P1.hΦ (V3 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P1 m ρ) ((pdats P1 m ρ 1 c).share_full fun w => P1.hq (V3 m ρ) c w)
      (V3 m ρ c) (V4 P1 m ρ c) ((pdats P1 m ρ 1 c).arrAt · cfg1.N) (hF1 P1 m ρ c) (hrest1 P1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P1 m ρ 1 c).owed (Fin.last _) = 0 from P1.howed (V3 m ρ) c (Fin.last _)]
    icases HO with ⟨%W, -, HO⟩; iexists W; iexact HO

/-! ## The entry function as segments, and the launch -/

/-- The five segments in order. -/
abbrev segs : List (Pipeline.Seg (pcfgs (F := F)) adm (pdats P1 m ρ) () defs₀ 𝒱₀ L lv) :=
  [ .host (hseg hostOps0 hostOps0_sub hostOps0_fresh (W0 m ρ)),
    .region (reg0 P1 m ρ),
    .host (hseg hostOps1 hostOps1_sub hostOps1_fresh (W2 m ρ)),
    .region (reg1 P1 m ρ),
    .host (hseg hostOps2 hostOps2_sub hostOps2_fresh (W4 P1 m ρ)) ]

set_option maxHeartbeats 4000000 in
/-- The entry function IS the run of the segments. -/
theorem main_run (c : Dev nD) : main (F := F) c = Pipeline.Seg.run (segs P1 m ρ) := (main_chain c).trans (by chain_rfl)

set_option backward.isDefEq.respectTransparency.types false in
/-- Every weakly fair execution of the entry function terminates, nothing faulting, and the final memory holds
    the last boundary's contents at every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 P1 m ρ c b) :=
  Pipeline.θ_run_regions_kit (pcfgs (F := F)) adm (pdats P1 m ρ) () cellOf_inj emb₁ defs₀ 𝒱₀ L lv m ρ main (segs P1 m ρ)
    (fun c Q => by rw [main_run P1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ P1 m ρ)
    (hch := ⟨fun _ => .rfl, fun _ => .rfl, fun _ => .rfl, fun _ => .rfl, fun _ => .rfl, fun c =>
      (show iprop(StableHlo.held (c : Thread nD τ) (Pipeline.ucRefs τ sig) (W5 P1 m ρ c) ∗ R c)
          ⊢ iprop(Tₙ P1 m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 P1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 P1 m ρ c) s')
      isplitl [Hh] <;> iassumption)
    (hQ := fun s h c => h c)

end Cert.KernelIdeal.Run

end
-- ==== Proof.KPost.lean ====
/-
  What the kernel program's run leaves at the buffers the claims speak of.  The five argument arrays end as
  launched: no host operation writes one, and a launch either reads it through an input window (the feature
  matrix, by the first launch) or does not touch it.
-/
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import proofs.«145914_j27221502722563_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (P1 : Pair1 F)
variable (m : (ℓ : Loc nD τ sig) → Buf (Elt F) ℓ) (ρ : Dev nD → PrngReg)

set_option maxHeartbeats 4000000 in
theorem W5_main_arg0 (c : Dev nD) : W5 P1 m ρ c (Proc.devRef .tc main_arg0) = m ((c : Thread nD τ).loc main_arg0) :=
  calc W5 P1 m ρ c (Proc.devRef .tc main_arg0)
    _ = W4 P1 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne P1 m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((AB.dat0 (V1 m ρ) c).arrAt_in 0 rfl _).trans (AB.A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

set_option maxHeartbeats 4000000 in
theorem W5_main_arg1 (c : Dev nD) : W5 P1 m ρ c (Proc.devRef .tc main_arg1) = m ((c : Thread nD τ).loc main_arg1) :=
  calc W5 P1 m ρ c (Proc.devRef .tc main_arg1)
    _ = W4 P1 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne P1 m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

set_option maxHeartbeats 4000000 in
theorem W5_main_arg2 (c : Dev nD) : W5 P1 m ρ c (Proc.devRef .tc main_arg2) = m ((c : Thread nD τ).loc main_arg2) :=
  calc W5 P1 m ρ c (Proc.devRef .tc main_arg2)
    _ = W4 P1 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne P1 m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 4000000 in
theorem W5_main_arg3 (c : Dev nD) : W5 P1 m ρ c (Proc.devRef .tc main_arg3) = m ((c : Thread nD τ).loc main_arg3) :=
  calc W5 P1 m ρ c (Proc.devRef .tc main_arg3)
    _ = W4 P1 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne P1 m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

set_option maxHeartbeats 4000000 in
theorem W5_main_arg4 (c : Dev nD) : W5 P1 m ρ c (Proc.devRef .tc main_arg4) = m ((c : Thread nD τ).loc main_arg4) :=
  calc W5 P1 m ρ c (Proc.devRef .tc main_arg4)
    _ = W4 P1 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne P1 m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

include P1 in
/-- The frame claim's statement at any `F`: the run ends with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 P1 m ρ c),
     (h c _ (mem_uc main_arg1 (by decide))).trans (W5_main_arg1 P1 m ρ c),
     (h c _ (mem_uc main_arg2 (by decide))).trans (W5_main_arg2 P1 m ρ c),
     (h c _ (mem_uc main_arg3 (by decide))).trans (W5_main_arg3 P1 m ρ c),
     (h c _ (mem_uc main_arg4 (by decide))).trans (W5_main_arg4 P1 m ρ c)⟩) (run P1 m ρ)

end Cert.KernelIdeal.Run

end
-- ==== Proof.BitsABBody.lean ====
/-
  The first launch of the kernel program: ONE grid point, whose body reads the whole feature matrix
  E (512 x 768), the two halves W1a, W1b (768 x 256 each) of the first layer's weights and the bias row
  b1 (1 x 256), and stores  A = E · W1a + b1  and  B = E · W1b  (512 x 256 each) whole.
  Stated at a parameter `V`: the TensorCore's buffer contents when the launch is entered.  What each
  output's staging buffer holds after the body is the body's one store over the blocks it loaded; the
  body's triple is the symbolic run of its skeleton; the proof data name, per window, the array found at
  entry and the block the body leaves.
-/
import proofs.«145914_j27221502722563_2_alg».proof.Proof.Gen.Kernel.Launch
import proofs.«145914_j27221502722563_2_alg».proof.Proof.Gen.Kernel.Skeleton
import proofs.«145914_j27221502722563_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the point, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body starts, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rE : Rect S512x768 := Rect.unit (s := S512x768) ![0, 0] S512x768.size inb_S512x768_S512x768_0_0
abbrev rW : Rect S768x256 := Rect.unit (s := S768x256) ![0, 0] S768x256.size inb_S768x256_S768x256_0_0
abbrev rb : Rect S1x256 := Rect.unit (s := S1x256) ![0, 0] S1x256.size inb_S1x256_S1x256_0_0
abbrev rO : Rect S512x256 := Rect.unit (s := S512x256) ![0, 0] S512x256.size inb_S512x256_S512x256_0_0

/-- The first output's buffer after the body: the product of the feature block with the first half of the
    weights, plus the bias row. -/
def outA (x0 : Vec F S512x768 .f32) (x1 : Vec F S768x256 .f32) (x3 : Vec F S1x256 .f32) : Vec F S512x256 .f32 :=
  View.canon [⟨rO, k0_pay1 (View.ld x0 rE) (View.ld x1 rW) (View.ld x3 rb)⟩]
/-- The second output's buffer after the body: the product of the feature block with the second half. -/
def outB (x0 : Vec F S512x768 .f32) (x2 : Vec F S768x256 .f32) : Vec F S512x256 .f32 :=
  View.canon [⟨rO, k0_pay2 (View.ld x0 rE) (View.ld x2 rW)⟩]

/-- The one store covers the output's buffer. -/
theorem coverO (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

set_option maxHeartbeats 1000000 in
/-- The body on whole staging memrefs, the inputs' at read contents and the outputs' at anything, runs to the
    continuation holding the inputs' as they were and the outputs' at `outA`, `outB` of the inputs'. -/
theorem sound_kernel0 (c : Dev nD) (E : Set ℕ) (i : grid0.Coords)
    (arg1 : Memref sig .tc .vmem S512x768 .f32) (harg1 : arg1.IsWhole) (arg2 : Memref sig .tc .vmem S768x256 .f32) (harg2 : arg2.IsWhole)
    (arg3 : Memref sig .tc .vmem S768x256 .f32) (harg3 : arg3.IsWhole) (arg4 : Memref sig .tc .vmem S1x256 .f32) (harg4 : arg4.IsWhole)
    (arg5 : Memref sig .tc .vmem S512x256 .f32) (harg5 : arg5.IsWhole) (arg6 : Memref sig .tc .vmem S512x256 .f32) (harg6 : arg6.IsWhole)
    (x0 : Vec F S512x768 .f32) (x1 : Vec F S768x256 .f32) (x2 : Vec F S768x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outA x0 x1 x3)
            ∗ owns (c : Thread nD τ) arg6 fullShare (outB x0 x2)) -∗ K ⟨⟩))
      ⊢ wp frame (wpE (defs₀ (F := F)) Variants.none c none) E (cc0__ab_kernel i arg1 harg1 arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The proof data of the first launch -/

/-- On core `c`: the arrays as the launch finds them; after the body the inputs' buffers at their blocks and the
    outputs' at `outA` / `outB` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outA (iblk0 V c 0 t) (iblk0 V c 1 t) (iblk0 V c 3 t)
    | ⟨5, _⟩ => outB (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outA (iblk0 V c 0 t) (iblk0 V c 1 t) (iblk0 V c 3 t) := by dsimp only [dat0]
theorem after0_5 (c : Dev nD) (t : Fin cfg0.N) : (dat0 V c).after 5 t = outB (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at the point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at the point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.AB

end
-- ==== Proof.BitsKRun.lean ====
/-
  The kernel program's run, from the launch to the return.  Its entry function is three stretches of host
  operations around two launches:  slice W1 into its halves and reshape b1;  launch 1 (A = E·W1a + b1,
  B = E·W1b);  reshape W2 and b2;  launch 2 (the 512 x 512 score matrix, tile by tile);  then the index lists of
  the strict upper triangle and the gather of the scores at them.
  The buffer contents at each boundary are a fold from the launch memory: a host stretch applies its operations,
  a launch replaces its output arrays by what its write-backs leave and keeps everything else.  Each launch is a
  segment entered from "every unscoped buffer at the boundary's contents", and the composition of the five
  segments gives: every execution terminates, nothing faults, and the final memory is the last boundary's
  contents at every unscoped buffer.
  The second launch's half is taken as a bundle `Pair1` (its proof data, their projections and the body
  obligation): the run needs nothing else of that launch.
-/
import proofs.«145914_j27221502722563_2_alg».proof.Proof.Gen.Kernel.Launch
import proofs.«145914_j27221502722563_2_alg».proof.Proof.Gen.Kernel.Skeleton
import proofs.«145914_j27221502722563_2_alg».proof.Proof.Gen.Kernel.Points
import proofs.«145914_j27221502722563_2_alg».proof.Proof.BitsABBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The second launch's half, at any entry contents `V`: its proof data, with arrays read off `V`, the class
    invariant (the scoped rest and the generator register), full shares, nothing owed, and the body obligation. -/
structure Pair1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hΦ : ∀ V c k, (dat V c).Φ k = Pipeline.ΦA spec1 c
  hq : ∀ V c w, (dat V c).q w = fullShare
  howed : ∀ V c k, (dat V c).owed k = 0
  hrec : ∀ V c k, (dat V c).recorded k = Set.univ
  hbody : ∀ V c, BodyObligation (dat V c) (defs₀ (F := F)) Variants.none () Set.univ

variable (P1 : Pair1 F)
variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the write-backs leave, every other buffer as entered. -/
def W2 (c : Dev nD) : Valuation τ sig (Elt F) :=
  Pipeline.withArrays spec0 c (W1 m ρ c) fun w => (AB.dat0 (V1 m ρ) c).arrAt w cfg0.N
theorem W2_arr (c : Dev nD) (w : Fin cfg0.W) :
    W2 m ρ c (Proc.devRef .tc (Pipeline.arrRef spec0 w)) = (AB.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second host stretch (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (P1.dat (V3 m ρ) c).arrAt w cfg1.N
theorem W4_arr (c : Dev nD) (w : Fin cfg1.W) :
    W4 P1 m ρ c (Proc.devRef .tc (Pipeline.arrRef spec1 w)) = (P1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 P1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 P1 m ρ c b
/-- After the last host stretch: what the program returns with. -/
abbrev W5 : Dev nD → Valuation τ sig (Elt F) := fun c => StableHlo.after hostOps2 (W4 P1 m ρ c)

theorem hF0 (c : Dev nD) (w : Fin cfg0.W) : (AB.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (P1.dat (V3 m ρ) c).arrAt w cfg1.N = V4 P1 m ρ c (Pipeline.arrRef spec1 w) :=
  (W4_arr P1 m ρ c w).symm
theorem hrest1 (c : Dev nD) : ∀ b, b ∉ Finset.univ.image (Pipeline.arrRef spec1) → V4 P1 m ρ c b = V3 m ρ c b :=
  fun b hb => W4_of_ne P1 m ρ c b fun w e => hb (Finset.mem_image.mpr ⟨w, Finset.mem_univ _, e⟩)

/-! ## The proof data family and the thread state -/

/-- No launch has a prefetched table. -/
abbrev adm : (p : Fin 2) → (pcfgs (F := F) p).Adm := fun p => (cfgs p).toPCfg_adm
/-- Every launch's proof data, each at its entry contents. -/
def pdats : (p : Fin 2) → (c : Dev nD) → Dat τ (Elt F) Unit ℕ (UR sig nD τ) ℕ (Pipeline.pin (pcfgs (F := F)) adm p) c
  | ⟨0, _⟩ => fun c => AB.dat0 (V1 m ρ) c
  | ⟨1, _⟩ => fun c => P1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core
    owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the
    generator register at some state. -/
abbrev Tₙ (c : Dev nD) : sProp 𝕄 := iprop(StableHlo.held (c : Thread nD τ) (Pipeline.ucRefs τ sig) (W5 P1 m ρ c) ∗ ∃ r, prngReg c r)

/-! ## The launches as segments -/

set_option backward.isDefEq.respectTransparency.types false in
/-- The first launch: entered from every unscoped buffer at `W1`, left at `W2`. -/
def reg0 : Pipeline.RegionSeg (pcfgs (F := F)) adm (pdats P1 m ρ) () defs₀ 𝒱₀ L lv 0 where
  win := launch0.win.to₀
  block_pos := launch0.block_pos
  stage_whole := launch0.stage_whole
  K := PEmpty
  osem k := k.elim
  ho := Pipeline.OwnSemFacts.none _
  hbody c := (AB.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats P1 m ρ) launch0.win launch0.arr_whole c
      ((pdats P1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats P1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats P1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats P1 m ρ) ((pdats P1 m ρ 0 c).share_full fun _ => rfl)
      (V1 m ρ c) (V2 m ρ c) ((pdats P1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) adm (pdats P1 m ρ) () defs₀ 𝒱₀ L lv 1 where
  win := launch1.win.to₀
  block_pos := launch1.block_pos
  stage_whole := launch1.stage_whole
  K := PEmpty
  osem k := k.elim
  ho := Pipeline.OwnSemFacts.none _
  hbody c := (P1.hbody (V3 m ρ) c).loose
  hwaits := Pipeline.hwaits_of_owed_zero _ _ _ _ L lv 1 fun c t => P1.howed (V3 m ρ) c t
  pre c := iprop(StableHlo.held (c : Thread nD τ) (Pipeline.ucRefs τ sig) (W3 m ρ c) ∗ R c)
  post c := iprop(StableHlo.held (c : Thread nD τ) (Pipeline.ucRefs τ sig) (W4 P1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats P1 m ρ) launch1.win launch1.arr_whole c
      ((pdats P1 m ρ 1 c).share_full fun w => P1.hq (V3 m ρ) c w) (V3 m ρ c) fun w => P1.hA (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats P1 m ρ 1 c).owed 0 = 0 from P1.howed (V3 m ρ) c 0]
      icases HO with ⟨%W, HO⟩; iexists W; isplitr; · ipureintro; exact fun _ _ => Or.inl (by rw [show (pdats P1 m ρ 1 c).recorded 0 = Set.univ from P1.hrec (V3 m ρ) c 0]; exact Set.mem_univ _)
      iexact HO
    isplitl [Hp]; · iexact Hp
    iexact Hrest
  hin c := by
    rw [show (pdats P1 m ρ 1 c).Φ 0 = Pipeline.ΦA spec1 c from P1.hΦ (V3 m ρ) c 0]; unfold Pipeline.ΦA
    iintro ⟨Hp, -, Hr⟩
    isplitl [Hr]; · iexact Hr
    iexact Hp
  hout c := by
    rw [Pipeline.ownSems0_none, show (pdats P1 m ρ 1 c).Φ (Fin.last _) = Pipeline.ΦA spec1 c from P1.hΦ (V3 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats P1 m ρ) ((pdats P1 m ρ 1 c).share_full fun w => P1.hq (V3 m ρ) c w)
      (V3 m ρ c) (V4 P1 m ρ c) ((pdats P1 m ρ 1 c).arrAt · cfg1.N) (hF1 P1 m ρ c) (hrest1 P1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats P1 m ρ 1 c).owed (Fin.last _) = 0 from P1.howed (V3 m ρ) c (Fin.last _)]
    icases HO with ⟨%W, -, HO⟩; iexists W; iexact HO

/-! ## The entry function as segments, and the launch -/

/-- The five segments in order. -/
abbrev segs : List (Pipeline.Seg (pcfgs (F := F)) adm (pdats P1 m ρ) () defs₀ 𝒱₀ L lv) :=
  [ .host (hseg hostOps0 hostOps0_sub hostOps0_fresh (W0 m ρ)),
    .region (reg0 P1 m ρ),
    .host (hseg hostOps1 hostOps1_sub hostOps1_fresh (W2 m ρ)),
    .region (reg1 P1 m ρ),
    .host (hseg hostOps2 hostOps2_sub hostOps2_fresh (W4 P1 m ρ)) ]

set_option maxHeartbeats 4000000 in
/-- The entry function IS the run of the segments. -/
theorem main_run (c : Dev nD) : main (F := F) c = Pipeline.Seg.run (segs P1 m ρ) := (main_chain c).trans (by chain_rfl)

set_option backward.isDefEq.respectTransparency.types false in
/-- Every weakly fair execution of the entry function terminates, nothing faulting, and the final memory holds
    the last boundary's contents at every unscoped buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 P1 m ρ c b) :=
  Pipeline.θ_run_regions_kit (pcfgs (F := F)) adm (pdats P1 m ρ) () cellOf_inj emb₁ defs₀ 𝒱₀ L lv m ρ main (segs P1 m ρ)
    (fun c Q => by rw [main_run P1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ P1 m ρ)
    (hch := ⟨fun _ => .rfl, fun _ => .rfl, fun _ => .rfl, fun _ => .rfl, fun _ => .rfl, fun c =>
      (show iprop(StableHlo.held (c : Thread nD τ) (Pipeline.ucRefs τ sig) (W5 P1 m ρ c) ∗ R c)
          ⊢ iprop(Tₙ P1 m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 P1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 P1 m ρ c) s')
      isplitl [Hh] <;> iassumption)
    (hQ := fun s h c => h c)

end Cert.Kernel.Run

end
-- ==== Proof.BitsKPost.lean ====
/-
  What the kernel program's run leaves at the buffers the claims speak of.  The five argument arrays end as
  launched: no host operation writes one, and a launch either reads it through an input window (the feature
  matrix, by the first launch) or does not touch it.
-/
import proofs.«145914_j27221502722563_2_alg».proof.Proof.Gen.Kernel.Launch
import proofs.«145914_j27221502722563_2_alg».proof.Proof.Gen.Kernel.Skeleton
import proofs.«145914_j27221502722563_2_alg».proof.Proof.Gen.Kernel.Points
import proofs.«145914_j27221502722563_2_alg».proof.Proof.BitsKRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (P1 : Pair1 F)
variable (m : (ℓ : Loc nD τ sig) → Buf (Elt F) ℓ) (ρ : Dev nD → PrngReg)

set_option maxHeartbeats 4000000 in
theorem W5_main_arg0 (c : Dev nD) : W5 P1 m ρ c (Proc.devRef .tc main_arg0) = m ((c : Thread nD τ).loc main_arg0) :=
  calc W5 P1 m ρ c (Proc.devRef .tc main_arg0)
    _ = W4 P1 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne P1 m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((AB.dat0 (V1 m ρ) c).arrAt_in 0 rfl _).trans (AB.A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

set_option maxHeartbeats 4000000 in
theorem W5_main_arg1 (c : Dev nD) : W5 P1 m ρ c (Proc.devRef .tc main_arg1) = m ((c : Thread nD τ).loc main_arg1) :=
  calc W5 P1 m ρ c (Proc.devRef .tc main_arg1)
    _ = W4 P1 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne P1 m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

set_option maxHeartbeats 4000000 in
theorem W5_main_arg2 (c : Dev nD) : W5 P1 m ρ c (Proc.devRef .tc main_arg2) = m ((c : Thread nD τ).loc main_arg2) :=
  calc W5 P1 m ρ c (Proc.devRef .tc main_arg2)
    _ = W4 P1 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne P1 m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 4000000 in
theorem W5_main_arg3 (c : Dev nD) : W5 P1 m ρ c (Proc.devRef .tc main_arg3) = m ((c : Thread nD τ).loc main_arg3) :=
  calc W5 P1 m ρ c (Proc.devRef .tc main_arg3)
    _ = W4 P1 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne P1 m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

set_option maxHeartbeats 4000000 in
theorem W5_main_arg4 (c : Dev nD) : W5 P1 m ρ c (Proc.devRef .tc main_arg4) = m ((c : Thread nD τ).loc main_arg4) :=
  calc W5 P1 m ρ c (Proc.devRef .tc main_arg4)
    _ = W4 P1 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne P1 m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

include P1 in
/-- The frame claim's statement at any `F`: the run ends with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 P1 m ρ c),
     (h c _ (mem_uc main_arg1 (by decide))).trans (W5_main_arg1 P1 m ρ c),
     (h c _ (mem_uc main_arg2 (by decide))).trans (W5_main_arg2 P1 m ρ c),
     (h c _ (mem_uc main_arg3 (by decide))).trans (W5_main_arg3 P1 m ρ c),
     (h c _ (mem_uc main_arg4 (by decide))).trans (W5_main_arg4 P1 m ρ c)⟩) (run P1 m ρ)

end Cert.Kernel.Run

end
-- ==== Proof.PairKernel.lean ====
/-
  The pairwise-score kernel at one grid point.  At point (i₀, i₁) of its 4×4 grid the body first fills the
  128×128 output block with zeros.  It then compares, as signed 32-bit words, 128·i₁ + 127 with 128·i₀
  (on this grid: i₀ ≤ i₁).  Where the comparison holds it reads four 64-column chunks of the row tile of
  the first operand (rows of tile i₀), of the row tile of the second (rows of tile i₁), of the weight row and
  the bias word, and overwrites the whole block with the scores computed from them; elsewhere the block stays
  zero.  This file names the condition, the block the body leaves, and proves the body's triple on whole
  staging buffers, once for each side of the comparison.
-/
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body at grid point `i`: the printed comparison
    `128·i₁ + 128 − 1 > 128·i₀` on 32-bit words (signed), widened and tested against zero. -/
def computes (i : grid1.Coords) : Prop :=
  Scalar.cmpi .ne (Scalar.extui (Scalar.cmpi .sgt (Scalar.subi (Scalar.addi (Scalar.muli (BitVec.ofNat 32 (i 1).val) 128#32) 128#32) 1#32) (Scalar.muli (BitVec.ofNat 32 (i 0).val) 128#32))) 0#32 = 1#1

instance (i : grid1.Coords) : Decidable (computes i) := by unfold computes; infer_instance

/-- On the 4×4 grid the condition says the column tile is not left of the row tile. -/
theorem computes_iff : ∀ i : grid1.Coords, computes i ↔ (i 0).val ≤ (i 1).val := by
  decide +kernel

abbrev cols0 : Rect S128x256 := Rect.unit (s := S128x256) ![0, 0] S128x64.size inb_S128x256_S128x64_0_0
abbrev cols1 : Rect S128x256 := Rect.unit (s := S128x256) ![0, 64] S128x64.size inb_S128x256_S128x64_0_64
abbrev cols2 : Rect S128x256 := Rect.unit (s := S128x256) ![0, 128] S128x64.size inb_S128x256_S128x64_0_128
abbrev cols3 : Rect S128x256 := Rect.unit (s := S128x256) ![0, 192] S128x64.size inb_S128x256_S128x64_0_192
abbrev wcols0 : Rect S1x256 := Rect.unit (s := S1x256) ![0, 0] S1x64.size inb_S1x256_S1x64_0_0
abbrev wcols1 : Rect S1x256 := Rect.unit (s := S1x256) ![0, 64] S1x64.size inb_S1x256_S1x64_0_64
abbrev wcols2 : Rect S1x256 := Rect.unit (s := S1x256) ![0, 128] S1x64.size inb_S1x256_S1x64_0_128
abbrev wcols3 : Rect S1x256 := Rect.unit (s := S1x256) ![0, 192] S1x64.size inb_S1x256_S1x64_0_192
abbrev cellB : Rect S1x1 := Rect.unit (s := S1x1) ![0, 0] S1x1.size inb_S1x1_S1x1_0_0
abbrev blkO : Rect S128x128 := Rect.unit (s := S128x128) ![0, 0] S128x128.size inb_S128x128_S128x128_0_0

def scores (x0 x1 : Vec F S128x256 .f32) (x2 : Vec F S1x256 .f32) (x3 : Vec F S1x1 .f32) : Vec F S128x128 .f32 :=
  k1_pay2 (k1_pay3 (View.ld x0 cols0) (View.ld x1 cols0) (View.ld x2 wcols0) (View.ld x0 cols1) (View.ld x1 cols1) (View.ld x2 wcols1))
    (k1_pay4 (View.ld x0 cols2)) (View.ld x1 cols2) (View.ld x2 wcols2) (View.ld x0 cols3) (View.ld x1 cols3) (View.ld x2 wcols3)
    (View.ld x3 cellB)

def out1_4 (i : grid1.Coords) (x0 x1 : Vec F S128x256 .f32) (x2 : Vec F S1x256 .f32) (x3 : Vec F S1x1 .f32) : Vec F S128x128 .f32 :=
  if computes i then scores x0 x1 x2 x3 else k1_pay1

theorem out1_4_of_computes {i : grid1.Coords} (h : computes i) (x0 x1 : Vec F S128x256 .f32) (x2 : Vec F S1x256 .f32) (x3 : Vec F S1x1 .f32) :
    out1_4 i x0 x1 x2 x3 = scores x0 x1 x2 x3 := if_pos h
theorem out1_4_of_not {i : grid1.Coords} (h : ¬ computes i) (x0 x1 : Vec F S128x256 .f32) (x2 : Vec F S1x256 .f32) (x3 : Vec F S1x1 .f32) :
    out1_4 i x0 x1 x2 x3 = k1_pay1 := if_neg h

/-- The offsets of a whole-block access, as a constant function. -/
theorem origin2 : (![0, 0] : Fin 2 → Nat) = fun _ => 0 := funext fun a => by fin_cases a <;> rfl

/-! ## The body's triple, once per side of its branch -/

set_option maxHeartbeats 1000000 in
/-- At a point where the condition holds the body zero-fills the output block, reads the four 64-column
    chunks of both row blocks and of the weight row and the bias word, and overwrites the whole block
    with the scores: the last store covers the block, so the block holds its payload. -/
theorem sound_computing (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) (hc : computes i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  have hw := hc
  unfold computes at hw
  sl_exec (disch := first | exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [out1_4_of_computes hc]
  unfold scores
  exact (View.read_writes_eq_canon _ _ _ (fun y => ⟨_, List.mem_cons_self, View.mem_set_unit_zero origin2 inb_S128x128_S128x128_0_0 y⟩)).trans
    (View.canon_cons_unit_zero origin2 inb_S128x128_S128x128_0_0 _ _)

set_option maxHeartbeats 1000000 in
/-- At a point where the condition fails the body only zero-fills the output block. -/
theorem sound_skipping (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) (hc : ¬ computes i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  have hw := hc
  unfold computes at hw
  sl_exec (disch := first | exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [out1_4_of_not hc]
  exact (View.read_writes_eq_canon _ _ _ (fun y => ⟨_, List.mem_cons_self, View.mem_set_unit_zero origin2 inb_S128x128_S128x128_0_0 y⟩)).trans
    (View.canon_unit_zero origin2 inb_S128x128_S128x128_0_0 _)

/-- The body on whole staging memrefs at any grid point: the inputs come back as they were and the
    output block holds `out1_4` of them. -/
theorem sound_kernel1 (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  by_cases hc : computes i
  · exact sound_computing c E i arg2 harg2 arg3 harg3 arg4 harg4 arg5 harg5 arg6 harg6 x0 x1 x2 x3 K hc
  · exact sound_skipping c E i arg2 harg2 arg3 harg3 arg4 harg4 arg5 harg5 arg6 harg6 x0 x1 x2 x3 K hc

end Cert.KernelIdeal.Pair

end
-- ==== Proof.PairBody.lean ====
/-
  The pairwise-score region as a pipeline: proof data and body obligation, at any contents `V` of the
  TensorCore's buffers when the region is entered.  Each of the four input windows (the two row tiles, the weight
  row, the bias word) is found at its block at every grid point, whether it was copied in there or kept from the
  point before; the output window's block after the body is `out1_4` of the input blocks.
-/
import proofs.«145914_j27221502722563_2_alg».proof.Proof.PairKernel
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pair

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it
    there or not (the row tiles are fetched when the row coordinate moves, the weight row and the bias once):
    an unfetched point has the block index of the point before, and the body leaves input buffers as found. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pairwise-score pipeline on core `c`: the arrays as the region finds them; after the
    body at point `t` each input's buffer at its block and the output's at `out1_4` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- The pipeline's call of the body at point `t` is the kernel function on the point's staging memrefs. -/
theorem body_at1 (t : Fin cfg1.N) : defs₀ (F := F) .tc cfg1.body (cfg1.bodyArgs t (cfg1.slots t)) = bodyAt1 t := by
  simp only [defs₀, Defs.onTc_tc]

/-- The library's body obligation, at every point: the inputs' memrefs hold their blocks, so the body's triple
    applies; the invariant and the core's `owes` pass through unread. -/
theorem body_obligation1 (c : Dev nD) : BodyObligation (dat1 (F := F) V c) (defs₀ (F := F)) Variants.none () Set.univ := fun t => by
  rw [bigSep_W1, bigSep_W1, body_at1 t]
  dsimp only
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Region

end Cert.KernelIdeal.Pair

end
-- ==== Proof.BitsPairKernel.lean ====
/-
  The pairwise-score kernel at one grid point.  At point (i₀, i₁) of its 4×4 grid the body first fills the
  128×128 output block with zeros.  It then compares, as signed 32-bit words, 128·i₁ + 127 with 128·i₀
  (on this grid: i₀ ≤ i₁).  Where the comparison holds it reads four 64-column chunks of the row tile of
  the first operand (rows of tile i₀), of the row tile of the second (rows of tile i₁), of the weight row and
  the bias word, and overwrites the whole block with the scores computed from them; elsewhere the block stays
  zero.  This file names the condition, the block the body leaves, and proves the body's triple on whole
  staging buffers, once for each side of the comparison.
-/
import proofs.«145914_j27221502722563_2_alg».proof.Proof.Gen.Kernel.Launch
import proofs.«145914_j27221502722563_2_alg».proof.Proof.Gen.Kernel.Skeleton
import proofs.«145914_j27221502722563_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body at grid point `i`: the printed comparison
    `128·i₁ + 128 − 1 > 128·i₀` on 32-bit words (signed), widened and tested against zero. -/
def computes (i : grid1.Coords) : Prop :=
  Scalar.cmpi .ne (Scalar.extui (Scalar.cmpi .sgt (Scalar.subi (Scalar.addi (Scalar.muli (BitVec.ofNat 32 (i 1).val) 128#32) 128#32) 1#32) (Scalar.muli (BitVec.ofNat 32 (i 0).val) 128#32))) 0#32 = 1#1

instance (i : grid1.Coords) : Decidable (computes i) := by unfold computes; infer_instance

/-- On the 4×4 grid the condition says the column tile is not left of the row tile. -/
theorem computes_iff : ∀ i : grid1.Coords, computes i ↔ (i 0).val ≤ (i 1).val := by
  decide +kernel

abbrev cols0 : Rect S128x256 := Rect.unit (s := S128x256) ![0, 0] S128x64.size inb_S128x256_S128x64_0_0
abbrev cols1 : Rect S128x256 := Rect.unit (s := S128x256) ![0, 64] S128x64.size inb_S128x256_S128x64_0_64
abbrev cols2 : Rect S128x256 := Rect.unit (s := S128x256) ![0, 128] S128x64.size inb_S128x256_S128x64_0_128
abbrev cols3 : Rect S128x256 := Rect.unit (s := S128x256) ![0, 192] S128x64.size inb_S128x256_S128x64_0_192
abbrev wcols0 : Rect S1x256 := Rect.unit (s := S1x256) ![0, 0] S1x64.size inb_S1x256_S1x64_0_0
abbrev wcols1 : Rect S1x256 := Rect.unit (s := S1x256) ![0, 64] S1x64.size inb_S1x256_S1x64_0_64
abbrev wcols2 : Rect S1x256 := Rect.unit (s := S1x256) ![0, 128] S1x64.size inb_S1x256_S1x64_0_128
abbrev wcols3 : Rect S1x256 := Rect.unit (s := S1x256) ![0, 192] S1x64.size inb_S1x256_S1x64_0_192
abbrev cellB : Rect S1x1 := Rect.unit (s := S1x1) ![0, 0] S1x1.size inb_S1x1_S1x1_0_0
abbrev blkO : Rect S128x128 := Rect.unit (s := S128x128) ![0, 0] S128x128.size inb_S128x128_S128x128_0_0

def scores (x0 x1 : Vec F S128x256 .f32) (x2 : Vec F S1x256 .f32) (x3 : Vec F S1x1 .f32) : Vec F S128x128 .f32 :=
  k1_pay2 (k1_pay3 (View.ld x0 cols0) (View.ld x1 cols0) (View.ld x2 wcols0) (View.ld x0 cols1) (View.ld x1 cols1) (View.ld x2 wcols1))
    (k1_pay4 (View.ld x0 cols2)) (View.ld x1 cols2) (View.ld x2 wcols2) (View.ld x0 cols3) (View.ld x1 cols3) (View.ld x2 wcols3)
    (View.ld x3 cellB)

def out1_4 (i : grid1.Coords) (x0 x1 : Vec F S128x256 .f32) (x2 : Vec F S1x256 .f32) (x3 : Vec F S1x1 .f32) : Vec F S128x128 .f32 :=
  if computes i then scores x0 x1 x2 x3 else k1_pay1

theorem out1_4_of_computes {i : grid1.Coords} (h : computes i) (x0 x1 : Vec F S128x256 .f32) (x2 : Vec F S1x256 .f32) (x3 : Vec F S1x1 .f32) :
    out1_4 i x0 x1 x2 x3 = scores x0 x1 x2 x3 := if_pos h
theorem out1_4_of_not {i : grid1.Coords} (h : ¬ computes i) (x0 x1 : Vec F S128x256 .f32) (x2 : Vec F S1x256 .f32) (x3 : Vec F S1x1 .f32) :
    out1_4 i x0 x1 x2 x3 = k1_pay1 := if_neg h

/-- The offsets of a whole-block access, as a constant function. -/
theorem origin2 : (![0, 0] : Fin 2 → Nat) = fun _ => 0 := funext fun a => by fin_cases a <;> rfl

/-! ## The body's triple, once per side of its branch -/

set_option maxHeartbeats 1000000 in
/-- At a point where the condition holds the body zero-fills the output block, reads the four 64-column
    chunks of both row blocks and of the weight row and the bias word, and overwrites the whole block
    with the scores: the last store covers the block, so the block holds its payload. -/
theorem sound_computing (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) (hc : computes i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  have hw := hc
  unfold computes at hw
  sl_exec (disch := first | exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [out1_4_of_computes hc]
  unfold scores
  exact (View.read_writes_eq_canon _ _ _ (fun y => ⟨_, List.mem_cons_self, View.mem_set_unit_zero origin2 inb_S128x128_S128x128_0_0 y⟩)).trans
    (View.canon_cons_unit_zero origin2 inb_S128x128_S128x128_0_0 _ _)

set_option maxHeartbeats 1000000 in
/-- At a point where the condition fails the body only zero-fills the output block. -/
theorem sound_skipping (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) (hc : ¬ computes i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  have hw := hc
  unfold computes at hw
  sl_exec (disch := first | exact hw)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [out1_4_of_not hc]
  exact (View.read_writes_eq_canon _ _ _ (fun y => ⟨_, List.mem_cons_self, View.mem_set_unit_zero origin2 inb_S128x128_S128x128_0_0 y⟩)).trans
    (View.canon_unit_zero origin2 inb_S128x128_S128x128_0_0 _)

/-- The body on whole staging memrefs at any grid point: the inputs come back as they were and the
    output block holds `out1_4` of them. -/
theorem sound_kernel1 (c : Dev nD) (E : Set ℕ) (i : grid1.Coords) (arg2 : Memref sig .tc .vmem S128x256 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole)
    (x0 x1 : Vec F S128x256 .f32) (x2 : Vec F S1x256 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 i x0 x1 x2 x3)) -∗ K ⟨⟩))
      ⊢ wp frame (wpE (defs₀ (F := F)) Variants.none c none) E (cc1__pairwise_kernel i arg2 harg2 arg3 harg3 arg4 harg4 arg5 harg5 arg6 harg6) K := by
  by_cases hc : computes i
  · exact sound_computing c E i arg2 harg2 arg3 harg3 arg4 harg4 arg5 harg5 arg6 harg6 x0 x1 x2 x3 K hc
  · exact sound_skipping c E i arg2 harg2 arg3 harg3 arg4 harg4 arg5 harg5 arg6 harg6 x0 x1 x2 x3 K hc

end Cert.Kernel.Pair

end
-- ==== Proof.BitsPairBody.lean ====
/-
  The pairwise-score region as a pipeline: proof data and body obligation, at any contents `V` of the
  TensorCore's buffers when the region is entered.  Each of the four input windows (the two row tiles, the weight
  row, the bias word) is found at its block at every grid point, whether it was copied in there or kept from the
  point before; the output window's block after the body is `out1_4` of the input blocks.
-/
import proofs.«145914_j27221502722563_2_alg».proof.Proof.BitsPairKernel
import proofs.«145914_j27221502722563_2_alg».proof.Proof.Gen.Kernel.Launch
import proofs.«145914_j27221502722563_2_alg».proof.Proof.Gen.Kernel.Skeleton
import proofs.«145914_j27221502722563_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pair

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether the pipeline fetched it
    there or not (the row tiles are fetched when the row coordinate moves, the weight row and the bias once):
    an unfetched point has the block index of the point before, and the body leaves input buffers as found. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the pairwise-score pipeline on core `c`: the arrays as the region finds them; after the
    body at point `t` each input's buffer at its block and the output's at `out1_4` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- The pipeline's call of the body at point `t` is the kernel function on the point's staging memrefs. -/
theorem body_at1 (t : Fin cfg1.N) : defs₀ (F := F) .tc cfg1.body (cfg1.bodyArgs t (cfg1.slots t)) = bodyAt1 t := by
  simp only [defs₀, Defs.onTc_tc]

/-- The library's body obligation, at every point: the inputs' memrefs hold their blocks, so the body's triple
    applies; the invariant and the core's `owes` pass through unread. -/
theorem body_obligation1 (c : Dev nD) : BodyObligation (dat1 (F := F) V c) (defs₀ (F := F)) Variants.none () Set.univ := fun t => by
  rw [bigSep_W1, bigSep_W1, body_at1 t]
  dsimp only
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Region

end Cert.Kernel.Pair

end
-- ==== Proof.RefRun.Ops.lean ====
/-
  The reference program's @main as ONE straight line of its 147 operations, each outlined function's body
  written out at its call over that call's buffers, cut into eight consecutive stretches; that every operation
  touches TensorCore references only, and that none leaves a result undetermined.
-/
import proofs.«145914_j27221502722563_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The mask of the strict upper triangle and its running count (19 operations). -/
abbrev p1 : List (HloOp τ sig (Elt F)) :=
  [ StableHlo.nullary main_cst (constant S_ .f32 0x3F800000#32),
    StableHlo.unary main_cst main_v0 (broadcastInDim S512x512 ![] bcast_S_S512x512 : (⟨S_, .f32⟩ : BufTy).Contents (Elt F) → (⟨S512x512, .f32⟩ : BufTy).Contents (Elt F)),
    StableHlo.TRef.nullary main_call0.v0 (iotaInDim S512x512 32 0),
    StableHlo.TRef.nullary main_call0.c (constantI S_ 32 0#32),
    StableHlo.TRef.unary main_call0.c main_call0.v1 (broadcastInDim S512x512 ![] bcast_S_S512x512),
    StableHlo.TRef.binary main_call0.v0 main_call0.v1 main_call0.v2 addi,
    StableHlo.TRef.nullary main_call0.v3 (iotaInDim S512x512 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S512x512 ![] bcast_S_S512x512),
    StableHlo.TRef.ternary main_call0.v4 main_call0.v5 (.of main_v0 : StableHlo.TRef sig ⟨S512x512, .f32⟩) main_call0.v6 select,
    StableHlo.nullary main_cst_0 (constant S_ .f32 0x00000000#32),
    StableHlo.unary main_cst_0 main_v2 (broadcastInDim S512x512 ![] bcast_S_S512x512 : (⟨S_, .f32⟩ : BufTy).Contents (Elt F) → (⟨S512x512, .f32⟩ : BufTy).Contents (Elt F)),
    StableHlo.binary main_v1 main_v2 main_v3 (cmpf .une : (⟨S512x512, .f32⟩ : BufTy).Contents (Elt F) → (⟨S512x512, .f32⟩ : BufTy).Contents (Elt F) → (⟨S512x512, .i1⟩ : BufTy).Contents (Elt F)),
    StableHlo.TRef.reshape (.of main_v3 : StableHlo.TRef sig ⟨S512x512, .i1⟩) main_call1.v0 rfl shapeCasts_S512x512_S262144,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![262144] ![1] ![262143] ![0] x v reduceWindows_S262144_S262144_w262144s1p262143_0 h_S_) ]

theorem p1_sub : (p1 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub ..⟩

theorem p1_fresh : ∀ op ∈ (p1 : List (HloOp τ sig (Elt F))), op.fresh = ∅ := by
  intro _ h; (repeat (cases h with | head => rfl | tail _ h => ?_)); exact nomatch h

/-- The clipped counts, the scatter of ones at them and its running count: each pair's flat position (20 operations). -/
abbrev p2 : List (HloOp τ sig (Elt F)) :=
  [ StableHlo.nullary main_c (constantI S_ 32 0#32),
    StableHlo.unary main_c main_v5 (broadcastInDim S130816 ![] bcast_S_S130816 : (⟨S_, .i32⟩ : BufTy).Contents (Elt F) → (⟨S130816, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S262144 ![] bcast_S_S262144),
    StableHlo.TRef.binary main_call2.v1 (.of main_v4 : StableHlo.TRef sig ⟨S262144, .i32⟩) main_call2.v2 maxsi,
    StableHlo.nullary main_c_2 (constantI S_ 32 0#32),
    StableHlo.unary main_c_2 main_v7 (broadcastInDim S262144 ![] bcast_S_S262144 : (⟨S_, .i32⟩ : BufTy).Contents (Elt F) → (⟨S262144, .i32⟩ : BufTy).Contents (Elt F)),
    StableHlo.binary main_v6 main_v7 main_v8 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 130816#32),
    StableHlo.unary main_c_3 main_v9 (broadcastInDim S262144 ![] bcast_S_S262144 : (⟨S_, .i32⟩ : BufTy).Contents (Elt F) → (⟨S262144, .i32⟩ : BufTy).Contents (Elt F)),
    StableHlo.binary main_v6 main_v9 main_v10 (addi : (⟨S262144, .i32⟩ : BufTy).Contents (Elt F) → (⟨S262144, .i32⟩ : BufTy).Contents (Elt F) → (⟨S262144, .i32⟩ : BufTy).Contents (Elt F)),
    StableHlo.ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v11 main_v12 (broadcastInDim S262144x1 ![0] bcast_S262144_S262144x1_0 : (⟨S262144, .i32⟩ : BufTy).Contents (Elt F) → (⟨S262144x1, .i32⟩ : BufTy).Contents (Elt F)),
    StableHlo.nullary main_c_4 (constantI S_ 32 1#32),
    StableHlo.unary main_c_4 main_v13 (broadcastInDim S262144 ![] bcast_S_S262144 : (⟨S_, .i32⟩ : BufTy).Contents (Elt F) → (⟨S262144, .i32⟩ : BufTy).Contents (Elt F)),
    StableHlo.ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S130816, .i32⟩) main_call3.call0.v0 main_call3.call0.v1 (fun x v => Host.reduceWindow IntOp.addi ![130816] ![1] ![130815] ![0] x v reduceWindows_S130816_S130816_w130816s1p130815_0 h_S_) ]

theorem p2_sub : (p2 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

theorem p2_fresh : ∀ op ∈ (p2 : List (HloOp τ sig (Elt F))), op.fresh = ∅ := by
  intro _ h; (repeat (cases h with | head => rfl | tail _ h => ?_)); exact nomatch h

/-- Floor division of the flat position by 512 (17 operations). -/
abbrev p3 : List (HloOp τ sig (Elt F)) :=
  [ StableHlo.nullary main_c_5 (constantI S_ 32 512#32),
    StableHlo.TRef.unary (.of main_c_5 : StableHlo.TRef sig ⟨S_, .i32⟩) main_call4.v0 (broadcastInDim S130816 ![] bcast_S_S130816),
    StableHlo.TRef.binary (.of main_v15 : StableHlo.TRef sig ⟨S130816, .i32⟩) main_call4.v0 main_call4.v1 Host.divsi,
    StableHlo.TRef.unary (.of main_v15 : StableHlo.TRef sig ⟨S130816, .i32⟩) main_call4.v2 signi,
    StableHlo.TRef.unary (.of main_c_5 : StableHlo.TRef sig ⟨S_, .i32⟩) main_call4.v3 signi,
    StableHlo.TRef.unary main_call4.v3 main_call4.v4 (broadcastInDim S130816 ![] bcast_S_S130816),
    StableHlo.TRef.binary main_call4.v2 main_call4.v4 main_call4.v5 (cmpi .ne),
    StableHlo.TRef.unary (.of main_c_5 : StableHlo.TRef sig ⟨S_, .i32⟩) main_call4.v6 (broadcastInDim S130816 ![] bcast_S_S130816),
    StableHlo.TRef.binary (.of main_v15 : StableHlo.TRef sig ⟨S130816, .i32⟩) main_call4.v6 main_call4.v7 Host.remsi,
    StableHlo.TRef.nullary main_call4.c (constantI S_ 32 0#32),
    StableHlo.TRef.unary main_call4.c main_call4.v8 (broadcastInDim S130816 ![] bcast_S_S130816),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S130816 ![] bcast_S_S130816),
    StableHlo.TRef.binary main_call4.v1 main_call4.v11 main_call4.v12 subi,
    StableHlo.TRef.ternary main_call4.v10 main_call4.v12 main_call4.v1 main_call4.call0.v0 select ]

theorem p3_sub : (p3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem p3_fresh : ∀ op ∈ (p3 : List (HloOp τ sig (Elt F))), op.fresh = ∅ := by
  intro _ h; (repeat (cases h with | head => rfl | tail _ h => ?_)); exact nomatch h

/-- Its remainder by 512: the first row index (22 operations). -/
abbrev p4 : List (HloOp τ sig (Elt F)) :=
  [ StableHlo.nullary main_c_6 (constantI S_ 32 512#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S130816 ![] bcast_S_S130816),
    StableHlo.TRef.binary (.of main_v16 : StableHlo.TRef sig ⟨S130816, .i32⟩) main_call5.v3 main_call5.v4 Host.remsi,
    StableHlo.TRef.nullary main_call5.c_1 (constantI S_ 32 0#32),
    StableHlo.TRef.unary main_call5.c_1 main_call5.v5 (broadcastInDim S130816 ![] bcast_S_S130816),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S130816 ![] bcast_S_S130816),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S130816 ![] bcast_S_S130816),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S130816 ![] bcast_S_S130816),
    StableHlo.TRef.binary main_call5.v4 main_call5.v13 main_call5.v14 addi,
    StableHlo.TRef.ternary main_call5.v12 main_call5.v14 main_call5.v4 main_call5.v15 select ]

theorem p4_sub : (p4 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem p4_fresh : ∀ op ∈ (p4 : List (HloOp τ sig (Elt F))), op.fresh = ∅ := by
  intro _ h; (repeat (cases h with | head => rfl | tail _ h => ?_)); exact nomatch h

/-- Floor division of the flat position by 1 (17 operations). -/
abbrev p5 : List (HloOp τ sig (Elt F)) :=
  [ StableHlo.nullary main_c_7 (constantI S_ 32 1#32),
    StableHlo.TRef.unary (.of main_c_7 : StableHlo.TRef sig ⟨S_, .i32⟩) main_call6.v0 (broadcastInDim S130816 ![] bcast_S_S130816),
    StableHlo.TRef.binary (.of main_v15 : StableHlo.TRef sig ⟨S130816, .i32⟩) main_call6.v0 main_call6.v1 Host.divsi,
    StableHlo.TRef.unary (.of main_v15 : StableHlo.TRef sig ⟨S130816, .i32⟩) main_call6.v2 signi,
    StableHlo.TRef.unary (.of main_c_7 : StableHlo.TRef sig ⟨S_, .i32⟩) main_call6.v3 signi,
    StableHlo.TRef.unary main_call6.v3 main_call6.v4 (broadcastInDim S130816 ![] bcast_S_S130816),
    StableHlo.TRef.binary main_call6.v2 main_call6.v4 main_call6.v5 (cmpi .ne),
    StableHlo.TRef.unary (.of main_c_7 : StableHlo.TRef sig ⟨S_, .i32⟩) main_call6.v6 (broadcastInDim S130816 ![] bcast_S_S130816),
    StableHlo.TRef.binary (.of main_v15 : StableHlo.TRef sig ⟨S130816, .i32⟩) main_call6.v6 main_call6.v7 Host.remsi,
    StableHlo.TRef.nullary main_call6.c (constantI S_ 32 0#32),
    StableHlo.TRef.unary main_call6.c main_call6.v8 (broadcastInDim S130816 ![] bcast_S_S130816),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S130816 ![] bcast_S_S130816),
    StableHlo.TRef.binary main_call6.v1 main_call6.v11 main_call6.v12 subi,
    StableHlo.TRef.ternary main_call6.v10 main_call6.v12 main_call6.v1 main_call6.call0.v0 select ]

theorem p5_sub : (p5 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem p5_fresh : ∀ op ∈ (p5 : List (HloOp τ sig (Elt F))), op.fresh = ∅ := by
  intro _ h; (repeat (cases h with | head => rfl | tail _ h => ?_)); exact nomatch h

/-- Its remainder by 512: the second row index (22 operations). -/
abbrev p6 : List (HloOp τ sig (Elt F)) :=
  [ StableHlo.nullary main_c_8 (constantI S_ 32 512#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S130816 ![] bcast_S_S130816),
    StableHlo.TRef.binary (.of main_v18 : StableHlo.TRef sig ⟨S130816, .i32⟩) main_call7.v3 main_call7.v4 Host.remsi,
    StableHlo.TRef.nullary main_call7.c_1 (constantI S_ 32 0#32),
    StableHlo.TRef.unary main_call7.c_1 main_call7.v5 (broadcastInDim S130816 ![] bcast_S_S130816),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S130816 ![] bcast_S_S130816),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S130816 ![] bcast_S_S130816),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S130816 ![] bcast_S_S130816),
    StableHlo.TRef.binary main_call7.v4 main_call7.v13 main_call7.v14 addi,
    StableHlo.TRef.ternary main_call7.v12 main_call7.v14 main_call7.v4 main_call7.v15 select ]

theorem p6_sub : (p6 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem p6_fresh : ∀ op ∈ (p6 : List (HloOp τ sig (Elt F))), op.fresh = ∅ := by
  intro _ h; (repeat (cases h with | head => rfl | tail _ h => ?_)); exact nomatch h

/-- The two wrapped row gathers and their concatenation (19 operations). -/
abbrev p7 : List (HloOp τ sig (Elt F)) :=
  [ StableHlo.nullary main_c_9 (constantI S_ 32 0#32),
    StableHlo.unary main_c_9 main_v20 (broadcastInDim S130816 ![] bcast_S_S130816 : (⟨S_, .i32⟩ : BufTy).Contents (Elt F) → (⟨S130816, .i32⟩ : BufTy).Contents (Elt F)),
    StableHlo.binary main_v17 main_v20 main_v21 (cmpi .slt : (⟨S130816, .i32⟩ : BufTy).Contents (Elt F) → (⟨S130816, .i32⟩ : BufTy).Contents (Elt F) → (⟨S130816, .i1⟩ : BufTy).Contents (Elt F)),
    StableHlo.nullary main_c_10 (constantI S_ 32 512#32),
    StableHlo.unary main_c_10 main_v22 (broadcastInDim S130816 ![] bcast_S_S130816 : (⟨S_, .i32⟩ : BufTy).Contents (Elt F) → (⟨S130816, .i32⟩ : BufTy).Contents (Elt F)),
    StableHlo.binary main_v17 main_v22 main_v23 (addi : (⟨S130816, .i32⟩ : BufTy).Contents (Elt F) → (⟨S130816, .i32⟩ : BufTy).Contents (Elt F) → (⟨S130816, .i32⟩ : BufTy).Contents (Elt F)),
    StableHlo.ternary main_v21 main_v23 main_v17 main_v24 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v24 main_v25 (broadcastInDim S130816x1 ![0] bcast_S130816_S130816x1_0 : (⟨S130816, .i32⟩ : BufTy).Contents (Elt F) → (⟨S130816x1, .i32⟩ : BufTy).Contents (Elt F)),
    StableHlo.binary main_arg0 main_v25 main_v26 ((fun x i => Host.gather gather_S512x768_S130816x1_S130816x768_1_0_n_n_0_1_1768 x i) : (⟨S512x768, .f32⟩ : BufTy).Contents (Elt F) → (⟨S130816x1, .i32⟩ : BufTy).Contents (Elt F) → (⟨S130816x768, .f32⟩ : BufTy).Contents (Elt F)),
    StableHlo.nullary main_c_11 (constantI S_ 32 0#32),
    StableHlo.unary main_c_11 main_v27 (broadcastInDim S130816 ![] bcast_S_S130816 : (⟨S_, .i32⟩ : BufTy).Contents (Elt F) → (⟨S130816, .i32⟩ : BufTy).Contents (Elt F)),
    StableHlo.binary main_v19 main_v27 main_v28 (cmpi .slt : (⟨S130816, .i32⟩ : BufTy).Contents (Elt F) → (⟨S130816, .i32⟩ : BufTy).Contents (Elt F) → (⟨S130816, .i1⟩ : BufTy).Contents (Elt F)),
    StableHlo.nullary main_c_12 (constantI S_ 32 512#32),
    StableHlo.unary main_c_12 main_v29 (broadcastInDim S130816 ![] bcast_S_S130816 : (⟨S_, .i32⟩ : BufTy).Contents (Elt F) → (⟨S130816, .i32⟩ : BufTy).Contents (Elt F)),
    StableHlo.binary main_v19 main_v29 main_v30 (addi : (⟨S130816, .i32⟩ : BufTy).Contents (Elt F) → (⟨S130816, .i32⟩ : BufTy).Contents (Elt F) → (⟨S130816, .i32⟩ : BufTy).Contents (Elt F)),
    StableHlo.ternary main_v28 main_v30 main_v19 main_v31 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v31 main_v32 (broadcastInDim S130816x1 ![0] bcast_S130816_S130816x1_0 : (⟨S130816, .i32⟩ : BufTy).Contents (Elt F) → (⟨S130816x1, .i32⟩ : BufTy).Contents (Elt F)),
    StableHlo.binary main_arg0 main_v32 main_v33 ((fun x i => Host.gather gather_S512x768_S130816x1_S130816x768_1_0_n_n_0_1_1768 x i) : (⟨S512x768, .f32⟩ : BufTy).Contents (Elt F) → (⟨S130816x1, .i32⟩ : BufTy).Contents (Elt F) → (⟨S130816x768, .f32⟩ : BufTy).Contents (Elt F)),
    StableHlo.binary main_v26 main_v33 main_v34 ((fun a b => concatenate S130816x1536 1 [⟨S130816x768, a⟩, ⟨S130816x768, b⟩] concatenates_S130816x768_S130816x768_S130816x1536_d1) : (⟨S130816x768, .f32⟩ : BufTy).Contents (Elt F) → (⟨S130816x768, .f32⟩ : BufTy).Contents (Elt F) → (⟨S130816x1536, .f32⟩ : BufTy).Contents (Elt F)) ]

theorem p7_sub : (p7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem p7_fresh : ∀ op ∈ (p7 : List (HloOp τ sig (Elt F))), op.fresh = ∅ := by
  intro _ h; (repeat (cases h with | head => rfl | tail _ h => ?_)); exact nomatch h

/-- The two affine layers with the rectifier between them (11 operations). -/
abbrev p8 : List (HloOp τ sig (Elt F)) :=
  [ StableHlo.binary main_v34 main_arg1 main_v35 ((fun l r => Host.dotGeneral dot_S130816x1536_S1536x256_S130816x256_1_0_0_1_n_n none l r) : (⟨S130816x1536, .f32⟩ : BufTy).Contents (Elt F) → (⟨S1536x256, .f32⟩ : BufTy).Contents (Elt F) → (⟨S130816x256, .f32⟩ : BufTy).Contents (Elt F)),
    StableHlo.unary main_arg2 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S130816x256 ![0, 1] bcast_S1x256_S130816x256_0_1 : (⟨S1x256, .f32⟩ : BufTy).Contents (Elt F) → (⟨S130816x256, .f32⟩ : BufTy).Contents (Elt F)),
    StableHlo.binary main_v35 main_v37 main_v38 (addf : (⟨S130816x256, .f32⟩ : BufTy).Contents (Elt F) → (⟨S130816x256, .f32⟩ : BufTy).Contents (Elt F) → (⟨S130816x256, .f32⟩ : BufTy).Contents (Elt F)),
    StableHlo.TRef.nullary main_call8.cst (constant S_ .f32 0x00000000#32),
    StableHlo.TRef.unary main_call8.cst main_call8.v0 (broadcastInDim S130816x256 ![] bcast_S_S130816x256),
    StableHlo.TRef.binary (.of main_v38 : StableHlo.TRef sig ⟨S130816x256, .f32⟩) main_call8.v0 main_call8.v1 maximumf,
    StableHlo.binary main_v39 main_arg3 main_v40 ((fun l r => Host.dotGeneral dot_S130816x256_S256x1_S130816x1_1_0_0_1_n_n none l r) : (⟨S130816x256, .f32⟩ : BufTy).Contents (Elt F) → (⟨S256x1, .f32⟩ : BufTy).Contents (Elt F) → (⟨S130816x1, .f32⟩ : BufTy).Contents (Elt F)),
    StableHlo.unary main_arg4 main_v41 (broadcastInDim S1x1 ![1] bcast_S1_S1x1_1 : (⟨S1, .f32⟩ : BufTy).Contents (Elt F) → (⟨S1x1, .f32⟩ : BufTy).Contents (Elt F)),
    StableHlo.unary main_v41 main_v42 (broadcastInDim S130816x1 ![0, 1] bcast_S1x1_S130816x1_0_1 : (⟨S1x1, .f32⟩ : BufTy).Contents (Elt F) → (⟨S130816x1, .f32⟩ : BufTy).Contents (Elt F)),
    StableHlo.binary main_v40 main_v42 main_v43 (addf : (⟨S130816x1, .f32⟩ : BufTy).Contents (Elt F) → (⟨S130816x1, .f32⟩ : BufTy).Contents (Elt F) → (⟨S130816x1, .f32⟩ : BufTy).Contents (Elt F)) ]

theorem p8_sub : (p8 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem p8_fresh : ∀ op ∈ (p8 : List (HloOp τ sig (Elt F))), op.fresh = ∅ := by
  intro _ h; (repeat (cases h with | head => rfl | tail _ h => ?_)); exact nomatch h

/-- @main's 147 operations, in order. -/
abbrev ops : List (HloOp τ sig (Elt F)) := p1 ++ (p2 ++ (p3 ++ (p4 ++ (p5 ++ (p6 ++ (p7 ++ p8))))))

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp p1_sub op h, List.forall_iff_forall_mem.mp p2_sub op h,
      List.forall_iff_forall_mem.mp p3_sub op h, List.forall_iff_forall_mem.mp p4_sub op h,
      List.forall_iff_forall_mem.mp p5_sub op h, List.forall_iff_forall_mem.mp p6_sub op h,
      List.forall_iff_forall_mem.mp p7_sub op h, List.forall_iff_forall_mem.mp p8_sub op h]

theorem ops_fresh : ∀ op ∈ (ops : List (HloOp τ sig (Elt F))), op.fresh = ∅ := by
  intro op h
  simp only [ops, List.mem_append] at h
  rcases h with h | h | h | h | h | h | h | h
  exacts [p1_fresh op h, p2_fresh op h, p3_fresh op h, p4_fresh op h, p5_fresh op h, p6_fresh op h, p7_fresh op h,
    p8_fresh op h]

/-- What the buffers hold after two stretches run in order. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_ops (V : Valuation τ sig (Elt F)) :
    after ops V = after p8 (after p7 (after p6 (after p5 (after p4 (after p3 (after p2 (after p1 V))))))) := by
  simp only [ops, after_append]

end Cert.RefRun

end
-- ==== Proof.RefRun.MainEq.lean ====
/-
  @main is the straight line of its operations: unfolding each outlined function at its call leaves the same
  chain of steps on both sides, which the kernel checks by computation.
-/
import proofs.«145914_j27221502722563_2_alg».proof.Proof.RefRun.Ops
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  chain_rfl

end Cert.RefRun

end
-- ==== Proof.RefRun.Terms.lean ====
/-
  The reference program's results as named terms of its five argument arrays: the pair-index chain
  (a mask of the strict upper triangle, its running count, a scatter of ones at the counted positions and a
  second running count give the flat position of each pair; floor division and remainder by 512 split it into
  the two row indices), the two row gathers, their concatenation, and the two affine layers with the
  rectifier between them. Every definition is the composition of the printed operations, in program order.
-/
import proofs.«145914_j27221502722563_2_alg».proof.Proof.Gen.ReferenceIdeal

noncomputable section

namespace Cert.RefRun

open Cert.ReferenceIdeal Cert.ReferenceIdeal.Gen Idealize.ShloMosaic

/-! ## The pair indices (closed terms: they read no argument) -/

section Index

variable (F : FTy → Type) [FloatOps F]

/-- One where the 512×512 grid's entry — zero where row ≥ column, one elsewhere — differs from zero. -/
def mask : IVec S512x512 1 :=
  cmpf .une
    (select
      (cmpi .sge (addi (iotaInDim S512x512 32 0) (broadcastInDim S512x512 ![] bcast_S_S512x512 (constantI S_ 32 0#32)))
        (iotaInDim S512x512 32 1))
      (broadcastInDim S512x512 ![] bcast_S_S512x512 (constant (F := F) S_ .f32 0x00000000#32))
      (broadcastInDim S512x512 ![] bcast_S_S512x512 (constant (F := F) S_ .f32 0x3F800000#32)))
    (broadcastInDim S512x512 ![] bcast_S_S512x512 (constant (F := F) S_ .f32 0x00000000#32))

/-- The running count of the mask over the grid in row-major order. -/
def count4 : IVec S262144 32 :=
  Host.reduceWindow IntOp.addi ![262144] ![1] ![262143] ![0]
    (extui 32 (shapeCast S262144 (mask F) shapeCasts_S512x512_S262144) natLt_1_32)
    (broadcastInDim S_ ![] bcast_S_S_ (constantI S_ 32 0#32))
    reduceWindows_S262144_S262144_w262144s1p262143_0 h_S_

/-- The running count, clipped below at zero. -/
def clip6 : IVec S262144 32 :=
  maxsi (broadcastInDim S262144 ![] bcast_S_S262144 (constantI S_ 32 0#32)) (count4 F)

/-- The flat position of each pair: ones scattered (added) at the clipped counts, then their running count. -/
def flat15 : IVec S130816 32 :=
  Host.reduceWindow IntOp.addi ![130816] ![1] ![130815] ![0]
    (Host.scatter scatter_S130816_S262144x1_S262144_n_0_0_1 IntOp.addi
      (broadcastInDim S130816 ![] bcast_S_S130816 (constantI S_ 32 0#32))
      (broadcastInDim S262144x1 ![0] bcast_S262144_S262144x1_0
        (select (cmpi .slt (clip6 F) (broadcastInDim S262144 ![] bcast_S_S262144 (constantI S_ 32 0#32)))
          (addi (clip6 F) (broadcastInDim S262144 ![] bcast_S_S262144 (constantI S_ 32 130816#32)))
          (clip6 F)))
      (broadcastInDim S262144 ![] bcast_S_S262144 (constantI S_ 32 1#32)))
    (broadcastInDim S_ ![] bcast_S_S_ (constantI S_ 32 0#32))
    reduceWindows_S130816_S130816_w130816s1p130815_0 h_S_

end Index

/-- Floor division of each entry by the scalar `d`: the truncated quotient, less one where the signs differ and
    the remainder is not zero. -/
def floorDiv (x : IVec S130816 32) (d : IVec S_ 32) : IVec S130816 32 :=
  select
    (andi
      (cmpi .ne (signi x) (broadcastInDim S130816 ![] bcast_S_S130816 (signi d)))
      (cmpi .ne (Host.remsi x (broadcastInDim S130816 ![] bcast_S_S130816 d))
        (broadcastInDim S130816 ![] bcast_S_S130816 (constantI S_ 32 0#32))))
    (subi (Host.divsi x (broadcastInDim S130816 ![] bcast_S_S130816 d))
      (broadcastInDim S130816 ![] bcast_S_S130816 (constantI S_ 32 1#32)))
    (Host.divsi x (broadcastInDim S130816 ![] bcast_S_S130816 d))

/-- The divisor a remainder is taken by: `d`, or one where `d` is zero. -/
def divisor (d : IVec S_ 32) : IVec S_ 32 :=
  select (cmpi .eq d (constantI S_ 32 0#32)) (constantI S_ 32 1#32) d

/-- The remainder of each entry by the scalar `d` with the divisor's sign: the truncated remainder, plus the
    divisor where it is not zero and its sign differs from the divisor's. -/
def remainder (x : IVec S130816 32) (d : IVec S_ 32) : IVec S130816 32 :=
  select
    (andi
      (cmpi .ne
        (cmpi .slt (Host.remsi x (broadcastInDim S130816 ![] bcast_S_S130816 (divisor d)))
          (broadcastInDim S130816 ![] bcast_S_S130816 (constantI S_ 32 0#32)))
        (broadcastInDim S130816 ![] bcast_S_S130816 (cmpi .slt (divisor d) (constantI S_ 32 0#32))))
      (cmpi .ne (Host.remsi x (broadcastInDim S130816 ![] bcast_S_S130816 (divisor d)))
        (broadcastInDim S130816 ![] bcast_S_S130816 (constantI S_ 32 0#32))))
    (addi (Host.remsi x (broadcastInDim S130816 ![] bcast_S_S130816 (divisor d)))
      (broadcastInDim S130816 ![] bcast_S_S130816 (divisor d)))
    (Host.remsi x (broadcastInDim S130816 ![] bcast_S_S130816 (divisor d)))

section Index

variable (F : FTy → Type) [FloatOps F]

/-- The first row index of each pair. -/
def res17 : IVec S130816 32 :=
  remainder (floorDiv (flat15 F) (constantI S_ 32 512#32)) (constantI S_ 32 512#32)

/-- The second row index of each pair. -/
def res19 : IVec S130816 32 :=
  remainder (floorDiv (flat15 F) (constantI S_ 32 1#32)) (constantI S_ 32 512#32)

end Index

/-! ## The scores -/

variable {F : FTy → Type} [FloatOps F]

/-- A row index with a negative entry moved up by 512. -/
def wrap (x : IVec S130816 32) : IVec S130816 32 :=
  select (cmpi .slt x (broadcastInDim S130816 ![] bcast_S_S130816 (constantI S_ 32 0#32)))
    (addi x (broadcastInDim S130816 ![] bcast_S_S130816 (constantI S_ 32 512#32))) x

/-- The rows of `E` at the (wrapped) indices `x`. -/
def rows (E : FVec F S512x768 .f32) (x : IVec S130816 32) : FVec F S130816x768 .f32 :=
  Host.gather gather_S512x768_S130816x1_S130816x768_1_0_n_n_0_1_1768 E
    (broadcastInDim S130816x1 ![0] bcast_S130816_S130816x1_0 (wrap x))

/-- Each pair's two rows side by side. -/
def pairs (E : FVec F S512x768 .f32) (xi xj : IVec S130816 32) : FVec F S130816x1536 .f32 :=
  concatenate S130816x1536 1 [⟨S130816x768, rows E xi⟩, ⟨S130816x768, rows E xj⟩]
    concatenates_S130816x768_S130816x768_S130816x1536_d1

/-- The first affine layer and the rectifier. -/
def hidden (X : FVec F S130816x1536 .f32) (W1 : FVec F S1536x256 .f32) (b1 : FVec F S256 .f32) :
    FVec F S130816x256 .f32 :=
  maximumf
    (addf (Host.dotGeneral dot_S130816x1536_S1536x256_S130816x256_1_0_0_1_n_n none X W1)
      (broadcastInDim S130816x256 ![0, 1] bcast_S1x256_S130816x256_0_1 (broadcastInDim S1x256 ![1] bcast_S256_S1x256_1 b1)))
    (broadcastInDim S130816x256 ![] bcast_S_S130816x256 (constant S_ .f32 0x00000000#32))

/-- The second affine layer. -/
def score (H : FVec F S130816x256 .f32) (W2 : FVec F S256x1 .f32) (b2 : FVec F S1 .f32) : FVec F S130816x1 .f32 :=
  addf (Host.dotGeneral dot_S130816x256_S256x1_S130816x1_1_0_0_1_n_n none H W2)
    (broadcastInDim S130816x1 ![0, 1] bcast_S1x1_S130816x1_0_1 (broadcastInDim S1x1 ![1] bcast_S1_S1x1_1 b2))

/-- The score of every pair, as a function of the five argument arrays. -/
def res43 (E : FVec F S512x768 .f32) (W1 : FVec F S1536x256 .f32) (b1 : FVec F S256 .f32)
    (W2 : FVec F S256x1 .f32) (b2 : FVec F S1 .f32) : FVec F S130816x1 .f32 :=
  score (hidden (pairs E (res17 F) (res19 F)) W1 b1) W2 b2

end Cert.RefRun

end
-- ==== Proof.RefRun.W1.lean ====
/-
  The first stretch read back: the running count of the upper-triangle mask, from any contents. The running sum is a fold over 262144 positions; the read-back is proved with it replaced by an arbitrary function, which is then instantiated.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p1_W : List (Ref sig .tc) := [main_cst, main_v0, main_call0_v0, main_call0_c, main_call0_v1, main_call0_v2, main_call0_v3, main_call0_v4, main_call0_cst, main_call0_v5, main_v1, main_cst_0, main_v2, main_v3, main_call1_v0, main_call1_v1, main_call1_call0_c, main_call1_call0_v0, main_v4]

theorem p1_writes : (p1 : List (HloOp τ sig (Elt F))).Forall fun op =>
    op.writes ⊆ (p1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p1_keep (V : Valuation τ sig (Elt F)) (r : Ref sig .tc) (h : r ∉ p1_W) :
    after p1 V (Proc.devRef .tc r) = V (Proc.devRef .tc r) :=
  after_of_writes_sub p1 V p1_writes h

/-- The first stretch with its last operation's function — the running sum — a parameter. -/
abbrev p1' (R : (⟨S262144, .i32⟩ : BufTy).Contents (Elt F) → (⟨S_, .i32⟩ : BufTy).Contents (Elt F) → (⟨S262144, .i32⟩ : BufTy).Contents (Elt F)) : List (HloOp τ sig (Elt F)) :=
  [ StableHlo.nullary main_cst (constant S_ .f32 0x3F800000#32),
    StableHlo.unary main_cst main_v0 (broadcastInDim S512x512 ![] bcast_S_S512x512 : (⟨S_, .f32⟩ : BufTy).Contents (Elt F) → (⟨S512x512, .f32⟩ : BufTy).Contents (Elt F)),
    StableHlo.TRef.nullary main_call0.v0 (iotaInDim S512x512 32 0),
    StableHlo.TRef.nullary main_call0.c (constantI S_ 32 0#32),
    StableHlo.TRef.unary main_call0.c main_call0.v1 (broadcastInDim S512x512 ![] bcast_S_S512x512),
    StableHlo.TRef.binary main_call0.v0 main_call0.v1 main_call0.v2 addi,
    StableHlo.TRef.nullary main_call0.v3 (iotaInDim S512x512 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S512x512 ![] bcast_S_S512x512),
    StableHlo.TRef.ternary main_call0.v4 main_call0.v5 (.of main_v0 : StableHlo.TRef sig ⟨S512x512, .f32⟩) main_call0.v6 select,
    StableHlo.nullary main_cst_0 (constant S_ .f32 0x00000000#32),
    StableHlo.unary main_cst_0 main_v2 (broadcastInDim S512x512 ![] bcast_S_S512x512 : (⟨S_, .f32⟩ : BufTy).Contents (Elt F) → (⟨S512x512, .f32⟩ : BufTy).Contents (Elt F)),
    StableHlo.binary main_v1 main_v2 main_v3 (cmpf .une : (⟨S512x512, .f32⟩ : BufTy).Contents (Elt F) → (⟨S512x512, .f32⟩ : BufTy).Contents (Elt F) → (⟨S512x512, .i1⟩ : BufTy).Contents (Elt F)),
    StableHlo.TRef.reshape (.of main_v3 : StableHlo.TRef sig ⟨S512x512, .i1⟩) main_call1.v0 rfl shapeCasts_S512x512_S262144,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 R ]

theorem p1_eq : (p1 : List (HloOp τ sig (Elt F))) = p1' (fun x v => Host.reduceWindow IntOp.addi ![262144] ![1] ![262143] ![0] x v reduceWindows_S262144_S262144_w262144s1p262143_0 h_S_) := rfl

/-- The count buffer after the parametrized stretch: the parameter applied to the widened, flattened mask and the
    zero it starts from. -/
theorem p1'_v4 (R : (⟨S262144, .i32⟩ : BufTy).Contents (Elt F) → (⟨S_, .i32⟩ : BufTy).Contents (Elt F) → (⟨S262144, .i32⟩ : BufTy).Contents (Elt F)) (V : Valuation τ sig (Elt F)) :
    after (p1' R) V (Proc.devRef .tc main_v4)
      = R (extui 32 (shapeCast S262144 (mask F) shapeCasts_S512x512_S262144) natLt_1_32)
          (broadcastInDim S_ ![] bcast_S_S_ (constantI S_ 32 0#32)) := by
  simp only [p1']
  after_results_simp
  rfl

/-- The count buffer after the stretch (the stretch reads nothing it does not write). -/
theorem p1_v4 (V : Valuation τ sig (Elt F)) :
    after p1 V (Proc.devRef .tc main_v4) = count4 F :=
  (congrArg (fun l => after l V (Proc.devRef .tc main_v4)) p1_eq).trans (p1'_v4 _ V)

end Cert.RefRun

end
-- ==== Proof.RefRun.W2.lean ====
/-
  The second stretch read back: each pair's flat position, from contents whose count buffer holds the mask's running count. The scatter and the running sum are folds over 262144 and 130816 positions; the read-back is proved with the two replaced by arbitrary functions, which are then instantiated.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p2_W : List (Ref sig .tc) := [main_c, main_v5, main_c_1, main_call2_v0, main_call2_v1, main_v6, main_c_2, main_v7, main_v8, main_c_3, main_v9, main_v10, main_v11, main_v12, main_c_4, main_v13, main_v14, main_call3_call0_c, main_call3_call0_v0, main_v15]

theorem p2_writes : (p2 : List (HloOp τ sig (Elt F))).Forall fun op =>
    op.writes ⊆ (p2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p2_keep (V : Valuation τ sig (Elt F)) (r : Ref sig .tc) (h : r ∉ p2_W) :
    after p2 V (Proc.devRef .tc r) = V (Proc.devRef .tc r) :=
  after_of_writes_sub p2 V p2_writes h

/-- The second stretch with the scatter's and the running sum's functions parameters. -/
abbrev p2' (S : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R : (⟨S130816, .i32⟩ : BufTy).Contents (Elt F) → (⟨S_, .i32⟩ : BufTy).Contents (Elt F) → (⟨S130816, .i32⟩ : BufTy).Contents (Elt F)) : List (HloOp τ sig (Elt F)) :=
  [ StableHlo.nullary main_c (constantI S_ 32 0#32),
    StableHlo.unary main_c main_v5 (broadcastInDim S130816 ![] bcast_S_S130816 : (⟨S_, .i32⟩ : BufTy).Contents (Elt F) → (⟨S130816, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S262144 ![] bcast_S_S262144),
    StableHlo.TRef.binary main_call2.v1 (.of main_v4 : StableHlo.TRef sig ⟨S262144, .i32⟩) main_call2.v2 maxsi,
    StableHlo.nullary main_c_2 (constantI S_ 32 0#32),
    StableHlo.unary main_c_2 main_v7 (broadcastInDim S262144 ![] bcast_S_S262144 : (⟨S_, .i32⟩ : BufTy).Contents (Elt F) → (⟨S262144, .i32⟩ : BufTy).Contents (Elt F)),
    StableHlo.binary main_v6 main_v7 main_v8 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 130816#32),
    StableHlo.unary main_c_3 main_v9 (broadcastInDim S262144 ![] bcast_S_S262144 : (⟨S_, .i32⟩ : BufTy).Contents (Elt F) → (⟨S262144, .i32⟩ : BufTy).Contents (Elt F)),
    StableHlo.binary main_v6 main_v9 main_v10 (addi : (⟨S262144, .i32⟩ : BufTy).Contents (Elt F) → (⟨S262144, .i32⟩ : BufTy).Contents (Elt F) → (⟨S262144, .i32⟩ : BufTy).Contents (Elt F)),
    StableHlo.ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v11 main_v12 (broadcastInDim S262144x1 ![0] bcast_S262144_S262144x1_0 : (⟨S262144, .i32⟩ : BufTy).Contents (Elt F) → (⟨S262144x1, .i32⟩ : BufTy).Contents (Elt F)),
    StableHlo.nullary main_c_4 (constantI S_ 32 1#32),
    StableHlo.unary main_c_4 main_v13 (broadcastInDim S262144 ![] bcast_S_S262144 : (⟨S_, .i32⟩ : BufTy).Contents (Elt F) → (⟨S262144, .i32⟩ : BufTy).Contents (Elt F)),
    StableHlo.ternary main_v5 main_v12 main_v13 main_v14 S,
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S130816, .i32⟩) main_call3.call0.v0 main_call3.call0.v1 R ]

theorem p2_eq : (p2 : List (HloOp τ sig (Elt F)))
    = p2' ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
        (fun x v => Host.reduceWindow IntOp.addi ![130816] ![1] ![130815] ![0] x v reduceWindows_S130816_S130816_w130816s1p130815_0 h_S_) := rfl

/-- The flat-position buffer after the parametrized stretch, from contents whose count buffer holds `c4`. -/
theorem p2'_v15 (S : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R : (⟨S130816, .i32⟩ : BufTy).Contents (Elt F) → (⟨S_, .i32⟩ : BufTy).Contents (Elt F) → (⟨S130816, .i32⟩ : BufTy).Contents (Elt F)) (V : Valuation τ sig (Elt F))
    (c4 : IVec S262144 32) (h4 : V (Proc.devRef .tc main_v4) = c4) :
    after (p2' S R) V (Proc.devRef .tc main_v15)
      = R (S (broadcastInDim S130816 ![] bcast_S_S130816 (constantI S_ 32 0#32))
            (broadcastInDim S262144x1 ![0] bcast_S262144_S262144x1_0
              (select (cmpi .slt (maxsi (broadcastInDim S262144 ![] bcast_S_S262144 (constantI S_ 32 0#32)) c4) (broadcastInDim S262144 ![] bcast_S_S262144 (constantI S_ 32 0#32)))
                (addi (maxsi (broadcastInDim S262144 ![] bcast_S_S262144 (constantI S_ 32 0#32)) c4) (broadcastInDim S262144 ![] bcast_S_S262144 (constantI S_ 32 130816#32)))
                (maxsi (broadcastInDim S262144 ![] bcast_S_S262144 (constantI S_ 32 0#32)) c4)))
            (broadcastInDim S262144 ![] bcast_S_S262144 (constantI S_ 32 1#32)))
          (broadcastInDim S_ ![] bcast_S_S_ (constantI S_ 32 0#32)) := by
  subst h4
  simp only [p2']
  after_results_simp
  rfl

/-- The flat-position buffer after the stretch. -/
theorem p2_v15 (V : Valuation τ sig (Elt F)) (h4 : V (Proc.devRef .tc main_v4) = count4 F) :
    after p2 V (Proc.devRef .tc main_v15) = flat15 F :=
  (congrArg (fun l => after l V (Proc.devRef .tc main_v15)) p2_eq).trans (p2'_v15 _ _ V _ h4)

end Cert.RefRun

end
-- ==== Proof.RefRun.W3.lean ====
/-
  The third stretch read back: the flat position's floor division by 512, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p3_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16]

theorem p3_writes : (p3 : List (HloOp τ sig (Elt F))).Forall fun op =>
    op.writes ⊆ (p3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p3_keep (V : Valuation τ sig (Elt F)) (r : Ref sig .tc) (h : r ∉ p3_W) :
    after p3 V (Proc.devRef .tc r) = V (Proc.devRef .tc r) :=
  after_of_writes_sub p3 V p3_writes h

/-- The quotient buffer after the stretch: the floor division of what the flat-position buffer held. -/
theorem p3_v16 (V : Valuation τ sig (Elt F)) :
    after p3 V (Proc.devRef .tc main_v16) = floorDiv (V (Proc.devRef .tc main_v15)) (constantI S_ 32 512#32) := by
  simp only [p3]
  after_results_simp
  rfl

end Cert.RefRun

end
-- ==== Proof.RefRun.W4.lean ====
/-
  The fourth stretch read back: the remainder by 512 of what the quotient buffer held, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p4_W : List (Ref sig .tc) := [main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]

theorem p4_writes : (p4 : List (HloOp τ sig (Elt F))).Forall fun op =>
    op.writes ⊆ (p4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p4_keep (V : Valuation τ sig (Elt F)) (r : Ref sig .tc) (h : r ∉ p4_W) :
    after p4 V (Proc.devRef .tc r) = V (Proc.devRef .tc r) :=
  after_of_writes_sub p4 V p4_writes h

/-- The first row-index buffer after the stretch. -/
theorem p4_v17 (V : Valuation τ sig (Elt F)) :
    after p4 V (Proc.devRef .tc main_v17) = remainder (V (Proc.devRef .tc main_v16)) (constantI S_ 32 512#32) := by
  simp only [p4]
  after_results_simp
  rfl

end Cert.RefRun

end
-- ==== Proof.RefRun.W5.lean ====
/-
  The fifth stretch read back: the flat position's floor division by 1, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p5_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18]

theorem p5_writes : (p5 : List (HloOp τ sig (Elt F))).Forall fun op =>
    op.writes ⊆ (p5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p5_keep (V : Valuation τ sig (Elt F)) (r : Ref sig .tc) (h : r ∉ p5_W) :
    after p5 V (Proc.devRef .tc r) = V (Proc.devRef .tc r) :=
  after_of_writes_sub p5 V p5_writes h

/-- The second quotient buffer after the stretch. -/
theorem p5_v18 (V : Valuation τ sig (Elt F)) :
    after p5 V (Proc.devRef .tc main_v18) = floorDiv (V (Proc.devRef .tc main_v15)) (constantI S_ 32 1#32) := by
  simp only [p5]
  after_results_simp
  rfl

end Cert.RefRun

end
-- ==== Proof.RefRun.W6.lean ====
/-
  The sixth stretch read back: the remainder by 512 of what the second quotient buffer held, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p6_W : List (Ref sig .tc) := [main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]

theorem p6_writes : (p6 : List (HloOp τ sig (Elt F))).Forall fun op =>
    op.writes ⊆ (p6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p6_keep (V : Valuation τ sig (Elt F)) (r : Ref sig .tc) (h : r ∉ p6_W) :
    after p6 V (Proc.devRef .tc r) = V (Proc.devRef .tc r) :=
  after_of_writes_sub p6 V p6_writes h

/-- The second row-index buffer after the stretch. -/
theorem p6_v19 (V : Valuation τ sig (Elt F)) :
    after p6 V (Proc.devRef .tc main_v19) = remainder (V (Proc.devRef .tc main_v18)) (constantI S_ 32 512#32) := by
  simp only [p6]
  after_results_simp
  rfl

end Cert.RefRun

end
-- ==== Proof.RefRun.W7.lean ====
/-
  The seventh stretch read back: the two wrapped row gathers side by side, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p7_W : List (Ref sig .tc) := [main_c_9, main_v20, main_v21, main_c_10, main_v22, main_v23, main_v24, main_v25, main_v26, main_c_11, main_v27, main_v28, main_c_12, main_v29, main_v30, main_v31, main_v32, main_v33, main_v34]

theorem p7_writes : (p7 : List (HloOp τ sig (Elt F))).Forall fun op =>
    op.writes ⊆ (p7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p7_keep (V : Valuation τ sig (Elt F)) (r : Ref sig .tc) (h : r ∉ p7_W) :
    after p7 V (Proc.devRef .tc r) = V (Proc.devRef .tc r) :=
  after_of_writes_sub p7 V p7_writes h

/-- The concatenation buffer after the stretch. -/
theorem p7_v34 (V : Valuation τ sig (Elt F)) :
    after p7 V (Proc.devRef .tc main_v34)
      = pairs (V (Proc.devRef .tc main_arg0)) (V (Proc.devRef .tc main_v17)) (V (Proc.devRef .tc main_v19)) := by
  simp only [p7]
  after_results_simp
  rfl

end Cert.RefRun

end
-- ==== Proof.RefRun.W8.lean ====
/-
  The eighth stretch read back: the two affine layers with the rectifier between them, from any contents.
-/
import proofs.«145914_j27221502722563_2_alg».proof.Proof.RefRun.Terms
import proofs.«145914_j27221502722563_2_alg».proof.Proof.RefRun.Ops

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers this stretch writes. -/
abbrev p8_W : List (Ref sig .tc) := [main_v35, main_v36, main_v37, main_v38, main_call8_cst, main_call8_v0, main_v39, main_v40, main_v41, main_v42, main_v43]

theorem p8_writes : (p8 : List (HloOp τ sig (Elt F))).Forall fun op =>
    op.writes ⊆ (p8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer this stretch does not write keeps its contents through it. -/
theorem p8_keep (V : Valuation τ sig (Elt F)) (r : Ref sig .tc) (h : r ∉ p8_W) :
    after p8 V (Proc.devRef .tc r) = V (Proc.devRef .tc r) :=
  after_of_writes_sub p8 V p8_writes h

/-- The score buffer after the stretch. -/
theorem p8_v43 (V : Valuation τ sig (Elt F)) :
    after p8 V (Proc.devRef .tc main_v43)
      = score (hidden (V (Proc.devRef .tc main_v34)) (V (Proc.devRef .tc main_arg1)) (V (Proc.devRef .tc main_arg2)))
          (V (Proc.devRef .tc main_arg3)) (V (Proc.devRef .tc main_arg4)) := by
  simp only [p8]
  after_results_simp
  rfl

end Cert.RefRun

end
-- ==== Proof.RefRun.lean ====
/-
  The reference program's run: every weakly fair execution of @main terminates with the two index results and
  the scores at their named terms of the launch contents, the five arguments unchanged; and the frame claim,
  which is the run's last five conjuncts. The eight stretches' read-backs are chained: each result buffer is
  followed from the stretch that writes it through the later ones, which leave it alone.
-/
import proofs.«145914_j27221502722563_2_alg».proof.Defs
import proofs.«145914_j27221502722563_2_alg».proof.Proof.Gen.Pre_finite_inputs
import proofs.«145914_j27221502722563_2_alg».proof.Proof.RefRun.MainEq
import proofs.«145914_j27221502722563_2_alg».proof.Proof.RefRun.W1
import proofs.«145914_j27221502722563_2_alg».proof.Proof.RefRun.W2
import proofs.«145914_j27221502722563_2_alg».proof.Proof.RefRun.W3
import proofs.«145914_j27221502722563_2_alg».proof.Proof.RefRun.W4
import proofs.«145914_j27221502722563_2_alg».proof.Proof.RefRun.W5
import proofs.«145914_j27221502722563_2_alg».proof.Proof.RefRun.W6
import proofs.«145914_j27221502722563_2_alg».proof.Proof.RefRun.W7
import proofs.«145914_j27221502722563_2_alg».proof.Proof.RefRun.W8

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each TensorCore buffer
    at the fold of the 147 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments: no stretch writes one -/

section Read

variable (V : Valuation τ sig (Elt F))

theorem keep1_main_arg0 : (after p1 V) (Proc.devRef .tc main_arg0) = V (Proc.devRef .tc main_arg0) :=
  (p1_keep _ main_arg0 (by decide))
theorem keep2_main_arg0 : (after p2 (after p1 V)) (Proc.devRef .tc main_arg0) = V (Proc.devRef .tc main_arg0) :=
  (p2_keep _ main_arg0 (by decide)).trans (keep1_main_arg0 V)
theorem keep3_main_arg0 : (after p3 (after p2 (after p1 V))) (Proc.devRef .tc main_arg0) = V (Proc.devRef .tc main_arg0) :=
  (p3_keep _ main_arg0 (by decide)).trans (keep2_main_arg0 V)
theorem keep4_main_arg0 : (after p4 (after p3 (after p2 (after p1 V)))) (Proc.devRef .tc main_arg0) = V (Proc.devRef .tc main_arg0) :=
  (p4_keep _ main_arg0 (by decide)).trans (keep3_main_arg0 V)
theorem keep5_main_arg0 : (after p5 (after p4 (after p3 (after p2 (after p1 V))))) (Proc.devRef .tc main_arg0) = V (Proc.devRef .tc main_arg0) :=
  (p5_keep _ main_arg0 (by decide)).trans (keep4_main_arg0 V)
theorem keep6_main_arg0 : (after p6 (after p5 (after p4 (after p3 (after p2 (after p1 V)))))) (Proc.devRef .tc main_arg0) = V (Proc.devRef .tc main_arg0) :=
  (p6_keep _ main_arg0 (by decide)).trans (keep5_main_arg0 V)
theorem keep7_main_arg0 : (after p7 (after p6 (after p5 (after p4 (after p3 (after p2 (after p1 V))))))) (Proc.devRef .tc main_arg0) = V (Proc.devRef .tc main_arg0) :=
  (p7_keep _ main_arg0 (by decide)).trans (keep6_main_arg0 V)
theorem keep8_main_arg0 : (after p8 (after p7 (after p6 (after p5 (after p4 (after p3 (after p2 (after p1 V)))))))) (Proc.devRef .tc main_arg0) = V (Proc.devRef .tc main_arg0) :=
  (p8_keep _ main_arg0 (by decide)).trans (keep7_main_arg0 V)

theorem keep1_main_arg1 : (after p1 V) (Proc.devRef .tc main_arg1) = V (Proc.devRef .tc main_arg1) :=
  (p1_keep _ main_arg1 (by decide))
theorem keep2_main_arg1 : (after p2 (after p1 V)) (Proc.devRef .tc main_arg1) = V (Proc.devRef .tc main_arg1) :=
  (p2_keep _ main_arg1 (by decide)).trans (keep1_main_arg1 V)
theorem keep3_main_arg1 : (after p3 (after p2 (after p1 V))) (Proc.devRef .tc main_arg1) = V (Proc.devRef .tc main_arg1) :=
  (p3_keep _ main_arg1 (by decide)).trans (keep2_main_arg1 V)
theorem keep4_main_arg1 : (after p4 (after p3 (after p2 (after p1 V)))) (Proc.devRef .tc main_arg1) = V (Proc.devRef .tc main_arg1) :=
  (p4_keep _ main_arg1 (by decide)).trans (keep3_main_arg1 V)
theorem keep5_main_arg1 : (after p5 (after p4 (after p3 (after p2 (after p1 V))))) (Proc.devRef .tc main_arg1) = V (Proc.devRef .tc main_arg1) :=
  (p5_keep _ main_arg1 (by decide)).trans (keep4_main_arg1 V)
theorem keep6_main_arg1 : (after p6 (after p5 (after p4 (after p3 (after p2 (after p1 V)))))) (Proc.devRef .tc main_arg1) = V (Proc.devRef .tc main_arg1) :=
  (p6_keep _ main_arg1 (by decide)).trans (keep5_main_arg1 V)
theorem keep7_main_arg1 : (after p7 (after p6 (after p5 (after p4 (after p3 (after p2 (after p1 V))))))) (Proc.devRef .tc main_arg1) = V (Proc.devRef .tc main_arg1) :=
  (p7_keep _ main_arg1 (by decide)).trans (keep6_main_arg1 V)
theorem keep8_main_arg1 : (after p8 (after p7 (after p6 (after p5 (after p4 (after p3 (after p2 (after p1 V)))))))) (Proc.devRef .tc main_arg1) = V (Proc.devRef .tc main_arg1) :=
  (p8_keep _ main_arg1 (by decide)).trans (keep7_main_arg1 V)

theorem keep1_main_arg2 : (after p1 V) (Proc.devRef .tc main_arg2) = V (Proc.devRef .tc main_arg2) :=
  (p1_keep _ main_arg2 (by decide))
theorem keep2_main_arg2 : (after p2 (after p1 V)) (Proc.devRef .tc main_arg2) = V (Proc.devRef .tc main_arg2) :=
  (p2_keep _ main_arg2 (by decide)).trans (keep1_main_arg2 V)
theorem keep3_main_arg2 : (after p3 (after p2 (after p1 V))) (Proc.devRef .tc main_arg2) = V (Proc.devRef .tc main_arg2) :=
  (p3_keep _ main_arg2 (by decide)).trans (keep2_main_arg2 V)
theorem keep4_main_arg2 : (after p4 (after p3 (after p2 (after p1 V)))) (Proc.devRef .tc main_arg2) = V (Proc.devRef .tc main_arg2) :=
  (p4_keep _ main_arg2 (by decide)).trans (keep3_main_arg2 V)
theorem keep5_main_arg2 : (after p5 (after p4 (after p3 (after p2 (after p1 V))))) (Proc.devRef .tc main_arg2) = V (Proc.devRef .tc main_arg2) :=
  (p5_keep _ main_arg2 (by decide)).trans (keep4_main_arg2 V)
theorem keep6_main_arg2 : (after p6 (after p5 (after p4 (after p3 (after p2 (after p1 V)))))) (Proc.devRef .tc main_arg2) = V (Proc.devRef .tc main_arg2) :=
  (p6_keep _ main_arg2 (by decide)).trans (keep5_main_arg2 V)
theorem keep7_main_arg2 : (after p7 (after p6 (after p5 (after p4 (after p3 (after p2 (after p1 V))))))) (Proc.devRef .tc main_arg2) = V (Proc.devRef .tc main_arg2) :=
  (p7_keep _ main_arg2 (by decide)).trans (keep6_main_arg2 V)
theorem keep8_main_arg2 : (after p8 (after p7 (after p6 (after p5 (after p4 (after p3 (after p2 (after p1 V)))))))) (Proc.devRef .tc main_arg2) = V (Proc.devRef .tc main_arg2) :=
  (p8_keep _ main_arg2 (by decide)).trans (keep7_main_arg2 V)

theorem keep1_main_arg3 : (after p1 V) (Proc.devRef .tc main_arg3) = V (Proc.devRef .tc main_arg3) :=
  (p1_keep _ main_arg3 (by decide))
theorem keep2_main_arg3 : (after p2 (after p1 V)) (Proc.devRef .tc main_arg3) = V (Proc.devRef .tc main_arg3) :=
  (p2_keep _ main_arg3 (by decide)).trans (keep1_main_arg3 V)
theorem keep3_main_arg3 : (after p3 (after p2 (after p1 V))) (Proc.devRef .tc main_arg3) = V (Proc.devRef .tc main_arg3) :=
  (p3_keep _ main_arg3 (by decide)).trans (keep2_main_arg3 V)
theorem keep4_main_arg3 : (after p4 (after p3 (after p2 (after p1 V)))) (Proc.devRef .tc main_arg3) = V (Proc.devRef .tc main_arg3) :=
  (p4_keep _ main_arg3 (by decide)).trans (keep3_main_arg3 V)
theorem keep5_main_arg3 : (after p5 (after p4 (after p3 (after p2 (after p1 V))))) (Proc.devRef .tc main_arg3) = V (Proc.devRef .tc main_arg3) :=
  (p5_keep _ main_arg3 (by decide)).trans (keep4_main_arg3 V)
theorem keep6_main_arg3 : (after p6 (after p5 (after p4 (after p3 (after p2 (after p1 V)))))) (Proc.devRef .tc main_arg3) = V (Proc.devRef .tc main_arg3) :=
  (p6_keep _ main_arg3 (by decide)).trans (keep5_main_arg3 V)
theorem keep7_main_arg3 : (after p7 (after p6 (after p5 (after p4 (after p3 (after p2 (after p1 V))))))) (Proc.devRef .tc main_arg3) = V (Proc.devRef .tc main_arg3) :=
  (p7_keep _ main_arg3 (by decide)).trans (keep6_main_arg3 V)
theorem keep8_main_arg3 : (after p8 (after p7 (after p6 (after p5 (after p4 (after p3 (after p2 (after p1 V)))))))) (Proc.devRef .tc main_arg3) = V (Proc.devRef .tc main_arg3) :=
  (p8_keep _ main_arg3 (by decide)).trans (keep7_main_arg3 V)

theorem keep1_main_arg4 : (after p1 V) (Proc.devRef .tc main_arg4) = V (Proc.devRef .tc main_arg4) :=
  (p1_keep _ main_arg4 (by decide))
theorem keep2_main_arg4 : (after p2 (after p1 V)) (Proc.devRef .tc main_arg4) = V (Proc.devRef .tc main_arg4) :=
  (p2_keep _ main_arg4 (by decide)).trans (keep1_main_arg4 V)
theorem keep3_main_arg4 : (after p3 (after p2 (after p1 V))) (Proc.devRef .tc main_arg4) = V (Proc.devRef .tc main_arg4) :=
  (p3_keep _ main_arg4 (by decide)).trans (keep2_main_arg4 V)
theorem keep4_main_arg4 : (after p4 (after p3 (after p2 (after p1 V)))) (Proc.devRef .tc main_arg4) = V (Proc.devRef .tc main_arg4) :=
  (p4_keep _ main_arg4 (by decide)).trans (keep3_main_arg4 V)
theorem keep5_main_arg4 : (after p5 (after p4 (after p3 (after p2 (after p1 V))))) (Proc.devRef .tc main_arg4) = V (Proc.devRef .tc main_arg4) :=
  (p5_keep _ main_arg4 (by decide)).trans (keep4_main_arg4 V)
theorem keep6_main_arg4 : (after p6 (after p5 (after p4 (after p3 (after p2 (after p1 V)))))) (Proc.devRef .tc main_arg4) = V (Proc.devRef .tc main_arg4) :=
  (p6_keep _ main_arg4 (by decide)).trans (keep5_main_arg4 V)
theorem keep7_main_arg4 : (after p7 (after p6 (after p5 (after p4 (after p3 (after p2 (after p1 V))))))) (Proc.devRef .tc main_arg4) = V (Proc.devRef .tc main_arg4) :=
  (p7_keep _ main_arg4 (by decide)).trans (keep6_main_arg4 V)
theorem keep8_main_arg4 : (after p8 (after p7 (after p6 (after p5 (after p4 (after p3 (after p2 (after p1 V)))))))) (Proc.devRef .tc main_arg4) = V (Proc.devRef .tc main_arg4) :=
  (p8_keep _ main_arg4 (by decide)).trans (keep7_main_arg4 V)

/-! ## The index chain -/

theorem flat_2 : (after p2 (after p1 V)) (Proc.devRef .tc main_v15) = flat15 F := p2_v15 _ (p1_v4 V)
theorem flat_3 : (after p3 (after p2 (after p1 V))) (Proc.devRef .tc main_v15) = flat15 F :=
  (p3_keep _ main_v15 (by decide)).trans (flat_2 V)
theorem flat_4 : (after p4 (after p3 (after p2 (after p1 V)))) (Proc.devRef .tc main_v15) = flat15 F :=
  (p4_keep _ main_v15 (by decide)).trans (flat_3 V)

theorem quot_3 : (after p3 (after p2 (after p1 V))) (Proc.devRef .tc main_v16) = floorDiv (flat15 F) (constantI S_ 32 512#32) :=
  (p3_v16 _).trans (congrArg (fun x => floorDiv x (constantI S_ 32 512#32)) (flat_2 V))

theorem i_4 : (after p4 (after p3 (after p2 (after p1 V)))) (Proc.devRef .tc main_v17) = res17 F :=
  (p4_v17 _).trans (congrArg (fun x => remainder x (constantI S_ 32 512#32)) (quot_3 V))

theorem quot_5 : (after p5 (after p4 (after p3 (after p2 (after p1 V))))) (Proc.devRef .tc main_v18) = floorDiv (flat15 F) (constantI S_ 32 1#32) :=
  (p5_v18 _).trans (congrArg (fun x => floorDiv x (constantI S_ 32 1#32)) (flat_4 V))

theorem j_6 : (after p6 (after p5 (after p4 (after p3 (after p2 (after p1 V)))))) (Proc.devRef .tc main_v19) = res19 F :=
  (p6_v19 _).trans (congrArg (fun x => remainder x (constantI S_ 32 512#32)) (quot_5 V))

theorem i_5 : (after p5 (after p4 (after p3 (after p2 (after p1 V))))) (Proc.devRef .tc main_v17) = res17 F := (p5_keep _ main_v17 (by decide)).trans (i_4 V)
theorem i_6 : (after p6 (after p5 (after p4 (after p3 (after p2 (after p1 V)))))) (Proc.devRef .tc main_v17) = res17 F := (p6_keep _ main_v17 (by decide)).trans (i_5 V)
theorem i_7 : (after p7 (after p6 (after p5 (after p4 (after p3 (after p2 (after p1 V))))))) (Proc.devRef .tc main_v17) = res17 F := (p7_keep _ main_v17 (by decide)).trans (i_6 V)
theorem i_8 : (after p8 (after p7 (after p6 (after p5 (after p4 (after p3 (after p2 (after p1 V)))))))) (Proc.devRef .tc main_v17) = res17 F := (p8_keep _ main_v17 (by decide)).trans (i_7 V)
theorem j_7 : (after p7 (after p6 (after p5 (after p4 (after p3 (after p2 (after p1 V))))))) (Proc.devRef .tc main_v19) = res19 F := (p7_keep _ main_v19 (by decide)).trans (j_6 V)
theorem j_8 : (after p8 (after p7 (after p6 (after p5 (after p4 (after p3 (after p2 (after p1 V)))))))) (Proc.devRef .tc main_v19) = res19 F := (p8_keep _ main_v19 (by decide)).trans (j_7 V)

/-! ## The scores -/

theorem pairs_7 : (after p7 (after p6 (after p5 (after p4 (after p3 (after p2 (after p1 V))))))) (Proc.devRef .tc main_v34) = pairs (V (Proc.devRef .tc main_arg0)) (res17 F) (res19 F) :=
  (p7_v34 _).trans (by rw [keep6_main_arg0 V, i_6 V, j_6 V])

theorem score_8 : (after p8 (after p7 (after p6 (after p5 (after p4 (after p3 (after p2 (after p1 V)))))))) (Proc.devRef .tc main_v43)
    = res43 (V (Proc.devRef .tc main_arg0)) (V (Proc.devRef .tc main_arg1)) (V (Proc.devRef .tc main_arg2))
        (V (Proc.devRef .tc main_arg3)) (V (Proc.devRef .tc main_arg4)) :=
  (p8_v43 _).trans (by
    rw [pairs_7 V, keep7_main_arg1 V, keep7_main_arg2 V, keep7_main_arg3 V, keep7_main_arg4 V]
    rfl)

/-! ## The whole line -/

theorem ops_v17 : after ops V (Proc.devRef .tc main_v17) = res17 F :=
  (congrFun (after_ops V) _).trans (i_8 V)
theorem ops_v19 : after ops V (Proc.devRef .tc main_v19) = res19 F :=
  (congrFun (after_ops V) _).trans (j_8 V)
theorem ops_v43 : after ops V (Proc.devRef .tc main_v43)
    = res43 (V (Proc.devRef .tc main_arg0)) (V (Proc.devRef .tc main_arg1)) (V (Proc.devRef .tc main_arg2))
        (V (Proc.devRef .tc main_arg3)) (V (Proc.devRef .tc main_arg4)) :=
  (congrFun (after_ops V) _).trans (score_8 V)
theorem ops_main_arg0 : after ops V (Proc.devRef .tc main_arg0) = V (Proc.devRef .tc main_arg0) :=
  (congrFun (after_ops V) _).trans (keep8_main_arg0 V)
theorem ops_main_arg1 : after ops V (Proc.devRef .tc main_arg1) = V (Proc.devRef .tc main_arg1) :=
  (congrFun (after_ops V) _).trans (keep8_main_arg1 V)
theorem ops_main_arg2 : after ops V (Proc.devRef .tc main_arg2) = V (Proc.devRef .tc main_arg2) :=
  (congrFun (after_ops V) _).trans (keep8_main_arg2 V)
theorem ops_main_arg3 : after ops V (Proc.devRef .tc main_arg3) = V (Proc.devRef .tc main_arg3) :=
  (congrFun (after_ops V) _).trans (keep8_main_arg3 V)
theorem ops_main_arg4 : after ops V (Proc.devRef .tc main_arg4) = V (Proc.devRef .tc main_arg4) :=
  (congrFun (after_ops V) _).trans (keep8_main_arg4 V)

end Read

/-- On every device, for any float values, from any memory with zero counters: every weakly fair execution of
    @main terminates with the two index results and the scores at their named terms of the arguments' launch
    contents, and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v17) = res17 F
      ∧ r.2.mem ((c.tc : Thread nD τ).loc main_v19) = res19 F
      ∧ r.2.mem ((c.tc : Thread nD τ).loc main_v43) = res43 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (ops_v17 _), (h c main_v19).trans (ops_v19 _),
      (h c main_v43).trans (ops_v43 _),
      (h c main_arg0).trans (ops_main_arg0 _), (h c main_arg1).trans (ops_main_arg1 _), (h c main_arg2).trans (ops_main_arg2 _), (h c main_arg3).trans (ops_main_arg3 _), (h c main_arg4).trans (ops_main_arg4 _)⟩)
    (run_main m ρ)

/-- The reference's frame claim: the run's last five conjuncts, at the ideal instance (the precondition is not
    used: the line is host operations only). -/
theorem frame_ri : Cert.frame_ReferenceIdeal := fun m ρ _ =>
  (θ_run _ _ _).mono (fun _ h c => (h c).2.2.2) (run (F := Ideal) m ρ)

end Cert.RefRun

end
-- ==== Proof.Frames.lean ====
/-
  The three frame claims.  The kernel program's run (at the word-level values and at the ideal ones, the same
  argument) ends with the argument arrays as launched; the second launch's half — its proof data and the body's
  obligation at every grid point, a tile that computes or one that only zero-fills — is the bundle the run takes.
  The reference's frame is its run with the results dropped.
-/
import proofs.«145914_j27221502722563_2_alg».proof.Defs
import proofs.«145914_j27221502722563_2_alg».proof.Proof.KPost
import proofs.«145914_j27221502722563_2_alg».proof.Proof.BitsKPost
import proofs.«145914_j27221502722563_2_alg».proof.Proof.PairBody
import proofs.«145914_j27221502722563_2_alg».proof.Proof.BitsPairBody
import proofs.«145914_j27221502722563_2_alg».proof.Proof.RefRun

noncomputable section

namespace Cert.Proof

open Idealize.ShloMosaic Idealize.SL.Sem

/-- The second launch's half of the idealized kernel program, at any float values. -/
def pairIdeal {F : FTy → Type} [FloatOps F] : Cert.KernelIdeal.Run.Pair1 F where
  dat V c := Cert.KernelIdeal.Pair.dat1 V c
  hA V c w := Cert.KernelIdeal.Pair.A_eq1 V c w
  hΦ _ _ _ := rfl
  hq _ _ _ := rfl
  howed _ _ _ := rfl
  hrec _ _ _ := rfl
  hbody V c := Cert.KernelIdeal.Pair.body_obligation1 V c

/-- The second launch's half of the kernel program as printed. -/
def pairBits {F : FTy → Type} [FloatOps F] : Cert.Kernel.Run.Pair1 F where
  dat V c := Cert.Kernel.Pair.dat1 V c
  hA V c w := Cert.Kernel.Pair.A_eq1 V c w
  hΦ _ _ _ := rfl
  hq _ _ _ := rfl
  howed _ _ _ := rfl
  hrec _ _ _ := rfl
  hbody V c := Cert.Kernel.Pair.body_obligation1 V c

theorem frame_k : Cert.frame_Kernel (hKernel := Cert.Kernel.Gen.facts) (hPre_finite_inputs := Cert.Pre_finite_inputs.Gen.facts) :=
  fun m ρ _ => Cert.Kernel.Run.frame (F := Bits) pairBits m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) pairIdeal m ρ

end Cert.Proof

end
-- ==== Proof.KGlue.lean ====
/-
  The arrays the two launches read, in terms of the memory the program was launched from: the first host stretch
  slices the first layer's weights into the rows that meet the first and the second feature vector of a pair and
  lays the bias out as a row; the second lays the second layer's weights out as a row and its bias as a 1 x 1
  block; the first launch's outputs reach the second launch untouched.
-/
import proofs.«145914_j27221502722563_2_alg».proof.Proof.Gen.KernelIdeal.Launch
import proofs.«145914_j27221502722563_2_alg».proof.Proof.Gen.KernelIdeal.Skeleton
import proofs.«145914_j27221502722563_2_alg».proof.Proof.Gen.KernelIdeal.Points
import proofs.«145914_j27221502722563_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## At the first launch's entry -/

theorem V1_E (c : Dev nD) : V1 m ρ c main_arg0 = m ((c : Thread nD τ).loc main_arg0) :=
  StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

theorem V1_W1a (c : Dev nD) : V1 m ρ c main_call0_v0
    = extractStridedSlice S768x256 ![0, 0] (m ((c : Thread nD τ).loc main_arg1)) slices_S1536x256_S768x256_0_0 := by
  show StableHlo.after hostOps0 (W0 m ρ c) (Proc.devRef .tc main_call0_v0) = _
  dsimp only [hostOps0, TRef.nullary, TRef.unary, TRef.binary, TRef.ternary, TRef.reshape, TRef.of, TRef.toBuf, TRef.ofBuf]
  after_results_simp
  try simp only [cast_eq]
  try rfl

theorem V1_W1b (c : Dev nD) : V1 m ρ c main_call0_v1
    = extractStridedSlice S768x256 ![768, 0] (m ((c : Thread nD τ).loc main_arg1)) slices_S1536x256_S768x256_768_0 := by
  show StableHlo.after hostOps0 (W0 m ρ c) (Proc.devRef .tc main_call0_v1) = _
  dsimp only [hostOps0, TRef.nullary, TRef.unary, TRef.binary, TRef.ternary, TRef.reshape, TRef.of, TRef.toBuf, TRef.ofBuf]
  after_results_simp
  try simp only [cast_eq]
  try rfl

theorem V1_b1 (c : Dev nD) : V1 m ρ c main_call0_v2
    = shapeCast S1x256 (m ((c : Thread nD τ).loc main_arg2)) shapeCasts_S256_S1x256 := by
  show StableHlo.after hostOps0 (W0 m ρ c) (Proc.devRef .tc main_call0_v2) = _
  dsimp only [hostOps0, TRef.nullary, TRef.unary, TRef.binary, TRef.ternary, TRef.reshape, TRef.of, TRef.toBuf, TRef.ofBuf]
  after_results_simp
  try simp only [cast_eq]
  try rfl

/-! ## At the second launch's entry -/

theorem W2_arg3 (c : Dev nD) : W2 m ρ c (Proc.devRef .tc main_arg3) = m ((c : Thread nD τ).loc main_arg3) :=
  (W2_of_ne m ρ c main_arg3 (by decide)).trans (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
theorem W2_arg4 (c : Dev nD) : W2 m ρ c (Proc.devRef .tc main_arg4) = m ((c : Thread nD τ).loc main_arg4) :=
  (W2_of_ne m ρ c main_arg4 (by decide)).trans (StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))

theorem V3_A (c : Dev nD) : V3 m ρ c main_call0_v3_0 = (AB.dat0 (V1 m ρ) c).arrAt 4 cfg0.N :=
  (StableHlo.after_of_forall_not_mem (b := Proc.devRef .tc main_call0_v3_0) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arr m ρ c 4)
theorem V3_B (c : Dev nD) : V3 m ρ c main_call0_v3_1 = (AB.dat0 (V1 m ρ) c).arrAt 5 cfg0.N :=
  (StableHlo.after_of_forall_not_mem (b := Proc.devRef .tc main_call0_v3_1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arr m ρ c 5)

theorem V3_w2 (c : Dev nD) : V3 m ρ c main_call0_v4
    = shapeCast S1x256 (m ((c : Thread nD τ).loc main_arg3)) shapeCasts_S256x1_S1x256 := by
  show StableHlo.after hostOps1 (W2 m ρ c) (Proc.devRef .tc main_call0_v4) = _
  dsimp only [hostOps1, TRef.nullary, TRef.unary, TRef.binary, TRef.ternary, TRef.reshape, TRef.of, TRef.toBuf, TRef.ofBuf]
  after_results_simp
  try simp only [cast_eq]
  rw [W2_arg3]
  try rfl

theorem V3_b2 (c : Dev nD) : V3 m ρ c main_call0_v5
    = shapeCast S1x1 (m ((c : Thread nD τ).loc main_arg4)) shapeCasts_S1_S1x1 := by
  show StableHlo.after hostOps1 (W2 m ρ c) (Proc.devRef .tc main_call0_v5) = _
  dsimp only [hostOps1, TRef.nullary, TRef.unary, TRef.binary, TRef.ternary, TRef.reshape, TRef.of, TRef.toBuf, TRef.ofBuf]
  after_results_simp
  try simp only [cast_eq]
  rw [W2_arg4]
  try rfl

end Cert.KernelIdeal.Run

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.KValAB.lean ====
/-
  What the first launch leaves in its two output arrays, as functions of the arrays it found.  The grid has one
  point and every block is its whole array, so the one write-back writes the body's stores whole:
      A (r, k) = (Σ_d E (r, d) · W1a (d, k)) + b1row (0, k),      B (r, k) = Σ_d E (r, d) · W1b (d, k)
  at the ideal values (the matrix product into the zero accumulator is the plain sum over the contracted axis).
-/
import proofs.«145914_j27221502722563_2_alg».proof.Proof.ABBody
import proofs.«145914_j27221502722563_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AB

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-! ## Every block of the one point is its whole array -/

theorem iblk0_E (c : Dev nD) (t : Fin cfg0.N) : iblk0 V c 0 t = V c main_arg0 := by
  obtain rfl := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (V c main_arg0)
theorem iblk0_W1a (c : Dev nD) (t : Fin cfg0.N) : iblk0 V c 1 t = V c main_call0_v0 := by
  obtain rfl := fin_N0 t
  have hz' : (fun a => win0_1.index t0_0 a * main_call0_v0.ty.shape.size a) = fun _ => 0 := funext fun a => by fin_cases a <;> decide
  exact Memref.read_access_unit_zero (Elt F) main_call0_v0 hz' (fun a => by rw [congrFun hz' a]; simp) (V c main_call0_v0)
theorem iblk0_W1b (c : Dev nD) (t : Fin cfg0.N) : iblk0 V c 2 t = V c main_call0_v1 := by
  obtain rfl := fin_N0 t
  have hz' : (fun a => win0_2.index t0_0 a * main_call0_v1.ty.shape.size a) = fun _ => 0 := funext fun a => by fin_cases a <;> decide
  exact Memref.read_access_unit_zero (Elt F) main_call0_v1 hz' (fun a => by rw [congrFun hz' a]; simp) (V c main_call0_v1)
theorem iblk0_b1 (c : Dev nD) (t : Fin cfg0.N) : iblk0 V c 3 t = V c main_call0_v2 := by
  obtain rfl := fin_N0 t
  have hz' : (fun a => win0_3.index t0_0 a * main_call0_v2.ty.shape.size a) = fun _ => 0 := funext fun a => by fin_cases a <;> decide
  exact Memref.read_access_unit_zero (Elt F) main_call0_v2 hz' (fun a => by rw [congrFun hz' a]; simp) (V c main_call0_v2)

/-! ## The write-backs and the final arrays -/

theorem flushedA (c : Dev nD) (t : Fin cfg0.N) :
    (dat0 V c).flushed 4 t = ((cfg0.win 4).blk t).view.read (Elt F) (outA (V c main_arg0) (V c main_call0_v0) (V c main_call0_v2)) := by
  show (cfg0.win 4).cut (grid0.coords t) ((dat0 V c).after 4 t) = _
  rw [after0_4, iblk0_E, iblk0_W1a, iblk0_b1]
  obtain rfl := fin_N0 t
  have hz' : (fun a => win0_4.index t0_0 a * main_call0_v3_0.ty.shape.size a) = fun _ => 0 := funext fun a => by fin_cases a <;> decide
  exact (Memref.read_access_unit_zero (Elt F) main_call0_v3_0 hz' (fun a => by rw [congrFun hz' a]; simp) _).symm

theorem flushedB (c : Dev nD) (t : Fin cfg0.N) :
    (dat0 V c).flushed 5 t = ((cfg0.win 5).blk t).view.read (Elt F) (outB (V c main_arg0) (V c main_call0_v1)) := by
  show (cfg0.win 5).cut (grid0.coords t) ((dat0 V c).after 5 t) = _
  rw [after0_5, iblk0_E, iblk0_W1b]
  obtain rfl := fin_N0 t
  have hz' : (fun a => win0_5.index t0_0 a * main_call0_v3_1.ty.shape.size a) = fun _ => 0 := funext fun a => by fin_cases a <;> decide
  exact (Memref.read_access_unit_zero (Elt F) main_call0_v3_1 hz' (fun a => by rw [congrFun hz' a]; simp) _).symm

/-- The first output array after the launch. -/
theorem finalA (c : Dev nD) : (dat0 V c).arrAt 4 cfg0.N = outA (V c main_arg0) (V c main_call0_v0) (V c main_call0_v2) :=
  (dat0 V c).arrAt_eq_of_cover 4 _ (fun t _ => flushedA V c t) fun i =>
    ⟨t0_0, flush0_4 t0_0, by
      show i ∈ ((View.whole main_call0_v3_0).slice (win0_4.rect t0_0)).set
      rw [View.set_slice_whole, Rect.mem_set_unit]
      intro a
      have h0 : (i 0 : Nat) < 512 := (i 0).isLt
      have h1 : (i 1 : Nat) < 256 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 512 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 256 from by decide +kernel]; omega⟩

/-- The second output array after the launch. -/
theorem finalB (c : Dev nD) : (dat0 V c).arrAt 5 cfg0.N = outB (V c main_arg0) (V c main_call0_v1) :=
  (dat0 V c).arrAt_eq_of_cover 5 _ (fun t _ => flushedB V c t) fun i =>
    ⟨t0_0, flush0_5 t0_0, by
      show i ∈ ((View.whole main_call0_v3_1).slice (win0_5.rect t0_0)).set
      rw [View.set_slice_whole, Rect.mem_set_unit]
      intro a
      have h0 : (i 0 : Nat) < 512 := (i 0).isLt
      have h1 : (i 1 : Nat) < 256 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 512 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 256 from by decide +kernel]; omega⟩

/-! ## The stores read at an index, at the ideal values -/

theorem dot_plain : dot_S512x768_S768x256_S512x256_1_0_0_1_n_n = DotDims.plain 512 768 256 := rfl

theorem outA_apply (x0 : Vec Ideal S512x768 .f32) (x1 : Vec Ideal S768x256 .f32) (x3 : Vec Ideal S1x256 .f32) (r : Fin 512) (k : Fin 256) :
    outA x0 x1 x3 (ix2 r k) = (∑ d : Fin 768, x0 (ix2 r d) * x1 (ix2 d k)) + x3 (ix2 (0 : Fin 1) k) := by
  unfold outA
  rw [View.canon_unit_zero zero_offsets]
  simp only [View.ld_unit_zero (S := S512x768) zero_offsets, View.ld_unit_zero (S := S768x256) zero_offsets, View.ld_unit_zero (S := S1x256) zero_offsets]
  unfold k0_pay1
  simp only [shapeCast_self]
  rw [addf_apply]
  refine congrArg₂ (· + ·) ?_ ?_
  · exact Cert.LibRowOps.matmul_plain_apply _ dot_plain _ x0 x1 r k
  · exact broadcastTo_1b_ab_apply x3 _ r k

theorem outB_apply (x0 : Vec Ideal S512x768 .f32) (x2 : Vec Ideal S768x256 .f32) (r : Fin 512) (k : Fin 256) :
    outB x0 x2 (ix2 r k) = ∑ d : Fin 768, x0 (ix2 r d) * x2 (ix2 d k) := by
  unfold outB
  rw [View.canon_unit_zero zero_offsets]
  simp only [View.ld_unit_zero (S := S512x768) zero_offsets, View.ld_unit_zero (S := S768x256) zero_offsets]
  unfold k0_pay2
  simp only [shapeCast_self]
  exact Cert.LibRowOps.matmul_plain_apply _ dot_plain _ x0 x2 r k

end Cert.KernelIdeal.AB

end
-- ==== Proof.MlpAlgebra.lean ====
/-
  The law that joins the two programs' scores, over any commutative additive monoid with a multiplication and a
  maximum (used at the extended reals): the hidden layer of a pair (i, j) is
      relu ( Σ_{d < 1536} X d · W1 d k  +  b1 k ),      X = the two feature rows side by side,
  and splitting the contraction at 768 and moving the bias inside gives
      relu ( ( Σ_{d < 768} a d · W1 d k + b1 k )  +  Σ_{d < 768} b d · W1 (768 + d) k );
  the output layer's sum over the 256 hidden units is the four 64-unit partial sums added up from zero.
  Only associativity and commutativity of addition are used, so no finiteness is needed.
-/
import Mathlib.Algebra.BigOperators.Fin
import Mathlib.Data.EReal.Basic

namespace Cert.MlpAlgebra

open Finset

variable {M : Type} [AddCommMonoid M]

/-- A sum over `Fin 1536` split at 768. -/
theorem sum_split_1536 (f : Fin 1536 → M) :
    ∑ d, f d = (∑ d : Fin 768, f ⟨d.val, by omega⟩) + ∑ d : Fin 768, f ⟨768 + d.val, by omega⟩ :=
  Fin.sum_univ_add (a := 768) (b := 768) f

/-- A sum over `Fin 256` as four sums over `Fin 64`, accumulated from zero in order. -/
theorem sum_chunks_256 (f : Fin 256 → M) :
    ∑ k, f k = ((((0 + ∑ k : Fin 64, f ⟨k.val, by omega⟩) + ∑ k : Fin 64, f ⟨64 + k.val, by omega⟩)
      + ∑ k : Fin 64, f ⟨128 + k.val, by omega⟩) + ∑ k : Fin 64, f ⟨192 + k.val, by omega⟩) := by
  have h1 : ∑ k, f k = (∑ k : Fin 128, f ⟨k.val, by omega⟩) + ∑ k : Fin 128, f ⟨128 + k.val, by omega⟩ :=
    Fin.sum_univ_add (a := 128) (b := 128) f
  have h2 : (∑ k : Fin 128, f ⟨k.val, by omega⟩) = (∑ k : Fin 64, f ⟨k.val, by omega⟩) + ∑ k : Fin 64, f ⟨64 + k.val, by omega⟩ :=
    Fin.sum_univ_add (a := 64) (b := 64) fun k : Fin 128 => f ⟨k.val, by omega⟩
  have h3 : (∑ k : Fin 128, f ⟨128 + k.val, by omega⟩) = (∑ k : Fin 64, f ⟨128 + k.val, by omega⟩) + ∑ k : Fin 64, f ⟨192 + k.val, by omega⟩ := by
    have := Fin.sum_univ_add (a := 64) (b := 64) fun k : Fin 128 => f ⟨128 + k.val, by omega⟩
    rw [this]
    refine congrArg₂ (· + ·) rfl (Finset.sum_congr rfl fun k _ => congrArg f (Fin.ext ?_))
    show 128 + (64 + k.val) = 192 + k.val
    omega
  rw [h1, h2, h3, zero_add]
  simp only [add_assoc]

/-- The hidden unit with the contraction split at 768 and the bias moved inside. -/
theorem hidden_split {R : Type} [AddCommMonoid R] [Mul R] (X : Fin 1536 → R) (a b : Fin 768 → R) (w : Fin 1536 → R) (β : R)
    (ha : ∀ d : Fin 768, X ⟨d.val, by omega⟩ = a d) (hb : ∀ d : Fin 768, X ⟨768 + d.val, by omega⟩ = b d) :
    (∑ d, X d * w d) + β
      = ((∑ d : Fin 768, a d * w ⟨d.val, by omega⟩) + β) + ∑ d : Fin 768, b d * w ⟨768 + d.val, by omega⟩ := by
  rw [sum_split_1536 fun d => X d * w d, add_right_comm]
  simp only [ha, hb]

end Cert.MlpAlgebra
-- ==== Proof.ScoreSpec.lean ====
/-
  The score of a pair of rows as the second launch computes it, at the ideal values: with A (r, k) the first
  affine image of row r (bias included), B (s, k) the second image of row s, w the output layer's weights laid out
  as a row and b2 its bias,
      tile A B w b2 r s = ((((0 + S 0) + S 64) + S 128) + S 192) + b2,
      S o = Σ_{k < 64} max (A (r, o + k) + B (s, o + k)) 0 · w (0, o + k).
-/
import Idealize.ShloMosaic.Lib.ValueIdx
import Idealize.ShloMosaic.PureOps.Ideal

noncomputable section

namespace Cert.ScoreSpec

open Idealize.ShloMosaic Idealize.ShloMosaic.ValueIdx

/-- The partial sum over the 64 hidden units from `o`. -/
def chunk (A B : FVec Ideal ⟨2, ![512, 256]⟩ .f32) (w : FVec Ideal ⟨2, ![1, 256]⟩ .f32) (r s : Fin 512) (o : ℕ) (ho : o + 64 ≤ 256) : EReal :=
  ∑ k : Fin 64, max (A (ix2 r (⟨o + k.val, by omega⟩ : Fin 256)) + B (ix2 s (⟨o + k.val, by omega⟩ : Fin 256))) 0
    * w (ix2 (0 : Fin 1) (⟨o + k.val, by omega⟩ : Fin 256))

/-- The score of the pair of rows (r, s). -/
def tile (A B : FVec Ideal ⟨2, ![512, 256]⟩ .f32) (w : FVec Ideal ⟨2, ![1, 256]⟩ .f32) (b2 : FVec Ideal ⟨2, ![1, 1]⟩ .f32) (r s : Fin 512) : EReal :=
  ((((0 + chunk A B w r s 0 (by omega)) + chunk A B w r s 64 (by omega)) + chunk A B w r s 128 (by omega))
    + chunk A B w r s 192 (by omega)) + b2 (ix2 (0 : Fin 1) (0 : Fin 1))

end Cert.ScoreSpec

end
-- ==== Proof.KScore.lean ====
/-
  A pair's score as the kernel program computes it equals the reference's spelling of it, at the ideal values.
  The kernel's side: the score matrix's entry (r, s) on a tile that is computed is `ScoreSpec.tile` of the first
  launch's outputs  A = E · W1[0:768] + b1,  B = E · W1[768:1536]  and of the output layer laid out as a row.
  The reference's side: relu (concat (E r, E s) · W1 + b1) · W2 + b2.
  Read entry by entry, the two differ by where the contraction over the 1536 concatenated features is split, where
  the bias is added, and in how the sum over the 256 hidden units is grouped: `MlpAlgebra`.
-/
import proofs.«145914_j27221502722563_2_alg».proof.Proof.KValAB
import proofs.«145914_j27221502722563_2_alg».proof.Proof.MlpAlgebra
import proofs.«145914_j27221502722563_2_alg».proof.Proof.ScoreSpec

set_option maxRecDepth 16384

noncomputable section

namespace Cert.KScore

open Idealize.ShloMosaic Idealize.ShloMosaic.ValueIdx
open Cert.KernelIdeal Cert.KernelIdeal.Gen

variable (E : FVec Ideal S512x768 .f32) (W1 : FVec Ideal S1536x256 .f32) (b1 : FVec Ideal S256 .f32)
  (W2 : FVec Ideal S256x1 .f32) (b2 : FVec Ideal S1 .f32)

/-- The two feature rows of a pair side by side. -/
def pairRow (r s : Fin 512) (d : Fin 1536) : EReal :=
  if h : d.val < 768 then E (ix2 r (⟨d.val, h⟩ : Fin 768)) else E (ix2 s (⟨d.val - 768, by omega⟩ : Fin 768))

/-- The reference's spelling of the score of the pair of rows (r, s). -/
def refScore (r s : Fin 512) : EReal :=
  (∑ k : Fin 256, max ((∑ d : Fin 1536, pairRow E r s d * W1 (ix2 d k)) + b1 (ix1 k)) 0 * W2 (ix2 k (0 : Fin 1)))
    + b2 (ix1 (0 : Fin 1))

/-- The first launch's outputs and the output layer's row and bias block, from the arguments. -/
abbrev arrA : FVec Ideal S512x256 .f32 :=
  AB.outA (F := Ideal) E (extractStridedSlice S768x256 ![0, 0] W1 slices_S1536x256_S768x256_0_0) (shapeCast S1x256 b1 shapeCasts_S256_S1x256)
abbrev arrB : FVec Ideal S512x256 .f32 :=
  AB.outB (F := Ideal) E (extractStridedSlice S768x256 ![768, 0] W1 slices_S1536x256_S768x256_768_0)
abbrev rowW2 : FVec Ideal S1x256 .f32 := shapeCast S1x256 W2 shapeCasts_S256x1_S1x256
abbrev blkB2 : FVec Ideal S1x1 .f32 := shapeCast S1x1 b2 shapeCasts_S1_S1x1

theorem arrA_apply (r : Fin 512) (k : Fin 256) :
    arrA E W1 b1 (ix2 r k) = (∑ d : Fin 768, E (ix2 r d) * W1 (ix2 (⟨d.val, by omega⟩ : Fin 1536) k)) + b1 (ix1 k) := by
  unfold arrA
  rw [AB.outA_apply]
  refine congrArg₂ (· + ·) (Finset.sum_congr rfl fun d _ => congrArg (E (ix2 r d) * ·) ?_) ?_
  · refine extractStridedSlice_apply _ _ _ (ix2 d k) (ix2 (⟨d.val, by omega⟩ : Fin 1536) k) fun a => ?_
    match a with
    | ⟨0, _⟩ => show d.val = 0 + d.val; omega
    | ⟨1, _⟩ => show k.val = 0 + k.val; omega
  · exact shapeCast_a_1a_apply b1 _ 0 k

theorem arrB_apply (s : Fin 512) (k : Fin 256) :
    arrB E W1 (ix2 s k) = ∑ d : Fin 768, E (ix2 s d) * W1 (ix2 (⟨768 + d.val, by omega⟩ : Fin 1536) k) := by
  unfold arrB
  rw [AB.outB_apply]
  refine Finset.sum_congr rfl fun d _ => congrArg (E (ix2 s d) * ·) ?_
  refine extractStridedSlice_apply _ _ _ (ix2 d k) (ix2 (⟨768 + d.val, by omega⟩ : Fin 1536) k) fun a => ?_
  match a with
  | ⟨0, _⟩ => show 768 + d.val = 768 + d.val; rfl
  | ⟨1, _⟩ => show k.val = 0 + k.val; omega

theorem rowW2_apply (k : Fin 256) : rowW2 W2 (ix2 (0 : Fin 1) k) = W2 (ix2 k (0 : Fin 1)) := by
  unfold rowW2
  refine shapeCast_apply W2 _ _ _ ?_
  rw [Shape.rowMajor_val_two, Shape.rowMajor_val_two]
  show k.val * 1 + 0 = 0 * 256 + k.val
  omega

theorem blkB2_apply : blkB2 b2 (ix2 (0 : Fin 1) (0 : Fin 1)) = b2 (ix1 (0 : Fin 1)) := by
  unfold blkB2
  exact shapeCast_a_1a_apply b2 _ 0 0

/-- One 64-unit partial sum, both ways. -/
theorem chunk_eq (r s : Fin 512) (o : ℕ) (ho : o + 64 ≤ 256) :
    ScoreSpec.chunk (arrA E W1 b1) (arrB E W1) (rowW2 W2) r s o ho
      = ∑ k : Fin 64, max ((∑ d : Fin 1536, pairRow E r s d * W1 (ix2 d (⟨o + k.val, by omega⟩ : Fin 256))) + b1 (ix1 (⟨o + k.val, by omega⟩ : Fin 256))) 0
          * W2 (ix2 (⟨o + k.val, by omega⟩ : Fin 256) (0 : Fin 1)) := by
  unfold ScoreSpec.chunk
  refine Finset.sum_congr rfl fun k _ => ?_
  rw [arrA_apply, arrB_apply, rowW2_apply]
  refine congrArg (fun x => max x 0 * _) ?_
  refine (MlpAlgebra.hidden_split (pairRow E r s) (fun d => E (ix2 r d)) (fun d => E (ix2 s d))
    (fun d => W1 (ix2 d (⟨o + k.val, by omega⟩ : Fin 256))) (b1 (ix1 (⟨o + k.val, by omega⟩ : Fin 256))) (fun d => ?_) (fun d => ?_)).symm
  · unfold pairRow
    rw [dif_pos (show (⟨d.val, by omega⟩ : Fin 1536).val < 768 from d.isLt)]
  · unfold pairRow
    rw [dif_neg (show ¬ (⟨768 + d.val, by omega⟩ : Fin 1536).val < 768 from by show ¬ 768 + d.val < 768; omega)]
    refine congrArg (fun j => E (ix2 s j)) (Fin.ext ?_)
    show 768 + d.val - 768 = d.val
    omega

/-- The computed tile's entry is the reference's score. -/
theorem tile_eq_refScore (r s : Fin 512) :
    ScoreSpec.tile (arrA E W1 b1) (arrB E W1) (rowW2 W2) (blkB2 b2) r s = refScore E W1 b1 W2 b2 r s := by
  unfold ScoreSpec.tile refScore
  rw [chunk_eq E W1 b1 W2 r s 0, chunk_eq E W1 b1 W2 r s 64, chunk_eq E W1 b1 W2 r s 128, chunk_eq E W1 b1 W2 r s 192, blkB2_apply,
    MlpAlgebra.sum_chunks_256 fun k : Fin 256 => max ((∑ d : Fin 1536, pairRow E r s d * W1 (ix2 d k)) + b1 (ix1 k)) 0 * W2 (ix2 k (0 : Fin 1))]
  simp only [Nat.zero_add]

end Cert.KScore

end
-- ==== Proof.KFinal.lean ====
/-
  The score matrix the second launch leaves, read at an entry (r, s) with r < s, in terms of the memory the
  program was launched from: such an entry lies on a tile that is computed (its column tile is not left of its
  row tile), the tile's entry is `ScoreSpec.tile` of the arrays the launch found, those arrays are the first
  launch's outputs and the output layer's row and bias, and that is the reference's spelling of the pair's score.
-/
import proofs.«145914_j27221502722563_2_alg».proof.Proof.KPost
import proofs.«145914_j27221502722563_2_alg».proof.Proof.KGlue
import proofs.«145914_j27221502722563_2_alg».proof.Proof.KScore

set_option maxRecDepth 16384

noncomputable section

namespace Cert.KernelIdeal.Run

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The computed tile's entry at the arrays the second launch found is the reference's score of the rows. -/
theorem tile_V3 (c : Dev nD) (r s : Fin 512) :
    Cert.ScoreSpec.tile (V3 m ρ c main_call0_v3_0) (V3 m ρ c main_call0_v3_1) (V3 m ρ c main_call0_v4) (V3 m ρ c main_call0_v5) r s
      = Cert.KScore.refScore (m ((c : Thread nD τ).loc main_arg0)) (m ((c : Thread nD τ).loc main_arg1)) (m ((c : Thread nD τ).loc main_arg2))
          (m ((c : Thread nD τ).loc main_arg3)) (m ((c : Thread nD τ).loc main_arg4)) r s := by
  rw [V3_A, V3_B, V3_w2, V3_b2, AB.finalA, AB.finalB, V1_E, V1_W1a, V1_W1b, V1_b1]
  exact Cert.KScore.tile_eq_refScore _ _ _ _ _ r s

/-- The score matrix after the second launch, at an entry above the diagonal. -/
theorem scores_at (P1 : Pair1 Ideal) (c : Dev nD)
    (htile : ∀ r s : Fin 512, r.val / 128 ≤ s.val / 128 →
      (P1.dat (V3 m ρ) c).arrAt 4 cfg1.N (ix2 r s)
        = Cert.ScoreSpec.tile (V3 m ρ c main_call0_v3_0) (V3 m ρ c main_call0_v3_1) (V3 m ρ c main_call0_v4) (V3 m ρ c main_call0_v5) r s)
    (r s : Fin 512) (hrs : r.val < s.val) :
    W4 P1 m ρ c (Proc.devRef .tc main_call0_v6) (ix2 r s)
      = Cert.KScore.refScore (m ((c : Thread nD τ).loc main_arg0)) (m ((c : Thread nD τ).loc main_arg1)) (m ((c : Thread nD τ).loc main_arg2))
          (m ((c : Thread nD τ).loc main_arg3)) (m ((c : Thread nD τ).loc main_arg4)) r s := by
  have h4 := W4_arr P1 m ρ c 4
  rw [show W4 P1 m ρ c (Proc.devRef .tc main_call0_v6) = (P1.dat (V3 m ρ) c).arrAt 4 cfg1.N from h4,
    htile r s (Nat.div_le_div_right (Nat.le_of_lt hrs)), tile_V3]

end Cert.KernelIdeal.Run

end
-- ==== Proof.KIndex.Ops.lean ====
import proofs.«145914_j27221502722563_2_alg».proof.Proof.Gen.KernelIdeal.Launch
import Idealize.ShloMosaic.Lib.StableHlo.Run

/-!
# The kernel program's last host stretch, cut into five consecutive windows

The 136 host operations after the second launch are: the mask of the strict upper triangle and its running count
(`KA`); the clipped counts, the scatter of ones at them and its running count, each pair's flat position (`KB`); the
floor division of the flat position by 512 and the remainder by 512, the row indices (`KC`); the same by 1 and 512,
the column indices (`KD`); and the gather of the score matrix at the pairs (`KE`). The two running sums and the
scatter are folds over the whole array: the first two windows are stated with those three functions as parameters.
-/

noncomputable section

namespace Cert.KIndex

open Cert.KernelIdeal Cert.KernelIdeal.Gen Idealize.ShloMosaic Idealize.ShloMosaic.TcCoe Idealize.SL.Sem Idealize.ShloMosaic.StableHlo

variable {F : FTy → Type} [FloatOps F]

/-- Opens the typed-reference builders and the call records of the stretch's operations, leaving the plain builders over
    literal references. -/
macro "open_calls" : tactic => `(tactic| dsimp only [TRef.nullary, TRef.unary, TRef.binary, TRef.ternary, TRef.reshape, TRef.of, TRef.toBuf, TRef.ofBuf,
    main_call0_call0, main_call0_call1, main_call0_call1_call0, main_call0_call2, main_call0_call3, main_call0_call3_call0, main_call0_call4, main_call0_call4_call0,
    main_call0_call5, main_call0_call5_call0, main_call0_call6, main_call0_call6_call0, main_call0_call7, main_call0_call7_call0])

/-- The contents after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The mask and its running count (19 operations), the running sum a parameter. -/
abbrev KA' (R1 : (⟨S262144, .i32⟩ : BufTy).Contents (Elt F) → (⟨S_, .i32⟩ : BufTy).Contents (Elt F) → (⟨S262144, .i32⟩ : BufTy).Contents (Elt F)) : List (HloOp τ sig (Elt F)) :=
  [ StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v7 : StableHlo.TRef sig ⟨S512x512, .f32⟩) (broadcastInDim S512x512 ![] bcast_S_S512x512),
    StableHlo.TRef.nullary (.of main_call0_call0_v0 : StableHlo.TRef sig ⟨S512x512, .i32⟩) (iotaInDim S512x512 32 0),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v1 : StableHlo.TRef sig ⟨S512x512, .i32⟩) (broadcastInDim S512x512 ![] bcast_S_S512x512),
    StableHlo.TRef.binary (.of main_call0_call0_v0 : StableHlo.TRef sig ⟨S512x512, .i32⟩) (.of main_call0_call0_v1 : StableHlo.TRef sig ⟨S512x512, .i32⟩) (.of main_call0_call0_v2 : StableHlo.TRef sig ⟨S512x512, .i32⟩) addi,
    StableHlo.TRef.nullary (.of main_call0_call0_v3 : StableHlo.TRef sig ⟨S512x512, .i32⟩) (iotaInDim S512x512 32 1),
    StableHlo.TRef.binary (.of main_call0_call0_v2 : StableHlo.TRef sig ⟨S512x512, .i32⟩) (.of main_call0_call0_v3 : StableHlo.TRef sig ⟨S512x512, .i32⟩) (.of main_call0_call0_v4 : StableHlo.TRef sig ⟨S512x512, .i1⟩) (cmpi .sge),
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v5 : StableHlo.TRef sig ⟨S512x512, .f32⟩) (broadcastInDim S512x512 ![] bcast_S_S512x512),
    StableHlo.TRef.ternary (.of main_call0_call0_v4 : StableHlo.TRef sig ⟨S512x512, .i1⟩) (.of main_call0_call0_v5 : StableHlo.TRef sig ⟨S512x512, .f32⟩) (.of main_call0_v7 : StableHlo.TRef sig ⟨S512x512, .f32⟩) (.of main_call0_v8 : StableHlo.TRef sig ⟨S512x512, .f32⟩) select,
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v9 : StableHlo.TRef sig ⟨S512x512, .f32⟩) (broadcastInDim S512x512 ![] bcast_S_S512x512),
    StableHlo.TRef.binary main_call0_call0.v6 (.of main_call0_v9 : StableHlo.TRef sig ⟨S512x512, .f32⟩) (.of main_call0_v10 : StableHlo.TRef sig ⟨S512x512, .i1⟩) (cmpf .une),
    StableHlo.TRef.reshape (.of main_call0_v10 : StableHlo.TRef sig ⟨S512x512, .i1⟩) (.of main_call0_call1_v0 : StableHlo.TRef sig ⟨S262144, .i1⟩) rfl shapeCasts_S512x512_S262144,
    StableHlo.TRef.unary (.of main_call0_call1_v0 : StableHlo.TRef sig ⟨S262144, .i1⟩) (.of main_call0_call1_v1 : StableHlo.TRef sig ⟨S262144, .i32⟩) (extui 32 · natLt_1_32),
    StableHlo.TRef.nullary (.of main_call0_call1_call0_c : StableHlo.TRef sig ⟨S_, .i32⟩) (constantI S_ 32 0#32),
    StableHlo.TRef.unary (.of main_call0_call1_call0_c : StableHlo.TRef sig ⟨S_, .i32⟩) (.of main_call0_call1_call0_v0 : StableHlo.TRef sig ⟨S_, .i32⟩) (broadcastInDim S_ ![] bcast_S_S_),
    StableHlo.TRef.binary (.of main_call0_call1_v1 : StableHlo.TRef sig ⟨S262144, .i32⟩) (.of main_call0_call1_call0_v0 : StableHlo.TRef sig ⟨S_, .i32⟩) (.of main_call0_v11 : StableHlo.TRef sig ⟨S262144, .i32⟩) R1 ]

/-- The clipped counts, the scatter and its running count (20 operations), the scatter and the running sum parameters. -/
abbrev KB' (Sc : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R2 : (⟨S130816, .i32⟩ : BufTy).Contents (Elt F) → (⟨S_, .i32⟩ : BufTy).Contents (Elt F) → (⟨S130816, .i32⟩ : BufTy).Contents (Elt F)) : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v12 : StableHlo.TRef sig ⟨S130816, .i32⟩) (broadcastInDim S130816 ![] bcast_S_S130816),
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_call2_v0 : StableHlo.TRef sig ⟨S_, .i32⟩) id,
    StableHlo.TRef.unary (.of main_call0_call2_v0 : StableHlo.TRef sig ⟨S_, .i32⟩) (.of main_call0_call2_v1 : StableHlo.TRef sig ⟨S262144, .i32⟩) (broadcastInDim S262144 ![] bcast_S_S262144),
    StableHlo.TRef.binary (.of main_call0_call2_v1 : StableHlo.TRef sig ⟨S262144, .i32⟩) (main_call0_call1.call0.v1 : StableHlo.TRef sig ⟨S262144, .i32⟩) (.of main_call0_v13 : StableHlo.TRef sig ⟨S262144, .i32⟩) maxsi,
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v14 : StableHlo.TRef sig ⟨S262144, .i32⟩) (broadcastInDim S262144 ![] bcast_S_S262144),
    StableHlo.TRef.binary main_call0_call2.v2 (.of main_call0_v14 : StableHlo.TRef sig ⟨S262144, .i32⟩) (.of main_call0_v15 : StableHlo.TRef sig ⟨S262144, .i1⟩) (cmpi .slt),
    StableHlo.TRef.nullary (.of main_call0_c_3 : StableHlo.TRef sig ⟨S_, .i32⟩) (constantI S_ 32 130816#32),
    StableHlo.TRef.unary (.of main_call0_c_3 : StableHlo.TRef sig ⟨S_, .i32⟩) (.of main_call0_v16 : StableHlo.TRef sig ⟨S262144, .i32⟩) (broadcastInDim S262144 ![] bcast_S_S262144),
    StableHlo.TRef.binary main_call0_call2.v2 (.of main_call0_v16 : StableHlo.TRef sig ⟨S262144, .i32⟩) (.of main_call0_v17 : StableHlo.TRef sig ⟨S262144, .i32⟩) addi,
    StableHlo.TRef.ternary (.of main_call0_v15 : StableHlo.TRef sig ⟨S262144, .i1⟩) (.of main_call0_v17 : StableHlo.TRef sig ⟨S262144, .i32⟩) main_call0_call2.v2 (.of main_call0_v18 : StableHlo.TRef sig ⟨S262144, .i32⟩) select,
    StableHlo.TRef.unary (.of main_call0_v18 : StableHlo.TRef sig ⟨S262144, .i32⟩) (.of main_call0_v19 : StableHlo.TRef sig ⟨S262144x1, .i32⟩) (broadcastInDim S262144x1 ![0] bcast_S262144_S262144x1_0),
    StableHlo.TRef.nullary (.of main_call0_c_4 : StableHlo.TRef sig ⟨S_, .i32⟩) (constantI S_ 32 1#32),
    StableHlo.TRef.unary (.of main_call0_c_4 : StableHlo.TRef sig ⟨S_, .i32⟩) (.of main_call0_v20 : StableHlo.TRef sig ⟨S262144, .i32⟩) (broadcastInDim S262144 ![] bcast_S_S262144),
    StableHlo.TRef.ternary (.of main_call0_v12 : StableHlo.TRef sig ⟨S130816, .i32⟩) (.of main_call0_v19 : StableHlo.TRef sig ⟨S262144x1, .i32⟩) (.of main_call0_v20 : StableHlo.TRef sig ⟨S262144, .i32⟩) (.of main_call0_v21 : StableHlo.TRef sig ⟨S130816, .i32⟩) Sc,
    StableHlo.TRef.nullary (.of main_call0_call3_call0_c : StableHlo.TRef sig ⟨S_, .i32⟩) (constantI S_ 32 0#32),
    StableHlo.TRef.unary (.of main_call0_call3_call0_c : StableHlo.TRef sig ⟨S_, .i32⟩) (.of main_call0_call3_call0_v0 : StableHlo.TRef sig ⟨S_, .i32⟩) (broadcastInDim S_ ![] bcast_S_S_),
    StableHlo.TRef.binary (.of main_call0_v21 : StableHlo.TRef sig ⟨S130816, .i32⟩) (.of main_call0_call3_call0_v0 : StableHlo.TRef sig ⟨S_, .i32⟩) (.of main_call0_v22 : StableHlo.TRef sig ⟨S130816, .i32⟩) R2 ]

/-- The row indices from the flat positions (39 operations). -/
abbrev KC : List (HloOp τ sig (Elt F)) :=
  [ StableHlo.TRef.nullary (.of main_call0_c_5 : StableHlo.TRef sig ⟨S_, .i32⟩) (constantI S_ 32 512#32),
    StableHlo.TRef.unary (.of main_call0_c_5 : StableHlo.TRef sig ⟨S_, .i32⟩) (.of main_call0_call4_v0 : StableHlo.TRef sig ⟨S130816, .i32⟩) (broadcastInDim S130816 ![] bcast_S_S130816),
    StableHlo.TRef.binary (main_call0_call3.call0.v1 : StableHlo.TRef sig ⟨S130816, .i32⟩) (.of main_call0_call4_v0 : StableHlo.TRef sig ⟨S130816, .i32⟩) (.of main_call0_call4_v1 : StableHlo.TRef sig ⟨S130816, .i32⟩) Host.divsi,
    StableHlo.TRef.unary (main_call0_call3.call0.v1 : StableHlo.TRef sig ⟨S130816, .i32⟩) (.of main_call0_call4_v2 : StableHlo.TRef sig ⟨S130816, .i32⟩) signi,
    StableHlo.TRef.unary (.of main_call0_c_5 : StableHlo.TRef sig ⟨S_, .i32⟩) (.of main_call0_call4_v3 : StableHlo.TRef sig ⟨S_, .i32⟩) signi,
    StableHlo.TRef.unary (.of main_call0_call4_v3 : StableHlo.TRef sig ⟨S_, .i32⟩) (.of main_call0_call4_v4 : StableHlo.TRef sig ⟨S130816, .i32⟩) (broadcastInDim S130816 ![] bcast_S_S130816),
    StableHlo.TRef.binary (.of main_call0_call4_v2 : StableHlo.TRef sig ⟨S130816, .i32⟩) (.of main_call0_call4_v4 : StableHlo.TRef sig ⟨S130816, .i32⟩) (.of main_call0_call4_v5 : StableHlo.TRef sig ⟨S130816, .i1⟩) (cmpi .ne),
    StableHlo.TRef.unary (.of main_call0_c_5 : StableHlo.TRef sig ⟨S_, .i32⟩) (.of main_call0_call4_v6 : StableHlo.TRef sig ⟨S130816, .i32⟩) (broadcastInDim S130816 ![] bcast_S_S130816),
    StableHlo.TRef.binary (main_call0_call3.call0.v1 : StableHlo.TRef sig ⟨S130816, .i32⟩) (.of main_call0_call4_v6 : StableHlo.TRef sig ⟨S130816, .i32⟩) (.of main_call0_call4_v7 : StableHlo.TRef sig ⟨S130816, .i32⟩) Host.remsi,
    StableHlo.TRef.nullary (.of main_call0_call4_c : StableHlo.TRef sig ⟨S_, .i32⟩) (constantI S_ 32 0#32),
    StableHlo.TRef.unary (.of main_call0_call4_c : StableHlo.TRef sig ⟨S_, .i32⟩) (.of main_call0_call4_v8 : StableHlo.TRef sig ⟨S130816, .i32⟩) (broadcastInDim S130816 ![] bcast_S_S130816),
    StableHlo.TRef.binary (.of main_call0_call4_v7 : StableHlo.TRef sig ⟨S130816, .i32⟩) (.of main_call0_call4_v8 : StableHlo.TRef sig ⟨S130816, .i32⟩) (.of main_call0_call4_v9 : StableHlo.TRef sig ⟨S130816, .i1⟩) (cmpi .ne),
    StableHlo.TRef.binary (.of main_call0_call4_v5 : StableHlo.TRef sig ⟨S130816, .i1⟩) (.of main_call0_call4_v9 : StableHlo.TRef sig ⟨S130816, .i1⟩) (.of main_call0_call4_v10 : StableHlo.TRef sig ⟨S130816, .i1⟩) andi,
    StableHlo.TRef.nullary (.of main_call0_call4_c_0 : StableHlo.TRef sig ⟨S_, .i32⟩) (constantI S_ 32 1#32),
    StableHlo.TRef.unary (.of main_call0_call4_c_0 : StableHlo.TRef sig ⟨S_, .i32⟩) (.of main_call0_call4_v11 : StableHlo.TRef sig ⟨S130816, .i32⟩) (broadcastInDim S130816 ![] bcast_S_S130816),
    StableHlo.TRef.binary (.of main_call0_call4_v1 : StableHlo.TRef sig ⟨S130816, .i32⟩) (.of main_call0_call4_v11 : StableHlo.TRef sig ⟨S130816, .i32⟩) (.of main_call0_call4_v12 : StableHlo.TRef sig ⟨S130816, .i32⟩) subi,
    StableHlo.TRef.ternary (.of main_call0_call4_v10 : StableHlo.TRef sig ⟨S130816, .i1⟩) (.of main_call0_call4_v12 : StableHlo.TRef sig ⟨S130816, .i32⟩) (.of main_call0_call4_v1 : StableHlo.TRef sig ⟨S130816, .i32⟩) (.of main_call0_v23 : StableHlo.TRef sig ⟨S130816, .i32⟩) select,
    StableHlo.TRef.nullary (.of main_call0_c_6 : StableHlo.TRef sig ⟨S_, .i32⟩) (constantI S_ 32 512#32),
    StableHlo.TRef.unary (.of main_call0_c_6 : StableHlo.TRef sig ⟨S_, .i32⟩) (.of main_call0_call5_v0 : StableHlo.TRef sig ⟨S_, .i32⟩) id,
    StableHlo.TRef.nullary (.of main_call0_call5_c : StableHlo.TRef sig ⟨S_, .i32⟩) (constantI S_ 32 0#32),
    StableHlo.TRef.binary (.of main_call0_call5_v0 : StableHlo.TRef sig ⟨S_, .i32⟩) (.of main_call0_call5_c : StableHlo.TRef sig ⟨S_, .i32⟩) (.of main_call0_call5_v1 : StableHlo.TRef sig ⟨S_, .i1⟩) (cmpi .eq),
    StableHlo.TRef.nullary (.of main_call0_call5_c_0 : StableHlo.TRef sig ⟨S_, .i32⟩) (constantI S_ 32 1#32),
    StableHlo.TRef.ternary (.of main_call0_call5_v1 : StableHlo.TRef sig ⟨S_, .i1⟩) (.of main_call0_call5_c_0 : StableHlo.TRef sig ⟨S_, .i32⟩) (.of main_call0_call5_v0 : StableHlo.TRef sig ⟨S_, .i32⟩) (.of main_call0_call5_v2 : StableHlo.TRef sig ⟨S_, .i32⟩) select,
    StableHlo.TRef.unary main_call0_call5_call0.v0 (.of main_call0_call5_v3 : StableHlo.TRef sig ⟨S130816, .i32⟩) (broadcastInDim S130816 ![] bcast_S_S130816),
    StableHlo.TRef.binary (main_call0_call4.call0.v0 : StableHlo.TRef sig ⟨S130816, .i32⟩) (.of main_call0_call5_v3 : StableHlo.TRef sig ⟨S130816, .i32⟩) (.of main_call0_call5_v4 : StableHlo.TRef sig ⟨S130816, .i32⟩) Host.remsi,
    StableHlo.TRef.nullary (.of main_call0_call5_c_1 : StableHlo.TRef sig ⟨S_, .i32⟩) (constantI S_ 32 0#32),
    StableHlo.TRef.unary (.of main_call0_call5_c_1 : StableHlo.TRef sig ⟨S_, .i32⟩) (.of main_call0_call5_v5 : StableHlo.TRef sig ⟨S130816, .i32⟩) (broadcastInDim S130816 ![] bcast_S_S130816),
    StableHlo.TRef.binary (.of main_call0_call5_v4 : StableHlo.TRef sig ⟨S130816, .i32⟩) (.of main_call0_call5_v5 : StableHlo.TRef sig ⟨S130816, .i32⟩) (.of main_call0_call5_v6 : StableHlo.TRef sig ⟨S130816, .i1⟩) (cmpi .ne),
    StableHlo.TRef.nullary (.of main_call0_call5_c_2 : StableHlo.TRef sig ⟨S_, .i32⟩) (constantI S_ 32 0#32),
    StableHlo.TRef.unary (.of main_call0_call5_c_2 : StableHlo.TRef sig ⟨S_, .i32⟩) (.of main_call0_call5_v7 : StableHlo.TRef sig ⟨S130816, .i32⟩) (broadcastInDim S130816 ![] bcast_S_S130816),
    StableHlo.TRef.binary (.of main_call0_call5_v4 : StableHlo.TRef sig ⟨S130816, .i32⟩) (.of main_call0_call5_v7 : StableHlo.TRef sig ⟨S130816, .i32⟩) (.of main_call0_call5_v8 : StableHlo.TRef sig ⟨S130816, .i1⟩) (cmpi .slt),
    StableHlo.TRef.nullary (.of main_call0_call5_c_3 : StableHlo.TRef sig ⟨S_, .i32⟩) (constantI S_ 32 0#32),
    StableHlo.TRef.binary main_call0_call5_call0.v0 (.of main_call0_call5_c_3 : StableHlo.TRef sig ⟨S_, .i32⟩) (.of main_call0_call5_v9 : StableHlo.TRef sig ⟨S_, .i1⟩) (cmpi .slt),
    StableHlo.TRef.unary (.of main_call0_call5_v9 : StableHlo.TRef sig ⟨S_, .i1⟩) (.of main_call0_call5_v10 : StableHlo.TRef sig ⟨S130816, .i1⟩) (broadcastInDim S130816 ![] bcast_S_S130816),
    StableHlo.TRef.binary (.of main_call0_call5_v8 : StableHlo.TRef sig ⟨S130816, .i1⟩) (.of main_call0_call5_v10 : StableHlo.TRef sig ⟨S130816, .i1⟩) (.of main_call0_call5_v11 : StableHlo.TRef sig ⟨S130816, .i1⟩) (cmpi .ne),
    StableHlo.TRef.binary (.of main_call0_call5_v11 : StableHlo.TRef sig ⟨S130816, .i1⟩) (.of main_call0_call5_v6 : StableHlo.TRef sig ⟨S130816, .i1⟩) (.of main_call0_call5_v12 : StableHlo.TRef sig ⟨S130816, .i1⟩) andi,
    StableHlo.TRef.unary main_call0_call5_call0.v0 (.of main_call0_call5_v13 : StableHlo.TRef sig ⟨S130816, .i32⟩) (broadcastInDim S130816 ![] bcast_S_S130816),
    StableHlo.TRef.binary (.of main_call0_call5_v4 : StableHlo.TRef sig ⟨S130816, .i32⟩) (.of main_call0_call5_v13 : StableHlo.TRef sig ⟨S130816, .i32⟩) (.of main_call0_call5_v14 : StableHlo.TRef sig ⟨S130816, .i32⟩) addi,
    StableHlo.TRef.ternary (.of main_call0_call5_v12 : StableHlo.TRef sig ⟨S130816, .i1⟩) (.of main_call0_call5_v14 : StableHlo.TRef sig ⟨S130816, .i32⟩) (.of main_call0_call5_v4 : StableHlo.TRef sig ⟨S130816, .i32⟩) (.of main_v0_0 : StableHlo.TRef sig ⟨S130816, .i32⟩) select ]

/-- The column indices from the flat positions (39 operations). -/
abbrev KD : List (HloOp τ sig (Elt F)) :=
  [ StableHlo.TRef.nullary (.of main_call0_c_7 : StableHlo.TRef sig ⟨S_, .i32⟩) (constantI S_ 32 1#32),
    StableHlo.TRef.unary (.of main_call0_c_7 : StableHlo.TRef sig ⟨S_, .i32⟩) (.of main_call0_call6_v0 : StableHlo.TRef sig ⟨S130816, .i32⟩) (broadcastInDim S130816 ![] bcast_S_S130816),
    StableHlo.TRef.binary (main_call0_call3.call0.v1 : StableHlo.TRef sig ⟨S130816, .i32⟩) (.of main_call0_call6_v0 : StableHlo.TRef sig ⟨S130816, .i32⟩) (.of main_call0_call6_v1 : StableHlo.TRef sig ⟨S130816, .i32⟩) Host.divsi,
    StableHlo.TRef.unary (main_call0_call3.call0.v1 : StableHlo.TRef sig ⟨S130816, .i32⟩) (.of main_call0_call6_v2 : StableHlo.TRef sig ⟨S130816, .i32⟩) signi,
    StableHlo.TRef.unary (.of main_call0_c_7 : StableHlo.TRef sig ⟨S_, .i32⟩) (.of main_call0_call6_v3 : StableHlo.TRef sig ⟨S_, .i32⟩) signi,
    StableHlo.TRef.unary (.of main_call0_call6_v3 : StableHlo.TRef sig ⟨S_, .i32⟩) (.of main_call0_call6_v4 : StableHlo.TRef sig ⟨S130816, .i32⟩) (broadcastInDim S130816 ![] bcast_S_S130816),
    StableHlo.TRef.binary (.of main_call0_call6_v2 : StableHlo.TRef sig ⟨S130816, .i32⟩) (.of main_call0_call6_v4 : StableHlo.TRef sig ⟨S130816, .i32⟩) (.of main_call0_call6_v5 : StableHlo.TRef sig ⟨S130816, .i1⟩) (cmpi .ne),
    StableHlo.TRef.unary (.of main_call0_c_7 : StableHlo.TRef sig ⟨S_, .i32⟩) (.of main_call0_call6_v6 : StableHlo.TRef sig ⟨S130816, .i32⟩) (broadcastInDim S130816 ![] bcast_S_S130816),
    StableHlo.TRef.binary (main_call0_call3.call0.v1 : StableHlo.TRef sig ⟨S130816, .i32⟩) (.of main_call0_call6_v6 : StableHlo.TRef sig ⟨S130816, .i32⟩) (.of main_call0_call6_v7 : StableHlo.TRef sig ⟨S130816, .i32⟩) Host.remsi,
    StableHlo.TRef.nullary (.of main_call0_call6_c : StableHlo.TRef sig ⟨S_, .i32⟩) (constantI S_ 32 0#32),
    StableHlo.TRef.unary (.of main_call0_call6_c : StableHlo.TRef sig ⟨S_, .i32⟩) (.of main_call0_call6_v8 : StableHlo.TRef sig ⟨S130816, .i32⟩) (broadcastInDim S130816 ![] bcast_S_S130816),
    StableHlo.TRef.binary (.of main_call0_call6_v7 : StableHlo.TRef sig ⟨S130816, .i32⟩) (.of main_call0_call6_v8 : StableHlo.TRef sig ⟨S130816, .i32⟩) (.of main_call0_call6_v9 : StableHlo.TRef sig ⟨S130816, .i1⟩) (cmpi .ne),
    StableHlo.TRef.binary (.of main_call0_call6_v5 : StableHlo.TRef sig ⟨S130816, .i1⟩) (.of main_call0_call6_v9 : StableHlo.TRef sig ⟨S130816, .i1⟩) (.of main_call0_call6_v10 : StableHlo.TRef sig ⟨S130816, .i1⟩) andi,
    StableHlo.TRef.nullary (.of main_call0_call6_c_0 : StableHlo.TRef sig ⟨S_, .i32⟩) (constantI S_ 32 1#32),
    StableHlo.TRef.unary (.of main_call0_call6_c_0 : StableHlo.TRef sig ⟨S_, .i32⟩) (.of main_call0_call6_v11 : StableHlo.TRef sig ⟨S130816, .i32⟩) (broadcastInDim S130816 ![] bcast_S_S130816),
    StableHlo.TRef.binary (.of main_call0_call6_v1 : StableHlo.TRef sig ⟨S130816, .i32⟩) (.of main_call0_call6_v11 : StableHlo.TRef sig ⟨S130816, .i32⟩) (.of main_call0_call6_v12 : StableHlo.TRef sig ⟨S130816, .i32⟩) subi,
    StableHlo.TRef.ternary (.of main_call0_call6_v10 : StableHlo.TRef sig ⟨S130816, .i1⟩) (.of main_call0_call6_v12 : StableHlo.TRef sig ⟨S130816, .i32⟩) (.of main_call0_call6_v1 : StableHlo.TRef sig ⟨S130816, .i32⟩) (.of main_call0_v25 : StableHlo.TRef sig ⟨S130816, .i32⟩) select,
    StableHlo.TRef.nullary (.of main_call0_c_8 : StableHlo.TRef sig ⟨S_, .i32⟩) (constantI S_ 32 512#32),
    StableHlo.TRef.unary (.of main_call0_c_8 : StableHlo.TRef sig ⟨S_, .i32⟩) (.of main_call0_call7_v0 : StableHlo.TRef sig ⟨S_, .i32⟩) id,
    StableHlo.TRef.nullary (.of main_call0_call7_c : StableHlo.TRef sig ⟨S_, .i32⟩) (constantI S_ 32 0#32),
    StableHlo.TRef.binary (.of main_call0_call7_v0 : StableHlo.TRef sig ⟨S_, .i32⟩) (.of main_call0_call7_c : StableHlo.TRef sig ⟨S_, .i32⟩) (.of main_call0_call7_v1 : StableHlo.TRef sig ⟨S_, .i1⟩) (cmpi .eq),
    StableHlo.TRef.nullary (.of main_call0_call7_c_0 : StableHlo.TRef sig ⟨S_, .i32⟩) (constantI S_ 32 1#32),
    StableHlo.TRef.ternary (.of main_call0_call7_v1 : StableHlo.TRef sig ⟨S_, .i1⟩) (.of main_call0_call7_c_0 : StableHlo.TRef sig ⟨S_, .i32⟩) (.of main_call0_call7_v0 : StableHlo.TRef sig ⟨S_, .i32⟩) (.of main_call0_call7_v2 : StableHlo.TRef sig ⟨S_, .i32⟩) select,
    StableHlo.TRef.unary main_call0_call7_call0.v0 (.of main_call0_call7_v3 : StableHlo.TRef sig ⟨S130816, .i32⟩) (broadcastInDim S130816 ![] bcast_S_S130816),
    StableHlo.TRef.binary (main_call0_call6.call0.v0 : StableHlo.TRef sig ⟨S130816, .i32⟩) (.of main_call0_call7_v3 : StableHlo.TRef sig ⟨S130816, .i32⟩) (.of main_call0_call7_v4 : StableHlo.TRef sig ⟨S130816, .i32⟩) Host.remsi,
    StableHlo.TRef.nullary (.of main_call0_call7_c_1 : StableHlo.TRef sig ⟨S_, .i32⟩) (constantI S_ 32 0#32),
    StableHlo.TRef.unary (.of main_call0_call7_c_1 : StableHlo.TRef sig ⟨S_, .i32⟩) (.of main_call0_call7_v5 : StableHlo.TRef sig ⟨S130816, .i32⟩) (broadcastInDim S130816 ![] bcast_S_S130816),
    StableHlo.TRef.binary (.of main_call0_call7_v4 : StableHlo.TRef sig ⟨S130816, .i32⟩) (.of main_call0_call7_v5 : StableHlo.TRef sig ⟨S130816, .i32⟩) (.of main_call0_call7_v6 : StableHlo.TRef sig ⟨S130816, .i1⟩) (cmpi .ne),
    StableHlo.TRef.nullary (.of main_call0_call7_c_2 : StableHlo.TRef sig ⟨S_, .i32⟩) (constantI S_ 32 0#32),
    StableHlo.TRef.unary (.of main_call0_call7_c_2 : StableHlo.TRef sig ⟨S_, .i32⟩) (.of main_call0_call7_v7 : StableHlo.TRef sig ⟨S130816, .i32⟩) (broadcastInDim S130816 ![] bcast_S_S130816),
    StableHlo.TRef.binary (.of main_call0_call7_v4 : StableHlo.TRef sig ⟨S130816, .i32⟩) (.of main_call0_call7_v7 : StableHlo.TRef sig ⟨S130816, .i32⟩) (.of main_call0_call7_v8 : StableHlo.TRef sig ⟨S130816, .i1⟩) (cmpi .slt),
    StableHlo.TRef.nullary (.of main_call0_call7_c_3 : StableHlo.TRef sig ⟨S_, .i32⟩) (constantI S_ 32 0#32),
    StableHlo.TRef.binary main_call0_call7_call0.v0 (.of main_call0_call7_c_3 : StableHlo.TRef sig ⟨S_, .i32⟩) (.of main_call0_call7_v9 : StableHlo.TRef sig ⟨S_, .i1⟩) (cmpi .slt),
    StableHlo.TRef.unary (.of main_call0_call7_v9 : StableHlo.TRef sig ⟨S_, .i1⟩) (.of main_call0_call7_v10 : StableHlo.TRef sig ⟨S130816, .i1⟩) (broadcastInDim S130816 ![] bcast_S_S130816),
    StableHlo.TRef.binary (.of main_call0_call7_v8 : StableHlo.TRef sig ⟨S130816, .i1⟩) (.of main_call0_call7_v10 : StableHlo.TRef sig ⟨S130816, .i1⟩) (.of main_call0_call7_v11 : StableHlo.TRef sig ⟨S130816, .i1⟩) (cmpi .ne),
    StableHlo.TRef.binary (.of main_call0_call7_v11 : StableHlo.TRef sig ⟨S130816, .i1⟩) (.of main_call0_call7_v6 : StableHlo.TRef sig ⟨S130816, .i1⟩) (.of main_call0_call7_v12 : StableHlo.TRef sig ⟨S130816, .i1⟩) andi,
    StableHlo.TRef.unary main_call0_call7_call0.v0 (.of main_call0_call7_v13 : StableHlo.TRef sig ⟨S130816, .i32⟩) (broadcastInDim S130816 ![] bcast_S_S130816),
    StableHlo.TRef.binary (.of main_call0_call7_v4 : StableHlo.TRef sig ⟨S130816, .i32⟩) (.of main_call0_call7_v13 : StableHlo.TRef sig ⟨S130816, .i32⟩) (.of main_call0_call7_v14 : StableHlo.TRef sig ⟨S130816, .i32⟩) addi,
    StableHlo.TRef.ternary (.of main_call0_call7_v12 : StableHlo.TRef sig ⟨S130816, .i1⟩) (.of main_call0_call7_v14 : StableHlo.TRef sig ⟨S130816, .i32⟩) (.of main_call0_call7_v4 : StableHlo.TRef sig ⟨S130816, .i32⟩) (.of main_v0_1 : StableHlo.TRef sig ⟨S130816, .i32⟩) select ]

/-- The wraps, the index pairs and the gather (19 operations). -/
abbrev KE : List (HloOp τ sig (Elt F)) :=
  [ StableHlo.TRef.nullary (.of main_call0_c_9 : StableHlo.TRef sig ⟨S_, .i32⟩) (constantI S_ 32 0#32),
    StableHlo.TRef.unary (.of main_call0_c_9 : StableHlo.TRef sig ⟨S_, .i32⟩) (.of main_call0_v27 : StableHlo.TRef sig ⟨S130816, .i32⟩) (broadcastInDim S130816 ![] bcast_S_S130816),
    StableHlo.TRef.binary main_call0_call5.v15 (.of main_call0_v27 : StableHlo.TRef sig ⟨S130816, .i32⟩) (.of main_call0_v28 : StableHlo.TRef sig ⟨S130816, .i1⟩) (cmpi .slt),
    StableHlo.TRef.nullary (.of main_call0_c_10 : StableHlo.TRef sig ⟨S_, .i32⟩) (constantI S_ 32 512#32),
    StableHlo.TRef.unary (.of main_call0_c_10 : StableHlo.TRef sig ⟨S_, .i32⟩) (.of main_call0_v29 : StableHlo.TRef sig ⟨S130816, .i32⟩) (broadcastInDim S130816 ![] bcast_S_S130816),
    StableHlo.TRef.binary main_call0_call5.v15 (.of main_call0_v29 : StableHlo.TRef sig ⟨S130816, .i32⟩) (.of main_call0_v30 : StableHlo.TRef sig ⟨S130816, .i32⟩) addi,
    StableHlo.TRef.ternary (.of main_call0_v28 : StableHlo.TRef sig ⟨S130816, .i1⟩) (.of main_call0_v30 : StableHlo.TRef sig ⟨S130816, .i32⟩) main_call0_call5.v15 (.of main_call0_v31 : StableHlo.TRef sig ⟨S130816, .i32⟩) select,
    StableHlo.TRef.nullary (.of main_call0_c_11 : StableHlo.TRef sig ⟨S_, .i32⟩) (constantI S_ 32 0#32),
    StableHlo.TRef.unary (.of main_call0_c_11 : StableHlo.TRef sig ⟨S_, .i32⟩) (.of main_call0_v32 : StableHlo.TRef sig ⟨S130816, .i32⟩) (broadcastInDim S130816 ![] bcast_S_S130816),
    StableHlo.TRef.binary main_call0_call7.v15 (.of main_call0_v32 : StableHlo.TRef sig ⟨S130816, .i32⟩) (.of main_call0_v33 : StableHlo.TRef sig ⟨S130816, .i1⟩) (cmpi .slt),
    StableHlo.TRef.nullary (.of main_call0_c_12 : StableHlo.TRef sig ⟨S_, .i32⟩) (constantI S_ 32 512#32),
    StableHlo.TRef.unary (.of main_call0_c_12 : StableHlo.TRef sig ⟨S_, .i32⟩) (.of main_call0_v34 : StableHlo.TRef sig ⟨S130816, .i32⟩) (broadcastInDim S130816 ![] bcast_S_S130816),
    StableHlo.TRef.binary main_call0_call7.v15 (.of main_call0_v34 : StableHlo.TRef sig ⟨S130816, .i32⟩) (.of main_call0_v35 : StableHlo.TRef sig ⟨S130816, .i32⟩) addi,
    StableHlo.TRef.ternary (.of main_call0_v33 : StableHlo.TRef sig ⟨S130816, .i1⟩) (.of main_call0_v35 : StableHlo.TRef sig ⟨S130816, .i32⟩) main_call0_call7.v15 (.of main_call0_v36 : StableHlo.TRef sig ⟨S130816, .i32⟩) select,
    StableHlo.TRef.unary (.of main_call0_v31 : StableHlo.TRef sig ⟨S130816, .i32⟩) (.of main_call0_v37 : StableHlo.TRef sig ⟨S130816x1, .i32⟩) (broadcastInDim S130816x1 ![0] bcast_S130816_S130816x1_0),
    StableHlo.TRef.unary (.of main_call0_v36 : StableHlo.TRef sig ⟨S130816, .i32⟩) (.of main_call0_v38 : StableHlo.TRef sig ⟨S130816x1, .i32⟩) (broadcastInDim S130816x1 ![0] bcast_S130816_S130816x1_0),
    StableHlo.TRef.binary (.of main_call0_v37 : StableHlo.TRef sig ⟨S130816x1, .i32⟩) (.of main_call0_v38 : StableHlo.TRef sig ⟨S130816x1, .i32⟩) (.of main_call0_v39 : StableHlo.TRef sig ⟨S130816x2, .i32⟩) (fun a b => concatenate S130816x2 1 [⟨S130816x1, a⟩, ⟨S130816x1, b⟩] concatenates_S130816x1_S130816x1_S130816x2_d1),
    StableHlo.TRef.binary (.of main_call0_v6 : StableHlo.TRef sig ⟨S512x512, .f32⟩) (.of main_call0_v39 : StableHlo.TRef sig ⟨S130816x2, .i32⟩) (.of main_call0_v40 : StableHlo.TRef sig ⟨S130816, .f32⟩) (fun x i => Host.gather gather_S512x512_S130816x2_S130816_n_01_n_n_01_1_11 x i),
    StableHlo.TRef.reshape (.of main_call0_v40 : StableHlo.TRef sig ⟨S130816, .f32⟩) (.of main_v0_2 : StableHlo.TRef sig ⟨S130816x1, .f32⟩) rfl shapeCasts_S130816_S130816x1 ]

/-- The running sum over the 262144 grid positions. -/
abbrev sum1 : (⟨S262144, .i32⟩ : BufTy).Contents (Elt F) → (⟨S_, .i32⟩ : BufTy).Contents (Elt F) → (⟨S262144, .i32⟩ : BufTy).Contents (Elt F) :=
  fun x v => Host.reduceWindow IntOp.addi ![262144] ![1] ![262143] ![0] x v reduceWindows_S262144_S262144_w262144s1p262143_0 h_S_

/-- The scatter of updates, added, into 130816 bins. -/
abbrev scat : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F) :=
  fun x i u => Host.scatter scatter_S130816_S262144x1_S262144_n_0_0_1 IntOp.addi x i u

/-- The running sum over the 130816 bins. -/
abbrev sum2 : (⟨S130816, .i32⟩ : BufTy).Contents (Elt F) → (⟨S_, .i32⟩ : BufTy).Contents (Elt F) → (⟨S130816, .i32⟩ : BufTy).Contents (Elt F) :=
  fun x v => Host.reduceWindow IntOp.addi ![130816] ![1] ![130815] ![0] x v reduceWindows_S130816_S130816_w130816s1p130815_0 h_S_

set_option maxRecDepth 16384 in
/-- The stretch is the five windows in order. -/
theorem hostOps2_eq : (hostOps2 : List (HloOp τ sig (Elt F))) = KA' sum1 ++ (KB' scat sum2 ++ (KC ++ (KD ++ KE))) := rfl

/-- The contents after the stretch, window by window. -/
theorem after_hostOps2 (V : Valuation τ sig (Elt F)) :
    after hostOps2 V = after KE (after KD (after KC (after (KB' scat sum2) (after (KA' sum1) V)))) := by
  rw [hostOps2_eq, after_append, after_append, after_append, after_append]

end Cert.KIndex

end
-- ==== Proof.LibTriuIndex.lean ====
import Idealize.ShloMosaic.Lib.IdealHost
import Idealize.ShloMosaic.Lib.WordArith
import Idealize.ShloMosaic.Lib.Pipeline.Value
import Mathlib.Data.Nat.Nth
import Mathlib.Data.Nat.Count
import Mathlib.Algebra.BigOperators.Intervals
import Mathlib.Tactic

/-!
# The host operations of `jnp.nonzero(size=K)` / `jnp.triu_indices`, read at an index

`jnp.nonzero` of a mask with a static size lowers to: the inclusive prefix sum `c` of the mask as 0/1 words (a
`reduce_window` with `add`); a bincount of `c` (a scatter-add of ones at the indices `c`, an index equal to the number
of bins dropped); the inclusive prefix sum of the bincount; and, for a mask over a grid, jnp's `floor_divide` and
`remainder` to unravel the flat position. This file reads each of these operations at an index, for any extents:

* (a) `reduceWindow_cumsum_apply`: the prefix sum as a sum over the positions up to the index; `sum_le_indicator`: of a
  0/1 vector, the word of `Nat.count`;
* (b) `scatter_addi_apply`: the scatter-add at scalar indices as the operand plus the sum of the updates aimed at the
  position (`addAt_resultIdx?`: an index outside the operand is aimed at no position);
* (c) `divsi_ofNat`, `remsi_ofNat`, `floorDivide_word`, `remainder_word`, `wrap_word`: signed division, remainder,
  jnp's sign-correcting forms and the negative-index wrap on natural numbers below `2³¹`;
* (d) `card_filter_count_succ_le` with `sum_card_filter_count_eq`: the number of positions whose prefix count is at most
  `p` is `Nat.nth P p`, the position of the `(p+1)`-th true entry, where the predicate holds (`nth_mem_of_lt_count`) and
  which is below the length (`nth_lt_of_lt_count'`);
* (e) `count_triu`: an `n × n` grid read row-major has `n (n - 1) / 2` entries strictly above the diagonal.
-/

open scoped BigOperators
open Finset

namespace Idealize.ShloMosaic.TriuIndex

open Idealize.ShloMosaic Idealize.ShloMosaic.ValueIdx

/-! ## (d) The counting theorem, (e) the triangle's size -/

section Counting
variable {P : ℕ → Prop} [DecidablePred P]

/-- Below the number of true entries among the first `N`, every rank has an entry: the hypothesis `Nat.nth`'s lemmas ask. -/
theorem lt_card_of_lt_count {N p : ℕ} (hp : p < Nat.count P N) :
    ∀ hf : (Set.ofPred P).Finite, p < #hf.toFinset :=
  fun hf => lt_of_lt_of_le hp (Nat.count_le_card hf N)

/-- The `(p+1)`-th true entry lies among the first `N` when these hold more than `p` true entries. -/
theorem nth_lt_of_lt_count' {N p : ℕ} (hp : p < Nat.count P N) : Nat.nth P p < N :=
  Nat.nth_lt_of_lt_count hp

/-- The predicate holds at the `(p+1)`-th true entry. -/
theorem nth_mem_of_lt_count {N p : ℕ} (hp : p < Nat.count P N) : P (Nat.nth P p) :=
  Nat.nth_mem p (lt_card_of_lt_count hp)

/-- With `c f := Nat.count P (f + 1)` the inclusive prefix count, the positions whose prefix count is at most `p` are
    exactly those before the `(p+1)`-th true entry. -/
theorem count_succ_le_iff {N p f : ℕ} (hp : p < Nat.count P N) : Nat.count P (f + 1) ≤ p ↔ f < Nat.nth P p := by
  have hc : Nat.count P (Nat.nth P p) = p := Nat.count_nth (lt_card_of_lt_count hp)
  have hm : P (Nat.nth P p) := nth_mem_of_lt_count hp
  constructor
  · intro h
    by_contra hlt
    have hle : Nat.nth P p + 1 ≤ f + 1 := by omega
    have h1 : Nat.count P (Nat.nth P p + 1) ≤ Nat.count P (f + 1) := Nat.count_monotone P hle
    rw [Nat.count_succ, hc, if_pos hm] at h1
    omega
  · intro h
    have h1 : Nat.count P (f + 1) ≤ Nat.count P (Nat.nth P p) := Nat.count_monotone P (by omega)
    omega

/-- THE COUNTING THEOREM behind `jnp.nonzero(size=K)`: the number of positions below `N` whose inclusive prefix count
    is at most `p` — what the bincount-then-cumsum chain computes at `p` — is the position of the `(p+1)`-th true
    entry, for every `p` below the number of true entries. -/
theorem card_filter_count_succ_le {N p : ℕ} (hp : p < Nat.count P N) :
    #{f ∈ range N | Nat.count P (f + 1) ≤ p} = Nat.nth P p := by
  have hlt : Nat.nth P p < N := nth_lt_of_lt_count' hp
  have : {f ∈ range N | Nat.count P (f + 1) ≤ p} = range (Nat.nth P p) := by
    ext f
    simp only [mem_filter, mem_range, count_succ_le_iff hp]
    constructor
    · exact fun h => h.2
    · exact fun h => ⟨by omega, h⟩
  rw [this, card_range]

/-- The positions whose prefix count is at most `p` split by the value of the prefix count: the sum over `v ≤ p` of
    the number of positions with prefix count exactly `v` (the cumulative sum of a bincount). -/
theorem sum_card_filter_count_eq {N p : ℕ} :
    ∑ v ∈ range (p + 1), #{f ∈ range N | Nat.count P (f + 1) = v} = #{f ∈ range N | Nat.count P (f + 1) ≤ p} := by
  rw [← card_biUnion]
  · congr 1
    ext f
    simp only [mem_biUnion, mem_range, mem_filter]
    constructor
    · rintro ⟨v, hv, hf, rfl⟩; exact ⟨hf, by omega⟩
    · rintro ⟨hf, hle⟩; exact ⟨_, by omega, hf, rfl⟩
  · intro a _ b _ hab
    rw [Function.onFun, disjoint_left]
    intro f hfa hfb
    simp only [mem_filter] at hfa hfb
    exact hab (hfa.2.symm.trans hfb.2)

end Counting

section Triu

/-- In row `r` of an `n × n` grid read row-major, the entries strictly above the diagonal number `n - 1 - r`. -/
theorem count_row (n r : ℕ) (hr : r < n) : Nat.count (fun c => (r * n + c) / n < (r * n + c) % n) n = n - 1 - r := by
  have hn : 0 < n := by omega
  rw [Nat.count_eq_card_filter_range]
  have : {c ∈ range n | (r * n + c) / n < (r * n + c) % n} = Ioo r n := by
    ext c
    simp only [mem_filter, mem_range, mem_Ioo]
    constructor
    · rintro ⟨hc, h⟩
      rw [Nat.mul_comm r n, Nat.mul_add_div hn, Nat.mul_add_mod, Nat.div_eq_of_lt hc, Nat.mod_eq_of_lt hc] at h
      exact ⟨by omega, hc⟩
    · rintro ⟨h, hc⟩
      refine ⟨hc, ?_⟩
      rw [Nat.mul_comm r n, Nat.mul_add_div hn, Nat.mul_add_mod, Nat.div_eq_of_lt hc, Nat.mod_eq_of_lt hc]
      omega
  rw [this, Nat.card_Ioo]
  omega

/-- The strictly-upper-triangular entries among the first `R` rows of an `n × n` grid read row-major. -/
theorem count_rows (n R : ℕ) (hR : R ≤ n) :
    Nat.count (fun g => g / n < g % n) (R * n) = ∑ r ∈ range R, (n - 1 - r) := by
  induction R with
  | zero => simp
  | succ R ih =>
    rw [Nat.succ_mul, Nat.count_add, ih (by omega), sum_range_succ, count_row n R (by omega)]

/-- THE CLOSED FORM: an `n × n` grid read row-major has `n (n - 1) / 2` entries strictly above the diagonal
    (`jnp.triu_indices(n, k=1)`'s length), stated without the division. -/
theorem count_triu (n : ℕ) : Nat.count (fun g => g / n < g % n) (n * n) * 2 = n * (n - 1) := by
  rw [count_rows n n le_rfl]
  have h : ∑ r ∈ range n, (n - 1 - r) = ∑ r ∈ range n, r := sum_range_reflect (fun r => r) n
  rw [h, sum_range_id_mul_two]

/-- At `n = 512`: 130816 entries. -/
theorem count_triu_512 : Nat.count (fun g => g / 512 < g % 512) 262144 = 130816 := by
  have h := count_triu 512
  norm_num at h
  omega

end Triu

/-! ## Rank-1 index sets -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]; rfl

/-! ## (a) `jnp.cumsum` as printed: a window of the whole length, padded `n - 1` low -/

/-- AN INCLUSIVE PREFIX SUM READ AT AN INDEX. `jnp.cumsum` of a length-`n` integer vector lowers to a
    `stablehlo.reduce_window` with `add`, window `n`, stride 1 and low padding `n - 1` (here `lo` with `lo + 1 = n`), from
    the initial value zero. Read at `j` it is the sum of the entries at the positions up to and including `j`: the window
    at `j` covers padded positions `j … j + n - 1`, of which those from `lo` on are the operand's entries `0 … j`. -/
theorem reduceWindow_cumsum_apply {w n lo : ℕ} (hlo : lo + 1 = n) (x : IVec ⟨1, ![n]⟩ w) (init : IVec ⟨0, ![]⟩ w)
    (h0 : init ix0 = 0) (h : (⟨1, ![n]⟩ : Shape).ReduceWindows ![n] ![1] ![lo] ![0] ⟨1, ![n]⟩)
    (hu : 0 < (⟨0, ![]⟩ : Shape).numel) (j : Fin n) :
    Host.reduceWindow IntOp.addi ![n] ![1] ![lo] ![0] x init h hu (ix1 j) = ∑ i : Fin n with i ≤ j, x (ix1 i) := by
  have hv : init (Shape.Idx.first hu) = 0 := by rw [← h0]; exact congrArg init (eq_ix0 _)
  let G : (⟨1, ![n]⟩ : Shape).Idx → BitVec w := fun k =>
    if hin : ∀ a : Fin 1, (![lo] : Fin 1 → ℕ) a ≤ (ix1 j (a.cast h.1.symm)).val * (![1] : Fin 1 → ℕ) a + (k a).val ∧
        (ix1 j (a.cast h.1.symm)).val * (![1] : Fin 1 → ℕ) a + (k a).val - (![lo] : Fin 1 → ℕ) a < (⟨1, ![n]⟩ : Shape).size a
    then x (fun a => ⟨(ix1 j (a.cast h.1.symm)).val * (![1] : Fin 1 → ℕ) a + (k a).val - (![lo] : Fin 1 → ℕ) a, (hin a).2⟩) else 0
  have e1 : Host.reduceWindow IntOp.addi ![n] ![1] ![lo] ![0] x init h hu (ix1 j) = ∑ k, G k := by
    rw [sum_idx_eq_foldl]
    unfold Host.reduceWindow
    simp only [hv]
    rfl
  have hG : ∀ a : Fin n, G (ix1 a) = if lo ≤ j.val + a.val then x (ix1 ⟨min (j.val + a.val - lo) j.val, by omega⟩) else 0 := by
    intro a
    have ha := a.isLt
    have hj := j.isLt
    by_cases hc : lo ≤ j.val + a.val
    · have hin : ∀ b : Fin 1, (![lo] : Fin 1 → ℕ) b ≤ (ix1 j (b.cast h.1.symm)).val * (![1] : Fin 1 → ℕ) b + (ix1 a b).val ∧
          (ix1 j (b.cast h.1.symm)).val * (![1] : Fin 1 → ℕ) b + (ix1 a b).val - (![lo] : Fin 1 → ℕ) b < (⟨1, ![n]⟩ : Shape).size b := by
        intro b
        match b with
        | ⟨0, _⟩ =>
          show lo ≤ j.val * 1 + a.val ∧ j.val * 1 + a.val - lo < n
          omega
      rw [if_pos hc]
      show (if hin : _ then _ else _) = _
      rw [dif_pos hin]
      refine congrArg x (funext fun b => ?_)
      match b with
      | ⟨0, _⟩ =>
        refine Fin.ext ?_
        show j.val * 1 + a.val - lo = min (j.val + a.val - lo) j.val
        omega
    · rw [if_neg hc]
      show (if hin : _ then _ else _) = _
      rw [dif_neg]
      intro hin
      have := (hin 0).1
      apply hc
      have e : (![lo] : Fin 1 → ℕ) 0 ≤ j.val * 1 + a.val := this
      have e' : (![lo] : Fin 1 → ℕ) 0 = lo := rfl
      omega
  rw [e1, sum_idx1, Finset.sum_congr rfl (fun a _ => hG a), ← Finset.sum_filter]
  have hj := j.isLt
  refine Finset.sum_nbij' (fun a => ⟨min (j.val + a.val - lo) j.val, by omega⟩) (fun i => ⟨min (i.val + lo - j.val) lo, by omega⟩)
    ?_ ?_ ?_ ?_ ?_
  · intro a ha
    simp only [Finset.mem_filter, Finset.mem_univ, true_and] at ha ⊢
    exact Fin.mk_le_of_le_val (by simp)
  · intro i hi
    simp only [Finset.mem_filter, Finset.mem_univ, true_and] at hi ⊢
    have : i.val ≤ j.val := hi
    show lo ≤ j.val + min (i.val + lo - j.val) lo
    omega
  · intro a ha
    simp only [Finset.mem_filter, Finset.mem_univ, true_and] at ha
    have := a.isLt
    refine Fin.ext ?_
    show min (min (j.val + a.val - lo) j.val + lo - j.val) lo = a.val
    omega
  · intro i hi
    simp only [Finset.mem_filter, Finset.mem_univ, true_and] at hi
    have : i.val ≤ j.val := hi
    refine Fin.ext ?_
    show min (j.val + min (i.val + lo - j.val) lo - lo) j.val = i.val
    omega
  · intro a _
    rfl

/-! ## (b) `bincount` as printed: a scatter-add of updates at scalar indices -/

/-- The dimension numbers of `x.at[idx].add(u)` at a flat operand `[n]`, scalar scatter indices `[m, 1]` and updates
    `[m]` (`inserted_window_dims = [0]`, `scatter_dims_to_operand_dims = [0]`, `index_vector_dim = 1`); the conditions
    `wf` are decided on a program's literal shapes. -/
abbrev addAtDims (n m : ℕ) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

/-- Where update `j` lands: at its scatter index read as a signed integer when that is inside `[0, n)`, and nowhere
    (the update is dropped) when it is not. -/
theorem addAt_resultIdx? {w n m : ℕ} (wf : ScatterDims.WF ⟨1, ![n]⟩ ⟨2, ![m, 1]⟩ ⟨1, ![m]⟩ [] [0] [0] 1)
    (j : (⟨1, ![m]⟩ : Shape).Idx) (idx : IVec ⟨2, ![m, 1]⟩ w) :
    (addAtDims n m wf).resultIdx? j idx =
      if h : 0 ≤ (idx (ix2 (j 0) 0)).toInt ∧ (idx (ix2 (j 0) 0)).toInt < n then
        some (ix1 ⟨(idx (ix2 (j 0) 0)).toInt.toNat, by omega⟩) else none := by
  have hstart : ∀ a : Fin 1, (addAtDims n m wf).start j idx a = (idx (ix2 (j 0) 0)).toInt := by
    intro a
    obtain rfl : a = 0 := Subsingleton.elim _ _
    unfold ScatterDims.start
    rw [dif_pos (show (0 : Fin 1) ∈ (addAtDims n m wf).scatterDimsToOperandDims from List.mem_singleton.mpr rfl)]
    have hsi : (addAtDims n m wf).siIdx j ⟨List.idxOf (0 : Fin 1) (addAtDims n m wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwin : ∀ a : Fin 1, (addAtDims n m wf).window j a = 0 := by
    intro a
    unfold ScatterDims.window
    rw [dif_neg]
    show a ∉ (addAtDims n m wf).sKept
    have : (addAtDims n m wf).sKept = [] := rfl
    rw [this]; exact List.not_mem_nil
  unfold ScatterDims.resultIdx?
  by_cases hc : 0 ≤ (idx (ix2 (j 0) 0)).toInt ∧ (idx (ix2 (j 0) 0)).toInt < n
  · have hall : ∀ a : Fin 1, 0 ≤ (addAtDims n m wf).start j idx a + (addAtDims n m wf).window j a ∧
        (addAtDims n m wf).start j idx a + (addAtDims n m wf).window j a < (⟨1, ![n]⟩ : Shape).size a := by
      intro a
      rw [hstart, hwin]
      obtain rfl : a = 0 := Subsingleton.elim _ _
      show 0 ≤ (idx (ix2 (j 0) 0)).toInt + ((0 : ℕ) : ℤ) ∧ (idx (ix2 (j 0) 0)).toInt + ((0 : ℕ) : ℤ) < (n : ℤ)
      omega
    rw [dif_pos hall, dif_pos hc]
    refine congrArg some (funext fun a => Fin.ext ?_)
    obtain rfl : a = 0 := Subsingleton.elim _ _
    show ((addAtDims n m wf).start j idx 0 + (addAtDims n m wf).window j 0).toNat = (idx (ix2 (j 0) 0)).toInt.toNat
    rw [hstart, hwin]; simp
  · rw [dif_neg hc, dif_neg]
    intro hall
    apply hc
    have h0 := hall 0
    rw [hstart, hwin] at h0
    have e : ((⟨1, ![n]⟩ : Shape).size 0 : ℤ) = (n : ℤ) := rfl
    rw [e] at h0
    omega

/-- A left fold of steps each of which adds one update at one target (or nowhere), read at a position: what the
    position held plus the updates aimed at it. -/
theorem foldl_addAt_apply {ι κ : Type} {w : ℕ} [DecidableEq κ] (tgt : ι → Option κ) (u : ι → BitVec w)
    (step : (κ → BitVec w) → ι → κ → BitVec w)
    (hstep : ∀ r k i, step r k i = if tgt k = some i then r i + u k else r i) (l : List ι) (x : κ → BitVec w) (i : κ) :
    (l.foldl step x) i = x i + (l.map fun k => if tgt k = some i then u k else 0).sum := by
  induction l generalizing x with
  | nil => simp
  | cons k l ih =>
    rw [List.foldl_cons, ih, hstep, List.map_cons, List.sum_cons]
    by_cases h : tgt k = some i
    · rw [if_pos h, if_pos h, add_assoc]
    · rw [if_neg h, if_neg h, zero_add]

/-- A rank-1 index is determined by its coordinate. -/
theorem ix1_injective {n : ℕ} : Function.Injective (ix1 : Fin n → (⟨1, ![n]⟩ : Shape).Idx) :=
  fun _ _ h => congrFun h 0

/-- A SCATTER-ADD AT SCALAR INDICES READ AT A POSITION (`x.at[idx].add(u)`, jnp's `bincount` when `x` is zeros and `u`
    ones): what the operand held there plus the sum of the updates whose index, read as a signed integer, is that
    position. An update whose index is outside `[0, n)` is dropped: it is aimed at no position. -/
theorem scatter_addi_apply {w n m : ℕ} (wf : ScatterDims.WF ⟨1, ![n]⟩ ⟨2, ![m, 1]⟩ ⟨1, ![m]⟩ [] [0] [0] 1)
    (x : IVec ⟨1, ![n]⟩ w) (idx : IVec ⟨2, ![m, 1]⟩ 32) (upd : IVec ⟨1, ![m]⟩ w) (v : Fin n) :
    Host.scatter (addAtDims n m wf) IntOp.addi x idx upd (ix1 v)
      = x (ix1 v) + ∑ f : Fin m with (idx (ix2 f 0)).toInt = (v.val : ℤ), upd (ix1 f) := by
  unfold Host.scatter
  refine (foldl_addAt_apply
    (fun k => (addAtDims n m wf).resultIdx? ((⟨1, ![m]⟩ : Shape).rowMajor.symm k) idx)
    (fun k => upd ((⟨1, ![m]⟩ : Shape).rowMajor.symm k)) _ ?_ _ _ _).trans ?_
  · intro r k i
    cases hres : (addAtDims n m wf).resultIdx? ((⟨1, ![m]⟩ : Shape).rowMajor.symm k) idx with
    | none =>
      show r i = _
      rw [if_neg (by simp)]
    | some i0 =>
      show (if i = i0 then IntOp.addi (r i0) (upd ((⟨1, ![m]⟩ : Shape).rowMajor.symm k)) else r i) = _
      by_cases hi : i = i0
      · subst hi; rw [if_pos rfl, if_pos rfl]; rfl
      · rw [if_neg hi, if_neg (fun e => hi (Option.some.inj e).symm)]
  · congr 1
    rw [← Fin.sum_univ_def, ← Equiv.sum_comp (⟨1, ![m]⟩ : Shape).rowMajor, sum_idx1, Finset.sum_filter]
    refine Finset.sum_congr rfl fun a _ => ?_
    rw [Equiv.symm_apply_apply, addAt_resultIdx?]
    have hv := v.isLt
    by_cases hc : (idx (ix2 a 0)).toInt = (v.val : ℤ)
    · have hin : 0 ≤ (idx (ix2 ((ix1 a : (⟨1, ![m]⟩ : Shape).Idx) 0) 0)).toInt ∧
          (idx (ix2 ((ix1 a : (⟨1, ![m]⟩ : Shape).Idx) 0) 0)).toInt < n := by
        show 0 ≤ (idx (ix2 a 0)).toInt ∧ (idx (ix2 a 0)).toInt < n
        omega
      rw [dif_pos hin, if_pos hc, if_pos]
      refine congrArg some (congrArg ix1 (Fin.ext ?_))
      show (idx (ix2 a 0)).toInt.toNat = v.val
      omega
    · rw [if_neg hc, if_neg]
      intro e
      apply hc
      split at e
      · next hin =>
        have := congrArg Fin.val (ix1_injective (Option.some.inj e))
        have e2 : (idx (ix2 a 0)).toInt.toNat = v.val := this
        have h1 : 0 ≤ (idx (ix2 a 0)).toInt := hin.1
        omega
      · exact absurd e (by simp)

/-! ## (c) jnp's `floor_divide` and `remainder` as printed, on a non-negative dividend and a positive divisor -/

/-- A natural number below `2³¹`, as a 32-bit word, reads unsigned as itself. -/
theorem toNat_ofNat_small {a : ℕ} (ha : a < 2 ^ 31) : (BitVec.ofNat 32 a).toNat = a := by
  rw [BitVec.toNat_ofNat]; exact Nat.mod_eq_of_lt (by omega)

/-- Its sign bit is clear. -/
theorem msb_ofNat_small {a : ℕ} (ha : a < 2 ^ 31) : (BitVec.ofNat 32 a).msb = false := by
  rw [BitVec.msb_eq_false_iff_two_mul_lt, toNat_ofNat_small ha]; omega

/-- It is the zero word only when the number is zero. -/
theorem ofNat_small_eq_zero_iff {a : ℕ} (ha : a < 2 ^ 31) : BitVec.ofNat 32 a = 0#32 ↔ a = 0 := by
  constructor
  · intro h
    have := congrArg BitVec.toNat h
    rw [toNat_ofNat_small ha] at this
    simpa using this
  · rintro rfl; rfl

/-- A non-negative dividend and a positive divisor, both below `2³¹`, are not at signed division's corner. -/
theorem not_sdivCorner_ofNat {a k : ℕ} (hk0 : 0 < k) (hk : k < 2 ^ 31) :
    ¬IntOp.SDivCorner (BitVec.ofNat 32 a) (BitVec.ofNat 32 k) := by
  unfold IntOp.SDivCorner
  rintro (h | ⟨_, h⟩)
  · exact absurd ((ofNat_small_eq_zero_iff hk).1 h) (by omega)
  · have := congrArg BitVec.toNat h
    rw [toNat_ofNat_small hk] at this
    have e : (-1 : BitVec 32).toNat = 4294967295 := by decide
    rw [e] at this
    omega

/-- Signed division of such words is the natural numbers' quotient, on every unit. -/
theorem divsi_ofNat (u : ArithUnit) {a k : ℕ} (ha : a < 2 ^ 31) (hk0 : 0 < k) (hk : k < 2 ^ 31) :
    IntOp.divsi u (BitVec.ofNat 32 a) (BitVec.ofNat 32 k) = BitVec.ofNat 32 (a / k) := by
  unfold IntOp.divsi
  rw [if_neg (not_sdivCorner_ofNat hk0 hk), BitVec.sdiv_eq, msb_ofNat_small ha, msb_ofNat_small hk]
  apply BitVec.eq_of_toNat_eq
  have hq : a / k < 2 ^ 31 := lt_of_le_of_lt (Nat.div_le_self a k) ha
  show (BitVec.udiv _ _).toNat = _
  rw [show BitVec.udiv (BitVec.ofNat 32 a) (BitVec.ofNat 32 k) = BitVec.ofNat 32 a / BitVec.ofNat 32 k from rfl,
    BitVec.toNat_udiv, toNat_ofNat_small ha, toNat_ofNat_small hk, toNat_ofNat_small hq]

/-- The signed remainder of such words is the natural numbers' remainder, on every unit. -/
theorem remsi_ofNat (u : ArithUnit) {a k : ℕ} (ha : a < 2 ^ 31) (hk0 : 0 < k) (hk : k < 2 ^ 31) :
    IntOp.remsi u (BitVec.ofNat 32 a) (BitVec.ofNat 32 k) = BitVec.ofNat 32 (a % k) := by
  unfold IntOp.remsi
  rw [if_neg (not_sdivCorner_ofNat hk0 hk), BitVec.srem_eq, msb_ofNat_small ha, msb_ofNat_small hk]
  apply BitVec.eq_of_toNat_eq
  have hq : a % k < 2 ^ 31 := lt_of_le_of_lt (Nat.mod_le a k) ha
  show (BitVec.ofNat 32 a % BitVec.ofNat 32 k).toNat = _
  rw [BitVec.toNat_umod, toNat_ofNat_small ha, toNat_ofNat_small hk, toNat_ofNat_small hq]

/-- `stablehlo.sign` on one 32-bit word (what the vector operation `signi` is at an index, by definition): `0`, `-1` or `1`. -/
def sgnWord (x : BitVec 32) : BitVec 32 := if x = 0 then 0 else if x.msb then -1 else 1

/-- `signi` read at an index. -/
theorem signi_apply {s : Shape} (x : IVec s 32) (i : s.Idx) : signi x i = sgnWord (x i) := rfl

/-- The sign of a natural number below `2³¹`. -/
theorem sgnWord_ofNat {a : ℕ} (ha : a < 2 ^ 31) : sgnWord (BitVec.ofNat 32 a) = if a = 0 then 0#32 else 1#32 := by
  unfold sgnWord
  by_cases h : a = 0
  · subst h; rfl
  · have hne : ¬(BitVec.ofNat 32 a = 0) := fun e => h ((ofNat_small_eq_zero_iff ha).1 e)
    rw [if_neg hne, msb_ofNat_small ha, if_neg h]; rfl

/-- A signed "less than zero" of a natural number below `2³¹` is false. -/
theorem cmpi_slt_zero_ofNat {a : ℕ} (ha : a < 2 ^ 31) : IntOp.cmpi .slt (BitVec.ofNat 32 a) 0#32 = 0#1 := by
  have h : (BitVec.ofNat 32 a).slt 0#32 = false := by
    rw [BitVec.slt_eq_decide, decide_eq_false_iff_not, WordArith.toInt_ofNat_small a ha]
    have : (0#32 : BitVec 32).toInt = 0 := by decide
    rw [this]; omega
  show BitVec.ofBool ((BitVec.ofNat 32 a).slt 0#32) = 0#1
  rw [h]; rfl

/-- A natural number below `2³¹` is not signed-less than zero. -/
theorem slt_zero_ofNat {a : ℕ} (ha : a < 2 ^ 31) : (BitVec.ofNat 32 a).slt 0#32 = false := by
  rw [BitVec.slt_eq_decide, decide_eq_false_iff_not, WordArith.toInt_ofNat_small a ha]
  have : (0#32 : BitVec 32).toInt = 0 := by decide
  rw [this]; omega

/-- The signed maximum of zero and a natural number below `2³¹` is the number (`jnp.clip` from below at zero). -/
theorem maxsi_zero_ofNat {a : ℕ} (ha : a < 2 ^ 31) : IntOp.maxsi 0#32 (BitVec.ofNat 32 a) = BitVec.ofNat 32 a := by
  unfold IntOp.maxsi
  rw [slt_zero_ofNat ha]; rfl

/-- `jnp.floor_divide(x, d)` AS LOWERED — the quotient rounded toward zero, less one when the operands' signs differ
    and the remainder is not zero — on a non-negative `x` and a positive `d`, both below `2³¹`: the natural numbers'
    quotient (the signs differ only when `x` is zero, and then the remainder is zero). -/
theorem floorDivide_word (u : ArithUnit) {a k : ℕ} (ha : a < 2 ^ 31) (hk0 : 0 < k) (hk : k < 2 ^ 31) :
    Scalar.select
      (IntOp.andi (IntOp.cmpi .ne (sgnWord (BitVec.ofNat 32 a)) (sgnWord (BitVec.ofNat 32 k)))
        (IntOp.cmpi .ne (IntOp.remsi u (BitVec.ofNat 32 a) (BitVec.ofNat 32 k)) 0#32))
      (IntOp.subi (IntOp.divsi u (BitVec.ofNat 32 a) (BitVec.ofNat 32 k)) 1#32)
      (IntOp.divsi u (BitVec.ofNat 32 a) (BitVec.ofNat 32 k)) = BitVec.ofNat 32 (a / k) := by
  rw [divsi_ofNat u ha hk0 hk, remsi_ofNat u ha hk0 hk, sgnWord_ofNat ha, sgnWord_ofNat hk, if_neg (by omega : ¬k = 0)]
  have hc : IntOp.andi (IntOp.cmpi .ne (if a = 0 then 0#32 else 1#32) 1#32)
      (IntOp.cmpi .ne (BitVec.ofNat 32 (a % k)) 0#32) = 0#1 := by
    by_cases h : a = 0
    · subst h; rw [Nat.zero_mod]; rfl
    · rw [if_neg h]
      have : IntOp.cmpi .ne (1#32) (1#32) = 0#1 := by decide
      rw [this]; show (0#1 : BitVec 1) &&& _ = 0#1; exact BitVec.zero_and
  rw [hc]
  exact ValueIdx.select_zero _ _

/-- `jnp.remainder(x, d)` AS LOWERED — the divisor replaced by one when it is zero, the remainder of the dividend's
    sign, plus the divisor when it is not zero and its sign differs from the divisor's — on a non-negative `x` and a
    positive `d`, both below `2³¹`: the natural numbers' remainder. -/
theorem remainder_word (u : ArithUnit) {a k : ℕ} (ha : a < 2 ^ 31) (hk0 : 0 < k) (hk : k < 2 ^ 31) :
    Scalar.select
      (IntOp.andi
        (IntOp.cmpi .ne
          (IntOp.cmpi .slt (IntOp.remsi u (BitVec.ofNat 32 a)
            (Scalar.select (IntOp.cmpi .eq (BitVec.ofNat 32 k) 0#32) 1#32 (BitVec.ofNat 32 k))) 0#32)
          (IntOp.cmpi .slt (Scalar.select (IntOp.cmpi .eq (BitVec.ofNat 32 k) 0#32) 1#32 (BitVec.ofNat 32 k)) 0#32))
        (IntOp.cmpi .ne (IntOp.remsi u (BitVec.ofNat 32 a)
            (Scalar.select (IntOp.cmpi .eq (BitVec.ofNat 32 k) 0#32) 1#32 (BitVec.ofNat 32 k))) 0#32))
      (IntOp.addi (IntOp.remsi u (BitVec.ofNat 32 a)
            (Scalar.select (IntOp.cmpi .eq (BitVec.ofNat 32 k) 0#32) 1#32 (BitVec.ofNat 32 k)))
        (Scalar.select (IntOp.cmpi .eq (BitVec.ofNat 32 k) 0#32) 1#32 (BitVec.ofNat 32 k)))
      (IntOp.remsi u (BitVec.ofNat 32 a)
            (Scalar.select (IntOp.cmpi .eq (BitVec.ofNat 32 k) 0#32) 1#32 (BitVec.ofNat 32 k)))
      = BitVec.ofNat 32 (a % k) := by
  have hd : Scalar.select (IntOp.cmpi .eq (BitVec.ofNat 32 k) 0#32) 1#32 (BitVec.ofNat 32 k) = BitVec.ofNat 32 k := by
    have : IntOp.cmpi .eq (BitVec.ofNat 32 k) 0#32 = 0#1 := by
      show BitVec.ofBool (BitVec.ofNat 32 k == 0#32) = 0#1
      have : (BitVec.ofNat 32 k == 0#32) = false := by
        rw [beq_eq_false_iff_ne]
        exact fun e => absurd ((ofNat_small_eq_zero_iff hk).1 e) (by omega)
      rw [this]; rfl
    rw [this]; exact ValueIdx.select_zero _ _
  have hq : a % k < 2 ^ 31 := lt_of_le_of_lt (Nat.mod_le a k) ha
  rw [hd, remsi_ofNat u ha hk0 hk, cmpi_slt_zero_ofNat hq, cmpi_slt_zero_ofNat hk]
  have hc : IntOp.andi (IntOp.cmpi .ne (0#1) (0#1)) (IntOp.cmpi .ne (BitVec.ofNat 32 (a % k)) 0#32) = 0#1 := by
    have : IntOp.cmpi .ne (0#1) (0#1) = 0#1 := by decide
    rw [this]; show (0#1 : BitVec 1) &&& _ = 0#1; exact BitVec.zero_and
  rw [hc]
  exact ValueIdx.select_zero _ _

/-- The negative-index wrap `select(x < 0, x + n, x)` that jnp puts in front of a gather leaves a natural number below
    `2³¹` unchanged. -/
theorem wrap_word (a : ℕ) (ha : a < 2 ^ 31) (n : BitVec 32) :
    Scalar.select (IntOp.cmpi .slt (BitVec.ofNat 32 a) 0#32) (IntOp.addi (BitVec.ofNat 32 a) n) (BitVec.ofNat 32 a)
      = BitVec.ofNat 32 a := by
  rw [cmpi_slt_zero_ofNat ha]; exact ValueIdx.select_zero _ _

/-! ## Sums of words that hold small natural numbers -/

/-- A sum of words each holding a natural number holds the sum of the numbers (modulo `2 ^ w`, as `BitVec.ofNat` reads it). -/
theorem sum_ofNat {ι : Type} {w : ℕ} (s : Finset ι) (f : ι → ℕ) :
    ∑ i ∈ s, BitVec.ofNat w (f i) = BitVec.ofNat w (∑ i ∈ s, f i) := by
  simp only [← BitVec.natCast_eq_ofNat, Nat.cast_sum]

/-- A sum of ones over a set is the word of its number of elements. -/
theorem sum_one_eq_card {ι : Type} {w : ℕ} (s : Finset ι) : ∑ _i ∈ s, BitVec.ofNat w 1 = BitVec.ofNat w #s := by
  rw [sum_ofNat, Finset.sum_const, smul_eq_mul, mul_one]

/-- Counting positions below `N` by a predicate on the position's value: over `Fin N` or over `range N`. -/
theorem card_fin_filter {N : ℕ} (Q : ℕ → Prop) [DecidablePred Q] :
    #{f : Fin N | Q f.val} = #{f ∈ range N | Q f} := by
  rw [Finset.card_filter, Finset.card_filter, ← Fin.sum_univ_eq_sum_range (fun k => if Q k then 1 else 0) N]

/-- A sum over the positions up to and including `j` of a function of the position's value, over `range (j + 1)`. -/
theorem sum_fin_le {M : Type} [AddCommMonoid M] {n : ℕ} (g : ℕ → M) (j : Fin n) :
    ∑ i : Fin n with i ≤ j, g i.val = ∑ k ∈ range (j.val + 1), g k := by
  rw [Finset.sum_filter]
  have hj := j.isLt
  have e : ∀ i : Fin n, (if i ≤ j then g i.val else 0) = (fun k => if k ≤ j.val then g k else 0) i.val := fun i => rfl
  rw [Finset.sum_congr rfl (fun i _ => e i), Fin.sum_univ_eq_sum_range (fun k => if k ≤ j.val then g k else 0) n,
    ← Finset.sum_filter]
  congr 1
  ext k
  simp only [Finset.mem_filter, Finset.mem_range]
  omega

/-- THE PREFIX SUM OF A 0/1 VECTOR IS A PREFIX COUNT: if entry `i` is the word of `1` where `P i` holds and of `0`
    elsewhere, the sum of the entries up to and including `j` is the word of `Nat.count P (j + 1)`. -/
theorem sum_le_indicator {w n : ℕ} (P : ℕ → Prop) [DecidablePred P] (x : Fin n → BitVec w)
    (hx : ∀ i, x i = BitVec.ofNat w (if P i.val then 1 else 0)) (j : Fin n) :
    ∑ i : Fin n with i ≤ j, x i = BitVec.ofNat w (Nat.count P (j.val + 1)) := by
  rw [Nat.count_eq_card_filter_range, Finset.card_filter, Finset.sum_congr rfl (fun i _ => hx i), sum_ofNat]
  exact congrArg _ (sum_fin_le (fun k => if P k then 1 else 0) j)

end Idealize.ShloMosaic.TriuIndex
-- ==== Proof.TriuPairs.lean ====
import proofs.«145914_j27221502722563_2_alg».proof.ReferenceIdeal
import proofs.«145914_j27221502722563_2_alg».proof.Proof.Gen.ReferenceIdeal
import proofs.«145914_j27221502722563_2_alg».proof.Proof.LibTriuIndex

/-!
# The index lists of `jnp.triu_indices(512, k=1)` as the host operations compute them

Both programs compute the pair lists at run time by one chain of host operations (`jnp.nonzero` with a static size):
the strictly-upper-triangular mask of a 512 × 512 grid, flattened; its inclusive prefix sum `c1`; a bincount of `c1`
into 130816 bins (the last prefix value, 130816 itself, is out of range and dropped); the inclusive prefix sum `flat`
of the bincount; and `rows = (flat / 512) % 512`, `cols = (flat / 1) % 512` by jnp's sign-correcting division and
remainder. Since `c1` is the prefix count of the mask, `flat p` is the number of positions whose prefix count is at
most `p`, which is the position of the `(p+1)`-th entry of the mask: so the mask holds there, `rows p < cols p < 512`.

The stages are stated as the printed operations composed in the printed order over the printed evidence (the bundle
`Ev`), for every float instance; the values are proved at the ideal instance, where the mask's float constants are the
extended reals `1` and `0`.
-/

noncomputable section

open scoped BigOperators
open Finset

namespace Cert.TriuPairs

open Idealize.ShloMosaic Idealize.ShloMosaic.ValueIdx Idealize.ShloMosaic.TriuIndex
open Cert.ReferenceIdeal (S_ S512x512 S262144 S262144x1 S130816)

/-- The side conditions the index chain's operations cite, as the programs state them (each decidable on the literal
    shapes; a program's own `Facts₀` fields give one, and any two are equal as proofs). -/
structure Ev : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816 : S130816.ReduceWindows (![130816] : Fin 1 → Nat) ![1] ![130815] ![0] S130816
  scatter_wf : ScatterDims.WF S130816 S262144x1 S262144 [] [0] [0] 1

/-- The side conditions hold (by computation on the shapes). -/
theorem ev : Ev where
  bcast_S_S512x512 := by decide
  shapeCasts_S512x512_S262144 := by decide
  natLt_1_32 := by decide
  bcast_S_S_ := by decide
  reduceWindows_S262144 := by decide
  h_S_ := by decide
  bcast_S_S130816 := by decide
  bcast_S_S262144 := by decide
  bcast_S262144_S262144x1_0 := by decide
  reduceWindows_S130816 := by decide
  scatter_wf := by decide

/-- The reference program's own statement of them. -/
theorem Ev.ofReference [Cert.ReferenceIdeal.Facts₀] : Ev where
  bcast_S_S512x512 := Cert.ReferenceIdeal.Facts₀.bcast_S_S512x512
  shapeCasts_S512x512_S262144 := Cert.ReferenceIdeal.Facts₀.shapeCasts_S512x512_S262144
  natLt_1_32 := Cert.ReferenceIdeal.Facts₀.natLt_1_32
  bcast_S_S_ := Cert.ReferenceIdeal.Facts₀.bcast_S_S_
  reduceWindows_S262144 := Cert.ReferenceIdeal.Facts₀.reduceWindows_S262144_S262144_w262144s1p262143_0
  h_S_ := Cert.ReferenceIdeal.Facts₀.h_S_
  bcast_S_S130816 := Cert.ReferenceIdeal.Facts₀.bcast_S_S130816
  bcast_S_S262144 := Cert.ReferenceIdeal.Facts₀.bcast_S_S262144
  bcast_S262144_S262144x1_0 := Cert.ReferenceIdeal.Facts₀.bcast_S262144_S262144x1_0
  reduceWindows_S130816 := Cert.ReferenceIdeal.Facts₀.reduceWindows_S130816_S130816_w130816s1p130815_0
  scatter_wf := Cert.ReferenceIdeal.Facts₀.scatter_S130816_S262144x1_S262144_n_0_0_1_wf

/-! ## The stages, as printed -/

section Stages
variable {F : FTy → Type} [FloatOps F]

/-- `jnp.triu` of the all-ones matrix, negated in its select: `0.0` where row ≥ column, `1.0` above the diagonal. -/
def triu (e : Ev) : FVec F S512x512 .f32 :=
  select
    (cmpi .sge
      (addi (iotaInDim S512x512 32 0) (broadcastInDim S512x512 ![] e.bcast_S_S512x512 (constantI S_ 32 0#32)))
      (iotaInDim S512x512 32 1))
    (broadcastInDim S512x512 ![] e.bcast_S_S512x512 (constant (F := F) S_ .f32 0x00000000#32))
    (broadcastInDim S512x512 ![] e.bcast_S_S512x512 (constant (F := F) S_ .f32 0x3F800000#32))

/-- The mask: where that matrix is not zero. -/
def mask (e : Ev) : IVec S512x512 1 :=
  cmpf .une (triu (F := F) e) (broadcastInDim S512x512 ![] e.bcast_S_S512x512 (constant (F := F) S_ .f32 0x00000000#32))

/-- The inclusive prefix sum of the flattened mask, as 32-bit words. -/
def c1 (e : Ev) : IVec S262144 32 :=
  Host.reduceWindow IntOp.addi ![262144] ![1] ![262143] ![0]
    (extui 32 (shapeCast S262144 (mask (F := F) e) e.shapeCasts_S512x512_S262144) e.natLt_1_32)
    (broadcastInDim S_ ![] e.bcast_S_S_ (constantI S_ 32 0#32)) e.reduceWindows_S262144 e.h_S_

/-- `jnp.clip` from below at zero. -/
def clipped (e : Ev) : IVec S262144 32 :=
  maxsi (broadcastInDim S262144 ![] e.bcast_S_S262144 (id (constantI S_ 32 0#32))) (c1 (F := F) e)

/-- The negative-index wrap in front of the scatter. -/
def wrapped (e : Ev) : IVec S262144 32 :=
  select (cmpi .slt (clipped (F := F) e) (broadcastInDim S262144 ![] e.bcast_S_S262144 (constantI S_ 32 0#32)))
    (addi (clipped (F := F) e) (broadcastInDim S262144 ![] e.bcast_S_S262144 (constantI S_ 32 130816#32)))
    (clipped (F := F) e)

/-- The scatter's dimension numbers. -/
def scatterDims (e : Ev) : ScatterDims S130816 S262144x1 S262144 where
  updateWindowDims := []
  insertedWindowDims := [0]
  scatterDimsToOperandDims := [0]
  indexVectorDim := 1
  wf := e.scatter_wf

/-- The bincount: ones scattered with `add` into zeros at the wrapped prefix sums. -/
def bincount (e : Ev) : IVec S130816 32 :=
  Host.scatter (scatterDims e) IntOp.addi (broadcastInDim S130816 ![] e.bcast_S_S130816 (constantI S_ 32 0#32))
    (broadcastInDim S262144x1 ![0] e.bcast_S262144_S262144x1_0 (wrapped (F := F) e))
    (broadcastInDim S262144 ![] e.bcast_S_S262144 (constantI S_ 32 1#32))

/-- The inclusive prefix sum of the bincount: the flat positions of the mask's entries. -/
def flat (e : Ev) : IVec S130816 32 :=
  Host.reduceWindow IntOp.addi ![130816] ![1] ![130815] ![0] (bincount (F := F) e)
    (broadcastInDim S_ ![] e.bcast_S_S_ (constantI S_ 32 0#32)) e.reduceWindows_S130816 e.h_S_

/-- `jnp.floor_divide(x, d)` as lowered: the quotient toward zero, less one where the signs differ and the remainder is
    not zero. -/
def floorDivide (e : Ev) (x : IVec S130816 32) (d : IVec S_ 32) : IVec S130816 32 :=
  select
    (andi (cmpi .ne (signi x) (broadcastInDim S130816 ![] e.bcast_S_S130816 (signi d)))
      (cmpi .ne (Host.remsi x (broadcastInDim S130816 ![] e.bcast_S_S130816 d))
        (broadcastInDim S130816 ![] e.bcast_S_S130816 (constantI S_ 32 0#32))))
    (subi (Host.divsi x (broadcastInDim S130816 ![] e.bcast_S_S130816 d))
      (broadcastInDim S130816 ![] e.bcast_S_S130816 (constantI S_ 32 1#32)))
    (Host.divsi x (broadcastInDim S130816 ![] e.bcast_S_S130816 d))

/-- The divisor `jnp.remainder` divides by: one in place of zero. -/
def safeDivisor (d : IVec S_ 32) : IVec S_ 32 :=
  select (cmpi .eq (id d) (constantI S_ 32 0#32)) (constantI S_ 32 1#32) (id d)

/-- `jnp.remainder(x, d)` as lowered: the remainder of the dividend's sign, plus the divisor where it is not zero and
    its sign differs from the divisor's. -/
def remainder (e : Ev) (x : IVec S130816 32) (d : IVec S_ 32) : IVec S130816 32 :=
  select
    (andi
      (cmpi .ne
        (cmpi .slt (Host.remsi x (broadcastInDim S130816 ![] e.bcast_S_S130816 (safeDivisor d)))
          (broadcastInDim S130816 ![] e.bcast_S_S130816 (constantI S_ 32 0#32)))
        (broadcastInDim S130816 ![] e.bcast_S_S130816 (cmpi .slt (safeDivisor d) (constantI S_ 32 0#32))))
      (cmpi .ne (Host.remsi x (broadcastInDim S130816 ![] e.bcast_S_S130816 (safeDivisor d)))
        (broadcastInDim S130816 ![] e.bcast_S_S130816 (constantI S_ 32 0#32))))
    (addi (Host.remsi x (broadcastInDim S130816 ![] e.bcast_S_S130816 (safeDivisor d)))
      (broadcastInDim S130816 ![] e.bcast_S_S130816 (safeDivisor d)))
    (Host.remsi x (broadcastInDim S130816 ![] e.bcast_S_S130816 (safeDivisor d)))

/-- The row indices: `(flat / 512) % 512`. -/
def rows (e : Ev) : IVec S130816 32 :=
  remainder e (floorDivide e (flat (F := F) e) (constantI S_ 32 512#32)) (constantI S_ 32 512#32)

/-- The column indices: `(flat / 1) % 512`. -/
def cols (e : Ev) : IVec S130816 32 :=
  remainder e (floorDivide e (flat (F := F) e) (constantI S_ 32 1#32)) (constantI S_ 32 512#32)

end Stages

/-! ## The stages' values at the ideal instance -/

/-- A flat position of the 512 × 512 grid lies strictly above the diagonal: its row is less than its column. -/
abbrev Above (g : ℕ) : Prop := g / 512 < g % 512

/-- The mask at row `r`, column `c`: one exactly when `r < c`. -/
theorem mask_apply (e : Ev) (r c : Fin 512) :
    mask (F := Ideal) e (ix2 r c) = BitVec.ofNat 1 (if r.val < c.val then 1 else 0) := by
  show Ideal.cmp .une
      (Scalar.select (IntOp.cmpi .sge (IntOp.addi (BitVec.ofNat 32 r.val) 0#32) (BitVec.ofNat 32 c.val))
        (Ideal.ofBits .f32 0x00000000#32) (Ideal.ofBits .f32 0x3F800000#32))
      (Ideal.ofBits .f32 0x00000000#32) = _
  rw [Ideal.ofBits_zero_f32, Ideal.ofBits_one_f32]
  have hadd : IntOp.addi (BitVec.ofNat 32 r.val) 0#32 = BitVec.ofNat 32 r.val := BitVec.add_zero _
  rw [hadd]
  have hr := r.isLt
  have hc := c.isLt
  have hsle : (BitVec.ofNat 32 c.val).sle (BitVec.ofNat 32 r.val) = decide (c.val ≤ r.val) := by
    rw [BitVec.sle_eq_decide, WordArith.toInt_ofNat_small _ (by omega), WordArith.toInt_ofNat_small _ (by omega)]
    exact decide_eq_decide.mpr (by omega)
  have hcmp : IntOp.cmpi .sge (BitVec.ofNat 32 r.val) (BitVec.ofNat 32 c.val) = BitVec.ofBool (decide (c.val ≤ r.val)) := by
    show BitVec.ofBool ((BitVec.ofNat 32 c.val).sle (BitVec.ofNat 32 r.val)) = _
    rw [hsle]
  rw [hcmp]
  by_cases h : r.val < c.val
  · rw [if_pos h, decide_eq_false (by omega : ¬c.val ≤ r.val)]
    show Ideal.cmp .une (Scalar.select 0#1 (0 : EReal) 1) 0 = _
    rw [select_zero]
    show BitVec.ofBool (decide ((1 : EReal) ≠ 0)) = _
    rw [decide_eq_true (one_ne_zero)]; rfl
  · rw [if_neg h, decide_eq_true (by omega : c.val ≤ r.val)]
    show Ideal.cmp .une (Scalar.select 1#1 (0 : EReal) 1) 0 = _
    rw [select_one]
    show BitVec.ofBool (decide ((0 : EReal) ≠ 0)) = _
    rw [decide_eq_false (by simp)]; rfl

/-- The flattened mask as a 32-bit word at flat position `i`: one exactly above the diagonal. -/
theorem maskWord_apply (e : Ev) (i : Fin 262144) :
    extui 32 (shapeCast S262144 (mask (F := Ideal) e) e.shapeCasts_S512x512_S262144) e.natLt_1_32 (ix1 i)
      = BitVec.ofNat 32 (if Above i.val then 1 else 0) := by
  have hi := i.isLt
  show (shapeCast S262144 (mask (F := Ideal) e) e.shapeCasts_S512x512_S262144 (ix1 i)).setWidth 32 = _
  rw [shapeCast_apply _ _ (ix1 i) (ix2 (⟨i.val / 512, by omega⟩ : Fin 512) (⟨i.val % 512, by omega⟩ : Fin 512)) (by
    rw [Shape.rowMajor_val_two, Shape.rowMajor_val_one]
    show i.val / 512 * 512 + i.val % 512 = i.val
    omega)]
  rw [mask_apply]
  show (BitVec.ofNat 1 (if i.val / 512 < i.val % 512 then 1 else 0)).setWidth 32 = _
  by_cases h : i.val / 512 < i.val % 512
  · rw [if_pos h]; rfl
  · rw [if_neg h]; rfl

/-- The prefix sum at `f`: the number of entries above the diagonal among the positions `0 … f`. -/
theorem c1_apply (e : Ev) (f : Fin 262144) :
    c1 (F := Ideal) e (ix1 f) = BitVec.ofNat 32 (Nat.count Above (f.val + 1)) := by
  unfold c1
  refine (reduceWindow_cumsum_apply (n := 262144) (lo := 262143) rfl _ _ rfl _ _ f).trans ?_
  exact sum_le_indicator Above _ (fun i => maskWord_apply e i) f

/-- A prefix count over at most 262144 positions is below `2³¹`. -/
theorem count_small (f : Fin 262144) : Nat.count Above (f.val + 1) < 2 ^ 31 := by
  have := Nat.count_le (p := Above) (n := f.val + 1)
  have := f.isLt
  omega

/-- The clip and the wrap leave the prefix sum as it is: it is never negative. -/
theorem wrapped_apply (e : Ev) (f : Fin 262144) :
    wrapped (F := Ideal) e (ix1 f) = BitVec.ofNat 32 (Nat.count Above (f.val + 1)) := by
  have h1 : clipped (F := Ideal) e (ix1 f) = BitVec.ofNat 32 (Nat.count Above (f.val + 1)) := by
    show IntOp.maxsi 0#32 (c1 (F := Ideal) e (ix1 f)) = _
    rw [c1_apply, maxsi_zero_ofNat (count_small f)]
  show Scalar.select (IntOp.cmpi .slt (clipped (F := Ideal) e (ix1 f)) 0#32)
      (IntOp.addi (clipped (F := Ideal) e (ix1 f)) 130816#32) (clipped (F := Ideal) e (ix1 f)) = _
  rw [h1]
  exact wrap_word _ (count_small f) _

/-- The bincount at `v`: the number of positions whose prefix count is `v`. -/
theorem bincount_apply (e : Ev) (v : Fin 130816) :
    bincount (F := Ideal) e (ix1 v) = BitVec.ofNat 32 #{f ∈ range 262144 | Nat.count Above (f + 1) = v.val} := by
  unfold bincount
  refine (scatter_addi_apply (n := 130816) (m := 262144) e.scatter_wf _ _ _ v).trans ?_
  have hz : (broadcastInDim S130816 ![] e.bcast_S_S130816 (constantI S_ 32 0#32)) (ix1 v) = 0#32 := rfl
  have hidx : ∀ f : Fin 262144,
      (broadcastInDim S262144x1 ![0] e.bcast_S262144_S262144x1_0 (wrapped (F := Ideal) e)) (ix2 f 0)
        = BitVec.ofNat 32 (Nat.count Above (f.val + 1)) := by
    intro f
    rw [broadcastInDim_apply _ _ _ _ (ix1 f) (fun a => by
      match a with
      | ⟨0, _⟩ => rfl)]
    exact wrapped_apply e f
  rw [hz, BitVec.zero_add]
  have hfilter : (Finset.univ.filter fun f : Fin 262144 =>
        ((broadcastInDim S262144x1 ![0] e.bcast_S262144_S262144x1_0 (wrapped (F := Ideal) e)) (ix2 f 0)).toInt = (v.val : ℤ))
      = Finset.univ.filter fun f : Fin 262144 => Nat.count Above (f.val + 1) = v.val := by
    refine Finset.filter_congr fun f _ => ?_
    rw [hidx, WordArith.toInt_ofNat_small _ (count_small f)]
    exact Nat.cast_inj
  rw [hfilter]
  have hone : ∀ f : Fin 262144, (broadcastInDim S262144 ![] e.bcast_S_S262144 (constantI S_ 32 1#32)) (ix1 f) = BitVec.ofNat 32 1 :=
    fun _ => rfl
  rw [Finset.sum_congr rfl (fun f _ => hone f), sum_one_eq_card,
    card_fin_filter (fun f => Nat.count Above (f + 1) = v.val)]

/-- There are 130816 entries above the diagonal: every `p` below that has its entry. -/
theorem lt_count (p : Fin 130816) : p.val < Nat.count Above 262144 := by
  rw [show Nat.count Above 262144 = 130816 from count_triu_512]; exact p.isLt

/-- THE FLAT POSITIONS: `flat` at `p` is the position of the `(p+1)`-th entry above the diagonal. -/
theorem flat_apply (e : Ev) (p : Fin 130816) : flat (F := Ideal) e (ix1 p) = BitVec.ofNat 32 (Nat.nth Above p.val) := by
  unfold flat
  refine (reduceWindow_cumsum_apply (n := 130816) (lo := 130815) rfl _ _ rfl _ _ p).trans ?_
  rw [Finset.sum_congr rfl (fun v _ => bincount_apply e v), sum_ofNat,
    sum_fin_le (fun v => #{f ∈ range 262144 | Nat.count Above (f + 1) = v}) p,
    sum_card_filter_count_eq, card_filter_count_succ_le (lt_count p)]

/-- `floor_divide` at an index, on an entry that is a natural number below `2³¹` and a positive literal divisor. -/
theorem floorDivide_apply (e : Ev) (x : IVec S130816 32) (p : Fin 130816) {a k : ℕ} (hx : x (ix1 p) = BitVec.ofNat 32 a)
    (ha : a < 2 ^ 31) (hk0 : 0 < k) (hk : k < 2 ^ 31) :
    floorDivide e x (constantI S_ 32 (BitVec.ofNat 32 k)) (ix1 p) = BitVec.ofNat 32 (a / k) := by
  show Scalar.select
      (IntOp.andi (IntOp.cmpi .ne (sgnWord (x (ix1 p))) (sgnWord (BitVec.ofNat 32 k)))
        (IntOp.cmpi .ne (IntOp.remsi .host (x (ix1 p)) (BitVec.ofNat 32 k)) 0#32))
      (IntOp.subi (IntOp.divsi .host (x (ix1 p)) (BitVec.ofNat 32 k)) 1#32)
      (IntOp.divsi .host (x (ix1 p)) (BitVec.ofNat 32 k)) = _
  rw [hx]
  exact floorDivide_word .host ha hk0 hk

/-- `remainder` at an index, likewise. -/
theorem remainder_apply (e : Ev) (x : IVec S130816 32) (p : Fin 130816) {a k : ℕ} (hx : x (ix1 p) = BitVec.ofNat 32 a)
    (ha : a < 2 ^ 31) (hk0 : 0 < k) (hk : k < 2 ^ 31) :
    remainder e x (constantI S_ 32 (BitVec.ofNat 32 k)) (ix1 p) = BitVec.ofNat 32 (a % k) := by
  show Scalar.select
      (IntOp.andi
        (IntOp.cmpi .ne
          (IntOp.cmpi .slt (IntOp.remsi .host (x (ix1 p))
            (Scalar.select (IntOp.cmpi .eq (BitVec.ofNat 32 k) 0#32) 1#32 (BitVec.ofNat 32 k))) 0#32)
          (IntOp.cmpi .slt (Scalar.select (IntOp.cmpi .eq (BitVec.ofNat 32 k) 0#32) 1#32 (BitVec.ofNat 32 k)) 0#32))
        (IntOp.cmpi .ne (IntOp.remsi .host (x (ix1 p))
            (Scalar.select (IntOp.cmpi .eq (BitVec.ofNat 32 k) 0#32) 1#32 (BitVec.ofNat 32 k))) 0#32))
      (IntOp.addi (IntOp.remsi .host (x (ix1 p))
            (Scalar.select (IntOp.cmpi .eq (BitVec.ofNat 32 k) 0#32) 1#32 (BitVec.ofNat 32 k)))
        (Scalar.select (IntOp.cmpi .eq (BitVec.ofNat 32 k) 0#32) 1#32 (BitVec.ofNat 32 k)))
      (IntOp.remsi .host (x (ix1 p))
            (Scalar.select (IntOp.cmpi .eq (BitVec.ofNat 32 k) 0#32) 1#32 (BitVec.ofNat 32 k))) = _
  rw [hx]
  exact remainder_word .host ha hk0 hk

/-- The position of the `(p+1)`-th entry above the diagonal is inside the grid, and above the diagonal. -/
theorem nth_spec (p : Fin 130816) : Nat.nth Above p.val < 262144 ∧ Above (Nat.nth Above p.val) :=
  ⟨nth_lt_of_lt_count' (lt_count p), nth_mem_of_lt_count (lt_count p)⟩

/-- The row index at `p`: the row of that position. -/
theorem rows_apply (e : Ev) (p : Fin 130816) :
    rows (F := Ideal) e (ix1 p) = BitVec.ofNat 32 (Nat.nth Above p.val / 512 % 512) := by
  have ht := (nth_spec p).1
  unfold rows
  refine remainder_apply e _ p (floorDivide_apply e _ p (flat_apply e p) (by omega) (by norm_num) (by norm_num))
    ?_ (by norm_num) (by norm_num)
  have := Nat.div_le_self (Nat.nth Above p.val) 512
  omega

/-- The column index at `p`: the column of that position. -/
theorem cols_apply (e : Ev) (p : Fin 130816) :
    cols (F := Ideal) e (ix1 p) = BitVec.ofNat 32 (Nat.nth Above p.val / 1 % 512) := by
  have ht := (nth_spec p).1
  unfold cols
  refine remainder_apply e _ p (floorDivide_apply e _ p (flat_apply e p) (by omega) (by norm_num) (by norm_num))
    ?_ (by norm_num) (by norm_num)
  have := Nat.div_le_self (Nat.nth Above p.val) 1
  omega

/-! ## Every pair's row lies below its column -/

/-- THE PAIRS: entry `p` of the two index lists is a pair `(r, c)` with `r < c < 512`. -/
theorem pair_spec (e : Ev) (p : Fin 130816) :
    ∃ r c : ℕ, r < c ∧ c < 512 ∧ rows (F := Ideal) e (ix1 p) = BitVec.ofNat 32 r ∧
      cols (F := Ideal) e (ix1 p) = BitVec.ofNat 32 c := by
  obtain ⟨ht, hab⟩ := nth_spec p
  refine ⟨Nat.nth Above p.val / 512 % 512, Nat.nth Above p.val / 1 % 512, ?_, ?_, rows_apply e p, cols_apply e p⟩
  · have h : Nat.nth Above p.val / 512 < Nat.nth Above p.val % 512 := hab
    rw [Nat.div_one]
    omega
  · exact Nat.mod_lt _ (by norm_num)

theorem rows_lt_cols (e : Ev) (p : Fin 130816) :
    (rows (F := Ideal) e (ix1 p)).toNat < (cols (F := Ideal) e (ix1 p)).toNat := by
  obtain ⟨r, c, hrc, hc, hr', hc'⟩ := pair_spec e p
  rw [hr', hc', toNat_ofNat_small (by omega), toNat_ofNat_small (by omega)]
  exact hrc

theorem cols_lt (e : Ev) (p : Fin 130816) : (cols (F := Ideal) e (ix1 p)).toNat < 512 := by
  obtain ⟨r, c, hrc, hc, hr', hc'⟩ := pair_spec e p
  rw [hc', toNat_ofNat_small (by omega)]
  exact hc

/-- The negative-index wrap in front of a gather leaves a natural number below 512 unchanged. -/
theorem wrap_word (k : ℕ) (hk : k < 512) :
    Scalar.select (IntOp.cmpi .slt (BitVec.ofNat 32 k) 0#32) (IntOp.addi (BitVec.ofNat 32 k) 512#32) (BitVec.ofNat 32 k)
      = BitVec.ofNat 32 k :=
  TriuIndex.wrap_word k (by omega) _

/-- The negative-index wrap of the row indices is the row indices. -/
theorem wrap_rows (e : Ev) :
    select (cmpi .slt (rows (F := Ideal) e) (broadcastInDim S130816 ![] e.bcast_S_S130816 (constantI S_ 32 0#32)))
      (addi (rows (F := Ideal) e) (broadcastInDim S130816 ![] e.bcast_S_S130816 (constantI S_ 32 512#32)))
      (rows (F := Ideal) e) = rows (F := Ideal) e := by
  funext j
  obtain ⟨r, c, hrc, hc, hr', -⟩ := pair_spec e (j 0)
  have hj : rows (F := Ideal) e j = BitVec.ofNat 32 r := by rw [eq_ix1 j]; exact hr'
  show Scalar.select (IntOp.cmpi .slt (rows (F := Ideal) e j) 0#32)
      (IntOp.addi (rows (F := Ideal) e j) 512#32) (rows (F := Ideal) e j) = rows (F := Ideal) e j
  rw [hj]
  exact wrap_word r (by omega)

/-- The negative-index wrap of the column indices is the column indices. -/
theorem wrap_cols (e : Ev) :
    select (cmpi .slt (cols (F := Ideal) e) (broadcastInDim S130816 ![] e.bcast_S_S130816 (constantI S_ 32 0#32)))
      (addi (cols (F := Ideal) e) (broadcastInDim S130816 ![] e.bcast_S_S130816 (constantI S_ 32 512#32)))
      (cols (F := Ideal) e) = cols (F := Ideal) e := by
  funext j
  obtain ⟨r, c, hrc, hc, -, hc'⟩ := pair_spec e (j 0)
  have hj : cols (F := Ideal) e j = BitVec.ofNat 32 c := by rw [eq_ix1 j]; exact hc'
  show Scalar.select (IntOp.cmpi .slt (cols (F := Ideal) e j) 0#32)
      (IntOp.addi (cols (F := Ideal) e j) 512#32) (cols (F := Ideal) e j) = cols (F := Ideal) e j
  rw [hj]
  exact wrap_word c hc

end Cert.TriuPairs

end
-- ==== Proof.KIndex.WA.lean ====
import proofs.«145914_j27221502722563_2_alg».proof.Proof.KIndex.Ops
import proofs.«145914_j27221502722563_2_alg».proof.Proof.TriuPairs

/-!
# The first window read back: the running count of the mask

The running sum is a fold over 262144 positions: the read-back is proved with it an arbitrary function, then
instantiated.
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- The count buffer after the window, the running sum a parameter: the parameter applied to the widened, flattened
    mask and the zero it starts from. -/
theorem KA'_v11 (R1 : (⟨S262144, .i32⟩ : BufTy).Contents (Elt F) → (⟨S_, .i32⟩ : BufTy).Contents (Elt F) → (⟨S262144, .i32⟩ : BufTy).Contents (Elt F)) (V : Valuation τ sig (Elt F)) :
    after (KA' R1) V (Proc.devRef .tc main_call0_v11)
      = R1 (extui 32 (shapeCast Cert.ReferenceIdeal.S262144 (Cert.TriuPairs.mask (F := F) ev) ev.shapeCasts_S512x512_S262144) ev.natLt_1_32)
          (broadcastInDim Cert.ReferenceIdeal.S_ ![] ev.bcast_S_S_ (constantI Cert.ReferenceIdeal.S_ 32 0#32)) := by
  simp only [KA']
  open_calls
  after_results_simp
  simp only [cast_eq]
  rfl

/-- The count buffer after the window: the running count of the mask (the window reads nothing it does not write). -/
theorem KA_v11 (V : Valuation τ sig (Elt F)) :
    after (KA' sum1) V (Proc.devRef .tc main_call0_v11) = Cert.TriuPairs.c1 (F := F) ev :=
  (KA'_v11 sum1 V).trans rfl

/-- The window leaves the score matrix as it was. -/
theorem KA_keep_v6 (R1 : (⟨S262144, .i32⟩ : BufTy).Contents (Elt F) → (⟨S_, .i32⟩ : BufTy).Contents (Elt F) → (⟨S262144, .i32⟩ : BufTy).Contents (Elt F)) (V : Valuation τ sig (Elt F)) :
    after (KA' R1) V (Proc.devRef .tc main_call0_v6) = V (Proc.devRef .tc main_call0_v6) := by
  simp only [KA']
  open_calls
  after_results_simp

end Cert.KIndex

end
-- ==== Proof.KIndex.WB.lean ====
import proofs.«145914_j27221502722563_2_alg».proof.Proof.KIndex.Ops
import proofs.«145914_j27221502722563_2_alg».proof.Proof.TriuPairs

/-!
# The second window read back: each pair's flat position

The scatter and the running sum are folds over the whole arrays: the read-back is proved with them arbitrary functions,
then instantiated. The window reads the count buffer; its contents are a variable.
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- The count clipped below at zero. -/
def clipOf (e : Ev) (c : IVec Cert.ReferenceIdeal.S262144 32) : IVec Cert.ReferenceIdeal.S262144 32 :=
  maxsi (broadcastInDim Cert.ReferenceIdeal.S262144 ![] e.bcast_S_S262144 (id (constantI Cert.ReferenceIdeal.S_ 32 0#32))) c

/-- A negative entry moved up by the number of bins. -/
def wrapOf (e : Ev) (x : IVec Cert.ReferenceIdeal.S262144 32) : IVec Cert.ReferenceIdeal.S262144 32 :=
  select (cmpi .slt x (broadcastInDim Cert.ReferenceIdeal.S262144 ![] e.bcast_S_S262144 (constantI Cert.ReferenceIdeal.S_ 32 0#32)))
    (addi x (broadcastInDim Cert.ReferenceIdeal.S262144 ![] e.bcast_S_S262144 (constantI Cert.ReferenceIdeal.S_ 32 130816#32))) x

/-- The flat positions from a count `c`, the scatter and the running sum parameters. -/
def flatOf (e : Ev) (Sc : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R2 : (⟨S130816, .i32⟩ : BufTy).Contents (Elt F) → (⟨S_, .i32⟩ : BufTy).Contents (Elt F) → (⟨S130816, .i32⟩ : BufTy).Contents (Elt F)) (c : IVec Cert.ReferenceIdeal.S262144 32) : IVec Cert.ReferenceIdeal.S130816 32 :=
  R2 (Sc (broadcastInDim Cert.ReferenceIdeal.S130816 ![] e.bcast_S_S130816 (constantI Cert.ReferenceIdeal.S_ 32 0#32))
      (broadcastInDim Cert.ReferenceIdeal.S262144x1 ![0] e.bcast_S262144_S262144x1_0 (wrapOf e (clipOf e c)))
      (broadcastInDim Cert.ReferenceIdeal.S262144 ![] e.bcast_S_S262144 (constantI Cert.ReferenceIdeal.S_ 32 1#32)))
    (broadcastInDim Cert.ReferenceIdeal.S_ ![] e.bcast_S_S_ (constantI Cert.ReferenceIdeal.S_ 32 0#32))

/-- The flat-position buffer after the window, from contents whose count buffer holds `c`. -/
theorem KB'_v22 (Sc : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R2 : (⟨S130816, .i32⟩ : BufTy).Contents (Elt F) → (⟨S_, .i32⟩ : BufTy).Contents (Elt F) → (⟨S130816, .i32⟩ : BufTy).Contents (Elt F)) (V : Valuation τ sig (Elt F))
    (c : IVec Cert.ReferenceIdeal.S262144 32) (hc : V (Proc.devRef .tc main_call0_v11) = c) :
    after (KB' Sc R2) V (Proc.devRef .tc main_call0_v22) = flatOf ev Sc R2 c := by
  subst hc
  simp only [KB']
  open_calls
  after_results_simp
  simp only [cast_eq]
  rfl

/-- At the running count of the mask, with the printed scatter and running sum: the index chain's flat positions. -/
theorem flatOf_c1 : flatOf ev (scat (F := F)) (sum2 (F := F)) (Cert.TriuPairs.c1 (F := F) ev) = Cert.TriuPairs.flat (F := F) ev := by
  have h1 : clipOf ev (Cert.TriuPairs.c1 (F := F) ev) = Cert.TriuPairs.clipped (F := F) ev := rfl
  have h2 : wrapOf ev (Cert.TriuPairs.clipped (F := F) ev) = Cert.TriuPairs.wrapped (F := F) ev := rfl
  have h3 : scat (F := F) (broadcastInDim Cert.ReferenceIdeal.S130816 ![] ev.bcast_S_S130816 (constantI Cert.ReferenceIdeal.S_ 32 0#32))
      (broadcastInDim Cert.ReferenceIdeal.S262144x1 ![0] ev.bcast_S262144_S262144x1_0 (Cert.TriuPairs.wrapped (F := F) ev))
      (broadcastInDim Cert.ReferenceIdeal.S262144 ![] ev.bcast_S_S262144 (constantI Cert.ReferenceIdeal.S_ 32 1#32)) = Cert.TriuPairs.bincount (F := F) ev := rfl
  have h4 : sum2 (F := F) (Cert.TriuPairs.bincount (F := F) ev) (broadcastInDim Cert.ReferenceIdeal.S_ ![] ev.bcast_S_S_ (constantI Cert.ReferenceIdeal.S_ 32 0#32))
      = Cert.TriuPairs.flat (F := F) ev := rfl
  unfold flatOf
  rw [h1, h2, h3, h4]

/-- The flat-position buffer after the window, from contents whose count buffer holds the mask's running count. -/
theorem KB_v22 (V : Valuation τ sig (Elt F)) (hc : V (Proc.devRef .tc main_call0_v11) = Cert.TriuPairs.c1 (F := F) ev) :
    after (KB' scat sum2) V (Proc.devRef .tc main_call0_v22) = Cert.TriuPairs.flat (F := F) ev :=
  (KB'_v22 scat sum2 V _ hc).trans flatOf_c1

/-- The window leaves the score matrix as it was. -/
theorem KB_keep_v6 (Sc : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F))
    (R2 : (⟨S130816, .i32⟩ : BufTy).Contents (Elt F) → (⟨S_, .i32⟩ : BufTy).Contents (Elt F) → (⟨S130816, .i32⟩ : BufTy).Contents (Elt F)) (V : Valuation τ sig (Elt F)) :
    after (KB' Sc R2) V (Proc.devRef .tc main_call0_v6) = V (Proc.devRef .tc main_call0_v6) := by
  simp only [KB']
  open_calls
  after_results_simp

end Cert.KIndex

end
-- ==== Proof.KIndex.WC.lean ====
import proofs.«145914_j27221502722563_2_alg».proof.Proof.KIndex.Ops
import proofs.«145914_j27221502722563_2_alg».proof.Proof.TriuPairs

/-!
# The third window read back: the row indices from the flat positions
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- The index buffer after the window, from contents whose flat-position buffer holds `x`: the remainder by 512 of
    the floor division of `x` by 512. -/
theorem KC_idx (V : Valuation τ sig (Elt F)) (x : IVec Cert.ReferenceIdeal.S130816 32) (hx : V (Proc.devRef .tc main_call0_v22) = x) :
    after KC V (Proc.devRef .tc main_v0_0)
      = Cert.TriuPairs.remainder ev (Cert.TriuPairs.floorDivide ev x (constantI Cert.ReferenceIdeal.S_ 32 512#32)) (constantI Cert.ReferenceIdeal.S_ 32 512#32) := by
  subst hx
  simp only [KC]
  open_calls
  after_results_simp
  simp only [cast_eq]
  rfl

/-- The window leaves the flat positions as they were. -/
theorem KC_keep_v22 (V : Valuation τ sig (Elt F)) :
    after KC V (Proc.devRef .tc main_call0_v22) = V (Proc.devRef .tc main_call0_v22) := by
  simp only [KC]
  open_calls
  after_results_simp

/-- The window leaves the score matrix as it was. -/
theorem KC_keep_v6 (V : Valuation τ sig (Elt F)) :
    after KC V (Proc.devRef .tc main_call0_v6) = V (Proc.devRef .tc main_call0_v6) := by
  simp only [KC]
  open_calls
  after_results_simp

end Cert.KIndex

end
-- ==== Proof.KIndex.WD.lean ====
import proofs.«145914_j27221502722563_2_alg».proof.Proof.KIndex.Ops
import proofs.«145914_j27221502722563_2_alg».proof.Proof.TriuPairs

/-!
# The fourth window read back: the column indices from the flat positions
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- The index buffer after the window, from contents whose flat-position buffer holds `x`: the remainder by 512 of
    the floor division of `x` by 1. -/
theorem KD_idx (V : Valuation τ sig (Elt F)) (x : IVec Cert.ReferenceIdeal.S130816 32) (hx : V (Proc.devRef .tc main_call0_v22) = x) :
    after KD V (Proc.devRef .tc main_v0_1)
      = Cert.TriuPairs.remainder ev (Cert.TriuPairs.floorDivide ev x (constantI Cert.ReferenceIdeal.S_ 32 1#32)) (constantI Cert.ReferenceIdeal.S_ 32 512#32) := by
  subst hx
  simp only [KD]
  open_calls
  after_results_simp
  simp only [cast_eq]
  rfl

/-- The window leaves the flat positions as they were. -/
theorem KD_keep_v22 (V : Valuation τ sig (Elt F)) :
    after KD V (Proc.devRef .tc main_call0_v22) = V (Proc.devRef .tc main_call0_v22) := by
  simp only [KD]
  open_calls
  after_results_simp

/-- The window leaves the score matrix as it was. -/
theorem KD_keep_v6 (V : Valuation τ sig (Elt F)) :
    after KD V (Proc.devRef .tc main_call0_v6) = V (Proc.devRef .tc main_call0_v6) := by
  simp only [KD]
  open_calls
  after_results_simp

/-- The window leaves the row indices as they were. -/
theorem KD_keep_v0_0 (V : Valuation τ sig (Elt F)) :
    after KD V (Proc.devRef .tc main_v0_0) = V (Proc.devRef .tc main_v0_0) := by
  simp only [KD]
  open_calls
  after_results_simp

end Cert.KIndex

end
-- ==== Proof.KIndex.WE.lean ====
import proofs.«145914_j27221502722563_2_alg».proof.Proof.KIndex.Ops
import proofs.«145914_j27221502722563_2_alg».proof.Proof.TriuPairs

/-!
# The last window read back: the gather of the score matrix at the index pairs
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- A negative index moved up by 512. -/
def wrap512 (x : IVec S130816 32) : IVec S130816 32 :=
  select (cmpi .slt x (broadcastInDim S130816 ![] bcast_S_S130816 (constantI S_ 32 0#32)))
    (addi x (broadcastInDim S130816 ![] bcast_S_S130816 (constantI S_ 32 512#32))) x

/-- The scores gathered at the pairs: the matrix `S` at the (wrapped) row index `xi` and column index `xj` of each
    pair, as a column. -/
def gathered (S : FVec F S512x512 .f32) (xi xj : IVec S130816 32) : FVec F S130816x1 .f32 :=
  shapeCast S130816x1
    (Host.gather gather_S512x512_S130816x2_S130816_n_01_n_n_01_1_11 S
      (concatenate S130816x2 1
        [⟨S130816x1, broadcastInDim S130816x1 ![0] bcast_S130816_S130816x1_0 (wrap512 xi)⟩,
         ⟨S130816x1, broadcastInDim S130816x1 ![0] bcast_S130816_S130816x1_0 (wrap512 xj)⟩]
        concatenates_S130816x1_S130816x1_S130816x2_d1))
    shapeCasts_S130816_S130816x1

/-- The result buffer after the window, from contents holding the score matrix `S` and the index lists `xi`, `xj`. -/
theorem KE_scores (V : Valuation τ sig (Elt F)) (S : FVec F S512x512 .f32) (xi xj : IVec S130816 32)
    (hS : V (Proc.devRef .tc main_call0_v6) = S) (hi : V (Proc.devRef .tc main_v0_0) = xi)
    (hj : V (Proc.devRef .tc main_v0_1) = xj) :
    after KE V (Proc.devRef .tc main_v0_2) = gathered S xi xj := by
  subst hS hi hj
  simp only [KE]
  open_calls
  after_results_simp
  simp only [cast_eq]
  rfl

/-- The window leaves the row indices as they were. -/
theorem KE_keep_v0_0 (V : Valuation τ sig (Elt F)) :
    after KE V (Proc.devRef .tc main_v0_0) = V (Proc.devRef .tc main_v0_0) := by
  simp only [KE]
  open_calls
  after_results_simp

/-- The window leaves the column indices as they were. -/
theorem KE_keep_v0_1 (V : Valuation τ sig (Elt F)) :
    after KE V (Proc.devRef .tc main_v0_1) = V (Proc.devRef .tc main_v0_1) := by
  simp only [KE]
  open_calls
  after_results_simp

end Cert.KIndex

end
-- ==== Proof.KIndex.lean ====
import proofs.«145914_j27221502722563_2_alg».proof.Proof.KIndex.WA
import proofs.«145914_j27221502722563_2_alg».proof.Proof.KIndex.WB
import proofs.«145914_j27221502722563_2_alg».proof.Proof.KIndex.WC
import proofs.«145914_j27221502722563_2_alg».proof.Proof.KIndex.WD
import proofs.«145914_j27221502722563_2_alg».proof.Proof.KIndex.WE

/-!
# The kernel program's last host stretch read back: the index lists and the gathered scores

From any contents, the stretch leaves the row and column index lists of the strict upper triangle in its two index
results — the index chain's stages `rows` and `cols` — and in its third result the score matrix it found in the second
launch's output buffer, gathered at those pairs. The stretch is read window by window; between two windows only the
one buffer the next window reads is carried, as a variable.
-/

noncomputable section

namespace Cert.KIndex

open Cert.KernelIdeal Cert.KernelIdeal.Gen Idealize.ShloMosaic Idealize.ShloMosaic.TcCoe Idealize.SL.Sem Idealize.ShloMosaic.StableHlo
open Cert.TriuPairs (Ev ev)

variable {F : FTy → Type} [FloatOps F]

/-- The flat positions after the first two windows. -/
theorem AB_v22 (V : Valuation τ sig (Elt F)) :
    after (KB' scat sum2) (after (KA' sum1) V) (Proc.devRef .tc main_call0_v22) = Cert.TriuPairs.flat (F := F) ev :=
  KB_v22 _ (KA_v11 V)

/-- The row indices after the first three windows. -/
theorem ABC_v0_0 (V : Valuation τ sig (Elt F)) :
    after KC (after (KB' scat sum2) (after (KA' sum1) V)) (Proc.devRef .tc main_v0_0) = Cert.TriuPairs.rows (F := F) ev :=
  (KC_idx _ _ (AB_v22 V)).trans rfl

/-- The column indices after the first four windows. -/
theorem ABCD_v0_1 (V : Valuation τ sig (Elt F)) :
    after KD (after KC (after (KB' scat sum2) (after (KA' sum1) V))) (Proc.devRef .tc main_v0_1)
      = Cert.TriuPairs.cols (F := F) ev :=
  (KD_idx _ _ ((KC_keep_v22 _).trans (AB_v22 V))).trans rfl

/-- THE ROW INDICES: the stretch leaves the index chain's `rows` in its first result, from any contents. -/
theorem k_rows (V : Valuation τ sig (Elt F)) :
    after (hostOps2 (F := F)) V (Proc.devRef .tc main_v0_0) = Cert.TriuPairs.rows (F := F) ev := by
  rw [after_hostOps2, KE_keep_v0_0, KD_keep_v0_0]
  exact ABC_v0_0 V

/-- THE COLUMN INDICES: the stretch leaves the index chain's `cols` in its second result, from any contents. -/
theorem k_cols (V : Valuation τ sig (Elt F)) :
    after (hostOps2 (F := F)) V (Proc.devRef .tc main_v0_1) = Cert.TriuPairs.cols (F := F) ev := by
  rw [after_hostOps2, KE_keep_v0_1]
  exact ABCD_v0_1 V

/-- THE SCORES: the stretch leaves in its third result the score matrix it found, gathered at the pairs. -/
theorem k_scores (V : Valuation τ sig (Elt F)) :
    after (hostOps2 (F := F)) V (Proc.devRef .tc main_v0_2)
      = gathered (V (Proc.devRef .tc main_call0_v6)) (Cert.TriuPairs.rows (F := F) ev) (Cert.TriuPairs.cols (F := F) ev) := by
  rw [after_hostOps2]
  refine KE_scores _ _ _ _ ?_ ?_ ?_
  · rw [KD_keep_v6, KC_keep_v6, KB_keep_v6, KA_keep_v6]
  · rw [KD_keep_v0_0]; exact ABC_v0_0 V
  · exact ABCD_v0_1 V

end Cert.KIndex

end
-- ==== Proof.KIndex.Ref.lean ====
import proofs.«145914_j27221502722563_2_alg».proof.Proof.RefRun.Terms
import proofs.«145914_j27221502722563_2_alg».proof.Proof.TriuPairs

/-!
# The reference's pair-index terms are the index chain's stages

The reference's two index results, written as closed terms of the printed operations, are the stages `rows` and
`cols` of the index chain: the two spellings agree operation by operation (the same operations over the same
operands; the side conditions are propositions, and `id x` is `x`). The identification goes stage by stage, each
stage's operand rewritten to the common name before the next is compared, so that no step holds more than one copy
of a stage.
-/

noncomputable section

namespace Cert.KIndex

open Idealize.ShloMosaic Cert.TriuPairs

variable {F : FTy → Type} [FloatOps F]

/-- The mask. -/
theorem ref_mask (e : Ev) : Cert.RefRun.mask F = mask (F := F) e := rfl

/-- The running count of the mask. -/
theorem ref_count (e : Ev) : Cert.RefRun.count4 F = c1 (F := F) e := by
  unfold Cert.RefRun.count4 c1
  rw [ref_mask e]

/-- The clipped count. -/
theorem ref_clip (e : Ev) : Cert.RefRun.clip6 F = clipped (F := F) e := by
  unfold Cert.RefRun.clip6 clipped
  rw [ref_count e]
  rfl

/-- The flat positions. -/
theorem ref_flat (e : Ev) : Cert.RefRun.flat15 F = flat (F := F) e := by
  unfold Cert.RefRun.flat15 flat bincount wrapped
  rw [ref_clip e]
  rfl

/-- Floor division by a scalar. -/
theorem ref_floorDiv (e : Ev) (x : IVec Cert.ReferenceIdeal.S130816 32) (d : IVec Cert.ReferenceIdeal.S_ 32) :
    Cert.RefRun.floorDiv x d = floorDivide e x d := rfl

/-- The divisor a remainder is taken by. -/
theorem ref_divisor (d : IVec Cert.ReferenceIdeal.S_ 32) : Cert.RefRun.divisor d = safeDivisor d := rfl

/-- The remainder by a scalar. -/
theorem ref_remainder (e : Ev) (x : IVec Cert.ReferenceIdeal.S130816 32) (d : IVec Cert.ReferenceIdeal.S_ 32) :
    Cert.RefRun.remainder x d = remainder e x d := by
  unfold Cert.RefRun.remainder remainder
  rw [ref_divisor d]

/-- The reference's first index result is the row indices. -/
theorem r_rows : Cert.RefRun.res17 F = rows (F := F) ev := by
  unfold Cert.RefRun.res17 rows
  rw [ref_flat ev, ref_floorDiv ev, ref_remainder ev]

/-- The reference's second index result is the column indices. -/
theorem r_cols : Cert.RefRun.res19 F = cols (F := F) ev := by
  unfold Cert.RefRun.res19 cols
  rw [ref_flat ev, ref_floorDiv ev, ref_remainder ev]

end Cert.KIndex

end
-- ==== Proof.KIndex.GatherAt.lean ====
import proofs.«145914_j27221502722563_2_alg».proof.Proof.KIndex.WE
import proofs.«145914_j27221502722563_2_alg».proof.Proof.TriuPairs

/-!
# The gathered scores read at a pair

The last window gathers the score matrix at two-component start indices `(xi p, xj p)`, each wrapped (a negative
index moved up by 512) and clamped into the matrix. Where both indices are natural numbers below 512 the wrap and the
clamp do nothing: entry `p` of the result is the matrix at row `xi p`, column `xj p`. At the index chain's pairs these
are `r < c < 512`.
-/

noncomputable section

namespace Cert.KIndex

open Cert.KernelIdeal Cert.KernelIdeal.Gen Idealize.ShloMosaic Idealize.ShloMosaic.ValueIdx Idealize.ShloMosaic.TriuIndex
open Cert.TriuPairs (Ev ev)

variable {F : FTy → Type} [FloatOps F]

/-- The gather's dimension numbers. -/
abbrev gd : GatherDims S512x512 S130816x2 S130816 := gather_S512x512_S130816x2_S130816_n_01_n_n_01_1_11

/-- The index array: the two wrapped lists side by side. -/
abbrev pairIdx (xi xj : IVec S130816 32) : IVec S130816x2 32 :=
  concatenate S130816x2 1
    [⟨S130816x1, broadcastInDim S130816x1 ![0] bcast_S130816_S130816x1_0 (wrap512 xi)⟩,
     ⟨S130816x1, broadcastInDim S130816x1 ![0] bcast_S130816_S130816x1_0 (wrap512 xj)⟩]
    concatenates_S130816x1_S130816x1_S130816x2_d1

/-- A wrapped index that is a natural number below 512 is itself. -/
theorem wrap512_apply (x : IVec S130816 32) (p : Fin 130816) (k : ℕ) (hk : k < 512) (hx : x (ix1 p) = BitVec.ofNat 32 k) :
    wrap512 x (ix1 p) = BitVec.ofNat 32 k := by
  show Scalar.select (IntOp.cmpi .slt (x (ix1 p)) 0#32) (IntOp.addi (x (ix1 p)) 512#32) (x (ix1 p)) = _
  rw [hx]
  exact Cert.TriuPairs.wrap_word k hk

/-- The index array's two columns at pair `p`: the wrapped row index and the wrapped column index. -/
theorem pairIdx_apply_left (xi xj : IVec S130816 32) (p : Fin 130816) :
    concatenate S130816x2 1
        [⟨S130816x1, broadcastInDim S130816x1 ![0] bcast_S130816_S130816x1_0 (wrap512 xi)⟩,
         ⟨S130816x1, broadcastInDim S130816x1 ![0] bcast_S130816_S130816x1_0 (wrap512 xj)⟩]
        concatenates_S130816x1_S130816x1_S130816x2_d1 (ix2 p (0 : Fin 2)) = wrap512 xi (ix1 p) := by
  refine (concatenate_pair_apply_left (t := S130816x2) (s₁ := S130816x1) (s₂ := S130816x1) (1 : Fin 2) _ _
    concatenates_S130816x1_S130816x1_S130816x2_d1 (ix2 p (0 : Fin 2)) rfl (ix2 p (0 : Fin 1)) (fun b => by
    match b with
    | ⟨0, _⟩ => rfl
    | ⟨1, _⟩ => rfl)).trans ?_
  exact broadcastInDim_apply _ _ _ _ (ix1 p) (fun a => by
    match a with
    | ⟨0, _⟩ => rfl)

theorem pairIdx_apply_right (xi xj : IVec S130816 32) (p : Fin 130816) :
    concatenate S130816x2 1
        [⟨S130816x1, broadcastInDim S130816x1 ![0] bcast_S130816_S130816x1_0 (wrap512 xi)⟩,
         ⟨S130816x1, broadcastInDim S130816x1 ![0] bcast_S130816_S130816x1_0 (wrap512 xj)⟩]
        concatenates_S130816x1_S130816x1_S130816x2_d1 (ix2 p (1 : Fin 2)) = wrap512 xj (ix1 p) := by
  refine (concatenate_pair_apply_right (t := S130816x2) (s₁ := S130816x1) (s₂ := S130816x1) (1 : Fin 2) _ _
    concatenates_S130816x1_S130816x1_S130816x2_d1 (ix2 p (1 : Fin 2)) rfl rfl (ix2 p (0 : Fin 1)) (fun b hb => by
    match b, hb with
    | ⟨0, _⟩, _ => rfl
    | ⟨1, _⟩, hb => exact absurd rfl hb) rfl).trans ?_
  exact broadcastInDim_apply _ _ _ _ (ix1 p) (fun a => by
    match a with
    | ⟨0, _⟩ => rfl)

/-- THE GATHER READ AT A PAIR: where the two index lists hold natural numbers `r`, `c` below 512 at `p`, entry `p` of
    the gathered column is the matrix at row `r`, column `c`. -/
theorem gathered_apply (S : FVec F S512x512 .f32) (xi xj : IVec S130816 32) (p : Fin 130816) (r c : ℕ)
    (hr : r < 512) (hc : c < 512) (hi : xi (ix1 p) = BitVec.ofNat 32 r) (hj : xj (ix1 p) = BitVec.ofNat 32 c) :
    gathered S xi xj (ix2 p (0 : Fin 1)) = S (ix2 (⟨r, hr⟩ : Fin 512) (⟨c, hc⟩ : Fin 512)) := by
  unfold gathered
  rw [shapeCast_apply _ _ (ix2 p (0 : Fin 1)) (ix1 p) (by
    rw [Shape.rowMajor_val_one, Shape.rowMajor_val_two]
    show p.val = p.val * 1 + 0
    omega)]
  unfold Host.gather
  refine congrArg S (funext fun a => Fin.ext ?_)
  have hstart0 : gd.start (ix1 p) (pairIdx xi xj) (0 : Fin 2) = r := by
    unfold GatherDims.start
    rw [dif_pos (show (0 : Fin 2) ∈ gd.startIndexMap from by decide)]
    have hsi : gd.siIdx (ix1 p) ⟨List.idxOf (0 : Fin 2) gd.startIndexMap,
        List.idxOf_lt_length_iff.2 (show (0 : Fin 2) ∈ gd.startIndexMap from by decide)⟩ = ix2 p (0 : Fin 2) := by
      funext b; refine Fin.ext ?_
      match b with
      | ⟨0, _⟩ => rfl
      | ⟨1, _⟩ => rfl
    rw [hsi]
    show min ((pairIdx xi xj) (ix2 p (0 : Fin 2))).toInt.toNat (512 - 1) = r
    rw [show pairIdx xi xj (ix2 p (0 : Fin 2)) = wrap512 xi (ix1 p) from pairIdx_apply_left xi xj p,
      wrap512_apply xi p r hr hi, WordArith.toInt_ofNat_small r (by omega), Int.toNat_natCast]
    omega
  have hstart1 : gd.start (ix1 p) (pairIdx xi xj) (1 : Fin 2) = c := by
    unfold GatherDims.start
    rw [dif_pos (show (1 : Fin 2) ∈ gd.startIndexMap from by decide)]
    have hsi : gd.siIdx (ix1 p) ⟨List.idxOf (1 : Fin 2) gd.startIndexMap,
        List.idxOf_lt_length_iff.2 (show (1 : Fin 2) ∈ gd.startIndexMap from by decide)⟩ = ix2 p (1 : Fin 2) := by
      funext b; refine Fin.ext ?_
      match b with
      | ⟨0, _⟩ => rfl
      | ⟨1, _⟩ => rfl
    rw [hsi]
    show min ((pairIdx xi xj) (ix2 p (1 : Fin 2))).toInt.toNat (512 - 1) = c
    rw [show pairIdx xi xj (ix2 p (1 : Fin 2)) = wrap512 xj (ix1 p) from pairIdx_apply_right xi xj p,
      wrap512_apply xj p c hc hj, WordArith.toInt_ofNat_small c (by omega), Int.toNat_natCast]
    omega
  match a with
  | ⟨0, _⟩ =>
    show gd.start (ix1 p) (pairIdx xi xj) (0 : Fin 2) + gd.batchCoord (ix1 p) (0 : Fin 2) + gd.offCoord (ix1 p) (0 : Fin 2) = r
    rw [hstart0, GatherDims.batchCoord_eq_zero _ _ _ (by decide),
      GatherDims.offCoord_eq_zero _ _ _ (fun h => ((GatherDims.mem_sKept _ _).mp h).1 (by decide))]
    rfl
  | ⟨1, _⟩ =>
    show gd.start (ix1 p) (pairIdx xi xj) (1 : Fin 2) + gd.batchCoord (ix1 p) (1 : Fin 2) + gd.offCoord (ix1 p) (1 : Fin 2) = c
    rw [hstart1, GatherDims.batchCoord_eq_zero _ _ _ (by decide),
      GatherDims.offCoord_eq_zero _ _ _ (fun h => ((GatherDims.mem_sKept _ _).mp h).1 (by decide))]
    rfl

/-- AT THE INDEX CHAIN'S PAIRS (the ideal instance): entry `p` of the scores gathered at `rows`, `cols` is the matrix at
    the pair `(r, c)` that the two lists hold at `p`, and `r < c < 512`. -/
theorem gathered_pairs (S : FVec Ideal S512x512 .f32) (p : Fin 130816) :
    ∃ (r c : ℕ) (hrc : r < c) (hc : c < 512),
      Cert.TriuPairs.rows (F := Ideal) ev (ix1 p) = BitVec.ofNat 32 r ∧
      Cert.TriuPairs.cols (F := Ideal) ev (ix1 p) = BitVec.ofNat 32 c ∧
      gathered S (Cert.TriuPairs.rows (F := Ideal) ev) (Cert.TriuPairs.cols (F := Ideal) ev) (ix2 p (0 : Fin 1))
        = S (ix2 (⟨r, by omega⟩ : Fin 512) (⟨c, hc⟩ : Fin 512)) := by
  obtain ⟨r, c, hrc, hc, hr', hc'⟩ := Cert.TriuPairs.pair_spec ev p
  exact ⟨r, c, hrc, hc, hr', hc', gathered_apply S _ _ p r c (by omega) hc hr' hc'⟩

end Cert.KIndex

end
-- ==== Proof.RefRead.lean ====
/-
  The reference's scores read at an index, at the ideal values: the score of pair `p` is the second affine layer of
  the rectified first affine layer of the concatenation of two rows of the embedding table, the rows being the two
  pair indices at `p`, each moved up by 512 when negative and then read signed and clamped into the table (the
  gather's own clamp). Every operand is a variable while one stage is read.
-/
import proofs.«145914_j27221502722563_2_alg».proof.Proof.RefRun.Terms
import Idealize.ShloMosaic.Lib.ValueIdx
import Idealize.ShloMosaic.Lib.StackMember
import Idealize.ShloMosaic.Lib.Pipeline.Value
import Idealize.ShloMosaic.PureOps.Ideal.Laws

noncomputable section

namespace Cert.RefRun

open Cert.ReferenceIdeal Cert.ReferenceIdeal.Gen Idealize.ShloMosaic Idealize.ShloMosaic.ValueIdx
open scoped BigOperators

/-! ## The row a start index reads -/

/-- A start index read signed and clamped into the table's 512 rows: what the gather does with it. -/
def clampRow (w : BitVec 32) : Fin 512 := ⟨min w.toInt.toNat 511, by omega⟩

/-- The row a pair index reads: moved up by 512 when negative, then clamped. -/
def rowOf (w : BitVec 32) : Fin 512 :=
  clampRow (Scalar.select (IntOp.cmpi .slt w 0#32) (IntOp.addi w 512#32) w)

/-- The row gather at `(p, d)`: the table at the clamped start index of `p`, column `d`. -/
theorem gather_rows_apply {α : Type} (E : S512x768.Idx → α) (idx : IVec S130816x1 32) (p : Fin 130816) (d : Fin 768) :
    Host.gather gather_S512x768_S130816x1_S130816x768_1_0_n_n_0_1_1768 E idx (ix2 p d) = E (ix2 (clampRow (idx (ix2 p (0 : Fin 1)))) d) := by
  unfold Host.gather
  congr 1
  funext a
  refine Fin.ext ?_
  match a with
  | ⟨0, _⟩ =>
    show gather_S512x768_S130816x1_S130816x768_1_0_n_n_0_1_1768.start (ix2 p d) idx 0 + gather_S512x768_S130816x1_S130816x768_1_0_n_n_0_1_1768.batchCoord (ix2 p d) 0 + gather_S512x768_S130816x1_S130816x768_1_0_n_n_0_1_1768.offCoord (ix2 p d) 0 = _
    rw [GatherDims.batchCoord_eq_zero _ _ _ (show (0 : Fin 2) ∉ ([] : List (Fin 2)) from List.not_mem_nil),
      GatherDims.offCoord_eq_zero _ _ _ (fun h => ((GatherDims.mem_sKept _ _).mp h).1 (show (0 : Fin 2) ∈ [(0 : Fin 2)] from List.mem_singleton.mpr rfl))]
    simp only [Nat.add_zero]
    unfold GatherDims.start
    rw [dif_pos (show (0 : Fin 2) ∈ gather_S512x768_S130816x1_S130816x768_1_0_n_n_0_1_1768.startIndexMap from List.mem_singleton.mpr rfl)]
    have hsi : gather_S512x768_S130816x1_S130816x768_1_0_n_n_0_1_1768.siIdx (ix2 p d) ⟨List.idxOf (0 : Fin 2) gather_S512x768_S130816x1_S130816x768_1_0_n_n_0_1_1768.startIndexMap,
        List.idxOf_lt_length_iff.2 (show (0 : Fin 2) ∈ gather_S512x768_S130816x1_S130816x768_1_0_n_n_0_1_1768.startIndexMap from List.mem_singleton.mpr rfl)⟩ = ix2 p (0 : Fin 1) := by
      funext b; refine Fin.ext ?_
      match b with
      | ⟨0, _⟩ => rfl
      | ⟨1, _⟩ => rfl
    rw [hsi]
    rfl
  | ⟨1, h1⟩ =>
    show gather_S512x768_S130816x1_S130816x768_1_0_n_n_0_1_1768.start (ix2 p d) idx ⟨1, h1⟩ + gather_S512x768_S130816x1_S130816x768_1_0_n_n_0_1_1768.batchCoord (ix2 p d) ⟨1, h1⟩ + gather_S512x768_S130816x1_S130816x768_1_0_n_n_0_1_1768.offCoord (ix2 p d) ⟨1, h1⟩ = d.val
    have hmem : (⟨1, h1⟩ : Fin S512x768.rank) ∈ gather_S512x768_S130816x1_S130816x768_1_0_n_n_0_1_1768.sKept :=
      (GatherDims.mem_sKept _ _).mpr ⟨(show (1 : Fin 2) ∉ [(0 : Fin 2)] from by decide),
        (show (⟨1, h1⟩ : Fin 2) ∉ ([] : List (Fin 2)) from List.not_mem_nil)⟩
    rw [GatherDims.batchCoord_eq_zero _ _ _ (show (⟨1, h1⟩ : Fin 2) ∉ ([] : List (Fin 2)) from List.not_mem_nil)]
    unfold GatherDims.start GatherDims.offCoord
    rw [dif_neg (show (⟨1, h1⟩ : Fin 2) ∉ gather_S512x768_S130816x1_S130816x768_1_0_n_n_0_1_1768.startIndexMap from (show (1 : Fin 2) ∉ [(0 : Fin 2)] from by decide)),
      dif_pos hmem]
    first
      | rfl
      | (simp only [Nat.zero_add, Nat.add_zero]; rfl)

/-! ## The layout operations at an index -/

/-- A vector broadcast to a column reads the vector. -/
theorem col_apply {α : Type} (x : S130816.Idx → α) (p : Fin 130816) :
    broadcastInDim S130816x1 ![0] bcast_S130816_S130816x1_0 x (ix2 p (0 : Fin 1)) = x (ix1 p) :=
  broadcastInDim_apply _ _ x _ (ix1 p) (fun a => by
    match a with
    | ⟨0, _⟩ => rfl)

variable {F : FTy → Type} [FloatOps F]

/-- The gathered rows at `(p, d)`: the table's row `rowOf` of the pair index at `p`, column `d`. -/
theorem rows_apply (E : FVec F S512x768 .f32) (x : IVec S130816 32) (p : Fin 130816) (d : Fin 768) :
    rows E x (ix2 p d) = E (ix2 (rowOf (x (ix1 p))) d) := by
  unfold rows
  rw [gather_rows_apply, col_apply]
  rfl

/-- The concatenation at `(p, e)`: the first index's row left of column 768, the second's from there on. -/
theorem pairs_apply (E : FVec F S512x768 .f32) (xi xj : IVec S130816 32) (p : Fin 130816) (e : Fin 1536) :
    pairs E xi xj (ix2 p e)
      = if h : e.val < 768 then E (ix2 (rowOf (xi (ix1 p))) ⟨e.val, h⟩)
        else E (ix2 (rowOf (xj (ix1 p))) ⟨e.val - 768, by omega⟩) := by
  unfold pairs
  by_cases h : e.val < 768
  · rw [dif_pos h]
    refine (concatenate_pair_apply_left (t := S130816x1536) (s₁ := S130816x768) (s₂ := S130816x768) 1 (rows E xi) (rows E xj)
      concatenates_S130816x768_S130816x768_S130816x1536_d1 (ix2 p e) rfl (ix2 p (⟨e.val, h⟩ : Fin 768)) (fun b => ?_)).trans
      (rows_apply E xi p ⟨e.val, h⟩)
    match b with
    | ⟨0, _⟩ => rfl
    | ⟨1, _⟩ => rfl
  · rw [dif_neg h]
    refine (concatenate_pair_apply_right (t := S130816x1536) (s₁ := S130816x768) (s₂ := S130816x768) 1 (rows E xi) (rows E xj)
      concatenates_S130816x768_S130816x768_S130816x1536_d1 (ix2 p e) rfl rfl (ix2 p (⟨e.val - 768, by omega⟩ : Fin 768)) (fun b hb => ?_) ?_).trans
      (rows_apply E xj p ⟨e.val - 768, by omega⟩)
    · match b with
      | ⟨0, _⟩ => rfl
      | ⟨1, _⟩ => exact absurd rfl hb
    · show e.val - 768 + 768 = e.val
      omega

/-! ## The two affine layers at an index, at the ideal values -/

/-- The rectified first layer at `(p, k)`. -/
theorem hidden_apply (X : FVec Ideal S130816x1536 .f32) (W1 : FVec Ideal S1536x256 .f32) (b1 : FVec Ideal S256 .f32)
    (p : Fin 130816) (k : Fin 256) :
    hidden X W1 b1 (ix2 p k) = max ((∑ d : Fin 1536, X (ix2 p d) * W1 (ix2 d k)) + b1 (ix1 k)) 0 := by
  unfold hidden
  rw [maximumf_apply, addf_apply]
  have hdot : Host.dotGeneral dot_S130816x1536_S1536x256_S130816x256_1_0_0_1_n_n none X W1 (ix2 p k) = ∑ d : Fin 1536, X (ix2 p d) * W1 (ix2 d k) :=
    StackMember.dotGeneral_plain_apply none X W1 p k
  have hb : broadcastInDim S130816x256 ![0, 1] bcast_S1x256_S130816x256_0_1
      (broadcastInDim S1x256 ![1] bcast_S256_S1x256_1 b1) (ix2 p k) = b1 (ix1 k) :=
    (broadcastInDim_apply _ _ _ _ (ix2 (0 : Fin 1) k) (fun a => by
      match a with
      | ⟨0, _⟩ => rfl
      | ⟨1, _⟩ => rfl)).trans
    (broadcastInDim_apply _ _ b1 _ (ix1 k) (fun a => by
      match a with
      | ⟨0, _⟩ => rfl))
  have hz : broadcastInDim S130816x256 ![] bcast_S_S130816x256 (constant (F := Ideal) S_ .f32 0x00000000#32) (ix2 p k) = 0 :=
    Ideal.ofBits_zero_f32
  rw [hdot, hb, hz]

/-- The second layer at `(p, 0)`. -/
theorem score_apply (H : FVec Ideal S130816x256 .f32) (W2 : FVec Ideal S256x1 .f32) (b2 : FVec Ideal S1 .f32)
    (p : Fin 130816) :
    score H W2 b2 (ix2 p (0 : Fin 1)) = (∑ k : Fin 256, H (ix2 p k) * W2 (ix2 k (0 : Fin 1))) + b2 (ix1 (0 : Fin 1)) := by
  unfold score
  rw [addf_apply]
  have hdot : Host.dotGeneral dot_S130816x256_S256x1_S130816x1_1_0_0_1_n_n none H W2 (ix2 p (0 : Fin 1)) = ∑ k : Fin 256, H (ix2 p k) * W2 (ix2 k (0 : Fin 1)) :=
    StackMember.dotGeneral_plain_apply none H W2 p 0
  have hb : broadcastInDim S130816x1 ![0, 1] bcast_S1x1_S130816x1_0_1
      (broadcastInDim S1x1 ![1] bcast_S1_S1x1_1 b2) (ix2 p (0 : Fin 1)) = b2 (ix1 (0 : Fin 1)) :=
    (broadcastInDim_apply _ _ _ _ (ix2 (0 : Fin 1) (0 : Fin 1)) (fun a => by
      match a with
      | ⟨0, _⟩ => rfl
      | ⟨1, _⟩ => rfl)).trans
    (broadcastInDim_apply _ _ b2 _ (ix1 (0 : Fin 1)) (fun a => by
      match a with
      | ⟨0, _⟩ => rfl))
  rw [hdot, hb]

/-! ## The scores at an index -/

/-- Entry `d` of pair `p`'s concatenated rows: the first pair index's row left of 768, the second's from there on. -/
def pairX (E : FVec Ideal S512x768 .f32) (p : Fin 130816) (d : Fin 1536) : Ideal .f32 :=
  if h : d.val < 768 then E (ix2 (rowOf (res17 Ideal (ix1 p))) ⟨d.val, h⟩)
  else E (ix2 (rowOf (res19 Ideal (ix1 p))) ⟨d.val - 768, by omega⟩)

/-- The reference's score of pair `p`, at the ideal values. -/
theorem res43_apply (E : FVec Ideal S512x768 .f32) (W1 : FVec Ideal S1536x256 .f32) (b1 : FVec Ideal S256 .f32)
    (W2 : FVec Ideal S256x1 .f32) (b2 : FVec Ideal S1 .f32) (p : Fin 130816) :
    res43 E W1 b1 W2 b2 (ix2 p (0 : Fin 1))
      = (∑ k : Fin 256, max ((∑ d : Fin 1536, pairX E p d * W1 (ix2 d k)) + b1 (ix1 k)) 0 * W2 (ix2 k (0 : Fin 1)))
        + b2 (ix1 (0 : Fin 1)) := by
  unfold res43
  rw [score_apply]
  simp only [hidden_apply, pairs_apply]
  rfl

/-- A pair index already inside the table reads its own row. -/
theorem rowOf_of_lt (w : BitVec 32) (h : w.toNat < 512) : (rowOf w).val = w.toNat := by
  have hint : w.toInt = (w.toNat : Int) := by
    rw [BitVec.toInt_eq_toNat_cond]
    split <;> omega
  have hslt : w.slt 0#32 = false := by
    simp [BitVec.slt, hint]
  have hc : IntOp.cmpi .slt w 0#32 = 0#1 := by
    show BitVec.ofBool (w.slt 0#32) = 0#1
    rw [hslt]
    rfl
  show min (Scalar.select (IntOp.cmpi .slt w 0#32) (IntOp.addi w 512#32) w).toInt.toNat 511 = w.toNat
  rw [hc]
  show min (if (0#1 : BitVec 1) = 1 then IntOp.addi w 512#32 else w).toInt.toNat 511 = w.toNat
  rw [if_neg (by decide), hint, Int.toNat_natCast]
  omega

end Cert.RefRun

end
-- ==== Proof.RefScore.lean ====
/-
  The reference's score of a pair, read at the pair's position, is the score of the pair of embedding rows the
  two pair indices name: once the indices at that position are known to be the words of two numbers below 512,
  each reads its own row (nothing is moved up, nothing is clamped), and the concatenated row is the two rows side
  by side.
-/
import proofs.«145914_j27221502722563_2_alg».proof.Proof.RefRead
import proofs.«145914_j27221502722563_2_alg».proof.Proof.KScore
import proofs.«145914_j27221502722563_2_alg».proof.Proof.KIndex.Ref
import proofs.«145914_j27221502722563_2_alg».proof.Proof.TriuPairs

noncomputable section

namespace Cert.RefScore

open Idealize.ShloMosaic Idealize.ShloMosaic.ValueIdx
open Cert.ReferenceIdeal (S512x768 S1536x256 S256 S256x1 S1 S130816)
open scoped BigOperators

/-- The word of a number below 512 reads that row. -/
theorem rowOf_ofNat (r : ℕ) (hr : r < 512) : Cert.RefRun.rowOf (BitVec.ofNat 32 r) = ⟨r, hr⟩ := by
  have hn : (BitVec.ofNat 32 r).toNat = r := by
    rw [BitVec.toNat_ofNat]
    exact Nat.mod_eq_of_lt (by omega)
  apply Fin.ext
  rw [Cert.RefRun.rowOf_of_lt _ (by rw [hn]; exact hr), hn]

/-- The reference's score at pair `p` is the score of the rows `(r, s)` its two indices name. -/
theorem res43_eq_refScore (E : FVec Ideal S512x768 .f32) (W1 : FVec Ideal S1536x256 .f32) (b1 : FVec Ideal S256 .f32)
    (W2 : FVec Ideal S256x1 .f32) (b2 : FVec Ideal S1 .f32) (p : Fin 130816) (r s : ℕ) (hr : r < 512) (hs : s < 512)
    (hrow : Cert.TriuPairs.rows (F := Ideal) Cert.TriuPairs.ev (ix1 p) = BitVec.ofNat 32 r)
    (hcol : Cert.TriuPairs.cols (F := Ideal) Cert.TriuPairs.ev (ix1 p) = BitVec.ofNat 32 s) :
    Cert.RefRun.res43 E W1 b1 W2 b2 (ix2 p (0 : Fin 1)) = Cert.KScore.refScore E W1 b1 W2 b2 ⟨r, hr⟩ ⟨s, hs⟩ := by
  have hX : ∀ d : Fin 1536, Cert.RefRun.pairX E p d = Cert.KScore.pairRow E ⟨r, hr⟩ ⟨s, hs⟩ d := by
    intro d
    unfold Cert.RefRun.pairX Cert.KScore.pairRow
    rw [Cert.KIndex.r_rows, Cert.KIndex.r_cols, hrow, hcol, rowOf_ofNat r hr, rowOf_ofNat s hs]
  rw [Cert.RefRun.res43_apply]
  unfold Cert.KScore.refScore
  refine congrArg (· + b2 (ix1 (0 : Fin 1))) (Finset.sum_congr rfl fun k _ => ?_)
  refine congrArg (fun x => max x 0 * W2 (ix2 k (0 : Fin 1))) ?_
  refine congrArg (· + b1 (ix1 k)) (Finset.sum_congr rfl fun d _ => ?_)
  rw [hX d]

end Cert.RefScore

end
-- ==== Proof.Algebraic.lean ====
/-
  The algebraic claim: run from memories agreeing on the arguments, the idealized kernel program and the
  idealized reference both end, with the same two index lists (both compute the strict upper triangle's rows and
  columns by the same operations) and the same score for every pair.  For pair p with rows r < c: the kernel
  program gathers the score matrix at (r, c); that entry is on a computed tile, where it is the tile formula of the
  first launch's outputs; read in the arguments that is the reference's  relu (concat (E r, E c) · W1 + b1) · W2 + b2.
-/
import proofs.«145914_j27221502722563_2_alg».proof.Defs
import proofs.«145914_j27221502722563_2_alg».proof.Proof.Frames
import proofs.«145914_j27221502722563_2_alg».proof.Proof.KFinal
import proofs.«145914_j27221502722563_2_alg».proof.Proof.KIndex
import proofs.«145914_j27221502722563_2_alg».proof.Proof.KIndex.Ref
import proofs.«145914_j27221502722563_2_alg».proof.Proof.KIndex.GatherAt
import proofs.«145914_j27221502722563_2_alg».proof.Proof.RefScore

set_option maxRecDepth 16384

noncomputable section

namespace Cert.Proof

open Idealize.ShloMosaic Idealize.ShloMosaic.TcCoe Idealize.ShloMosaic.ValueIdx Idealize.SL.Sem

/-- The claim, from the second launch's value: the score matrix's entries on the tiles that compute. -/
theorem algebraic_of
    (htile : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD) (r s : Fin 512),
      r.val / 128 ≤ s.val / 128 →
      ((pairIdeal (F := Ideal)).dat (Cert.KernelIdeal.Run.V3 m ρ) c).arrAt 4 Cert.KernelIdeal.cfg1.N (ix2 r s)
        = Cert.ScoreSpec.tile (Cert.KernelIdeal.Run.V3 m ρ c Cert.KernelIdeal.main_call0_v3_0) (Cert.KernelIdeal.Run.V3 m ρ c Cert.KernelIdeal.main_call0_v3_1)
            (Cert.KernelIdeal.Run.V3 m ρ c Cert.KernelIdeal.main_call0_v4) (Cert.KernelIdeal.Run.V3 m ρ c Cert.KernelIdeal.main_call0_v5) r s) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun _ => Cert.TriuPairs.rows (F := Ideal) Cert.TriuPairs.ev, fun _ => Cert.TriuPairs.cols (F := Ideal) Cert.TriuPairs.ev,
    fun c => Cert.RefRun.res43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · -- the kernel program
    refine (θ_run _ _ _).mono (fun r h c => ?_) (Cert.KernelIdeal.Run.run (F := Ideal) pairIdeal m ρ)
    refine ⟨(h c _ (Cert.KernelIdeal.Run.mem_uc Cert.KernelIdeal.main_v0_0 (by decide))).trans (Cert.KIndex.k_rows _),
      (h c _ (Cert.KernelIdeal.Run.mem_uc Cert.KernelIdeal.main_v0_1 (by decide))).trans (Cert.KIndex.k_cols _), ?_,
      (h c _ (Cert.KernelIdeal.Run.mem_uc Cert.KernelIdeal.main_arg0 (by decide))).trans (Cert.KernelIdeal.Run.W5_main_arg0 pairIdeal m ρ c),
      (h c _ (Cert.KernelIdeal.Run.mem_uc Cert.KernelIdeal.main_arg1 (by decide))).trans (Cert.KernelIdeal.Run.W5_main_arg1 pairIdeal m ρ c),
      (h c _ (Cert.KernelIdeal.Run.mem_uc Cert.KernelIdeal.main_arg2 (by decide))).trans (Cert.KernelIdeal.Run.W5_main_arg2 pairIdeal m ρ c),
      (h c _ (Cert.KernelIdeal.Run.mem_uc Cert.KernelIdeal.main_arg3 (by decide))).trans (Cert.KernelIdeal.Run.W5_main_arg3 pairIdeal m ρ c),
      (h c _ (Cert.KernelIdeal.Run.mem_uc Cert.KernelIdeal.main_arg4 (by decide))).trans (Cert.KernelIdeal.Run.W5_main_arg4 pairIdeal m ρ c)⟩
    refine (h c _ (Cert.KernelIdeal.Run.mem_uc Cert.KernelIdeal.main_v0_2 (by decide))).trans ((Cert.KIndex.k_scores _).trans ?_)
    funext idx
    obtain ⟨p, u, rfl⟩ : ∃ (p : Fin 130816) (u : Fin 1), idx = ix2 p u := ⟨idx 0, idx 1, eq_ix2 idx⟩
    obtain rfl : u = 0 := Subsingleton.elim _ _
    obtain ⟨r, s, hrs, hs, hrow, hcol⟩ := Cert.TriuPairs.pair_spec Cert.TriuPairs.ev p
    have hr : r < 512 := by omega
    rw [Cert.KIndex.gathered_apply _ _ _ p r s hr hs hrow hcol]
    rw [Cert.KernelIdeal.Run.scores_at m ρ pairIdeal c (htile m ρ c) ⟨r, hr⟩ ⟨s, hs⟩ hrs]
    exact (Cert.RefScore.res43_eq_refScore _ _ _ _ _ p r s hr hs hrow hcol).symm
  · -- the reference
    refine (θ_run _ _ _).mono (fun r h c => ?_) (Cert.RefRun.run (F := Ideal) m' ρ')
    obtain ⟨h17, h19, h43, ha0, ha1, ha2, ha3, ha4⟩ := h c
    obtain ⟨e0, e1, e2, e3, e4⟩ := hagree c
    refine ⟨h17.trans Cert.KIndex.r_rows, h19.trans Cert.KIndex.r_cols, h43.trans ?_, ha0, ha1, ha2, ha3, ha4⟩
    rw [e0, e1, e2, e3, e4]

end Cert.Proof

end
-- ==== Proof.PairTiles.lean ====
/-
  Where the blocks of the pairwise-score region sit in their arrays.  Point t of the 4×4 grid is row tile t / 4 and
  column tile t % 4.  The first operand's block at t is rows 128·(t/4) … of its 512×256 array, the second's rows
  128·(t%4) … of its array, the weight row and the bias word are whole, and the output block is tile (t/4, t%4) of
  the 512×512 result.  Distinct points write distinct tiles, so after the region tile t of the result holds what
  point t left in the output window's staging buffer.
-/
import proofs.«145914_j27221502722563_2_alg».proof.Proof.PairBody
import Idealize.ShloMosaic.Lib.Pipeline.Value
import Idealize.ShloMosaic.Lib.Pipeline.Cells
import Idealize.ShloMosaic.Lib.ValueIdx

set_option maxRecDepth 16384

noncomputable section

namespace Cert.KernelIdeal.Pair

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]

/-! ## Where the blocks sit -/

/-- The printed index maps in closed form over the 16 points (point `t` is row tile `t / 4`, column tile `t % 4`):
    the first operand's block follows the row tile, the second's the column tile, the weight row and the bias stay
    put, the output block is tile (t / 4, t % 4). -/
theorem tile_of_point : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = t.val % 4
    ∧ ((grid1.coords t) 0).val = t.val / 4 ∧ ((grid1.coords t) 1).val = t.val % 4 :=
  (by decide +kernel : ∀ t : Fin grid1.N, _)

/-- Distinct points write distinct output tiles. -/
theorem out_tile_inj : ∀ t t' : Fin cfg1.N, win1_4.index t = win1_4.index t' → t = t' :=
  (by decide +kernel : ∀ t t' : Fin grid1.N, win1_4.index t = win1_4.index t' → t = t')

theorem out_tiles_disjoint : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (out_tile_inj t t' h)

section Region
variable (V : (c : Dev nD) → (b : Ref sig .tc) → Buf (Elt F) ((c : Thread nD τ).loc b))

/-- The first operand's block at point `t` is rows `128·(t/4) …` of its array. -/
theorem rows_first (c : Dev nD) (t : Fin cfg1.N) (y : S128x256.Idx) (k : S512x256.Idx)
    (hk0 : (k 0).val = 128 * (t.val / 4) + (y 0).val) (hk1 : (k 1).val = (y 1).val) :
    (iblk1 V c 0 t : Vec F S128x256 .f32) y = (V c (Pipeline.arrRef spec1 0) : S512x256.Idx → Elt F .f32) k := by
  obtain ⟨e0, e1, -⟩ := tile_of_point t
  unfold iblk1
  rw [View.read_apply]
  show V c (Pipeline.arrRef spec1 0) _ = V c (Pipeline.arrRef spec1 0) _
  congr 1
  funext a
  apply Fin.ext
  match a with
  | ⟨0, _⟩ => show win1_0.index t 0 * 128 + 1 * (y 0).val = (k 0).val; rw [e0, hk0]; omega
  | ⟨1, _⟩ => show win1_0.index t 1 * 256 + 1 * (y 1).val = (k 1).val; rw [e1, hk1]; omega

/-- The second operand's block at point `t` is rows `128·(t%4) …` of its array. -/
theorem rows_second (c : Dev nD) (t : Fin cfg1.N) (y : S128x256.Idx) (k : S512x256.Idx)
    (hk0 : (k 0).val = 128 * (t.val % 4) + (y 0).val) (hk1 : (k 1).val = (y 1).val) :
    (iblk1 V c 1 t : Vec F S128x256 .f32) y = (V c (Pipeline.arrRef spec1 1) : S512x256.Idx → Elt F .f32) k := by
  obtain ⟨-, -, e0, e1, -⟩ := tile_of_point t
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * (y 0).val = (k 0).val; rw [e0, hk0]; omega
  | ⟨1, _⟩ => show win1_1.index t 1 * 256 + 1 * (y 1).val = (k 1).val; rw [e1, hk1]; omega

/-- The weight row's block is the whole row. -/
theorem weights_block (c : Dev nD) (t : Fin cfg1.N) (y : S1x256.Idx) :
    (iblk1 V c 2 t : Vec F S1x256 .f32) y = (V c (Pipeline.arrRef spec1 2) : S1x256.Idx → Elt F .f32) y := by
  obtain ⟨-, -, -, -, e0, e1, -⟩ := tile_of_point t
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 256 + 1 * (y 1).val = (y 1).val; rw [e1]; omega

/-- The bias block is the bias word. -/
theorem bias_block (c : Dev nD) (t : Fin cfg1.N) (y : S1x1.Idx) :
    (iblk1 V c 3 t : Vec F S1x1 .f32) y = (V c (Pipeline.arrRef spec1 3) : S1x1.Idx → Elt F .f32) y := by
  obtain ⟨-, -, -, -, -, -, e0, e1, -⟩ := tile_of_point t
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e0]; omega
  | ⟨1, _⟩ => show win1_3.index t 1 * 1 + 1 * (y 1).val = (y 1).val; rw [e1]; omega

/-- Tile `t` of the output array after the region, read back, is what point `t` left in its staging buffer:
    no other point writes that tile. -/
theorem out_tile (c : Dev nD) (t : Fin cfg1.N) :
    ((cfg1.win 4).blk t).view.read (Elt F) ((dat1 V c).arrAt 4 cfg1.N)
      = out1_4 (grid1.coords t) (iblk1 V c 0 t) (iblk1 V c 1 t) (iblk1 V c 2 t) (iblk1 V c 3 t) := by
  rw [(dat1 V c).read_blk_arrAt_eq_flushed 4 out_tiles_disjoint cfg1.N t t.isLt (flush1_4 t)]
  show (cfg1.win 4).cut (grid1.coords t) ((dat1 V c).after 4 t) = _
  rw [after1_4]
  rfl

/-- So the output array at an index of tile `t` is that block at the index's position in the tile. -/
theorem out_at (c : Dev nD) (t : Fin cfg1.N) (y : S128x128.Idx) (k : S512x512.Idx)
    (hk0 : (k 0).val = 128 * (t.val / 4) + (y 0).val) (hk1 : (k 1).val = 128 * (t.val % 4) + (y 1).val) :
    ((dat1 V c).arrAt 4 cfg1.N : S512x512.Idx → Elt F .f32) k
      = out1_4 (grid1.coords t) (iblk1 V c 0 t) (iblk1 V c 1 t) (iblk1 V c 2 t) (iblk1 V c 3 t) y := by
  obtain ⟨-, -, -, -, -, -, -, -, e0, e1, -⟩ := tile_of_point t
  rw [← out_tile V c t, View.read_apply]
  show (dat1 V c).arrAt 4 cfg1.N _ = (dat1 V c).arrAt 4 cfg1.N _
  congr 1
  funext a
  apply Fin.ext
  match a with
  | ⟨0, _⟩ => show (k 0).val = win1_4.index t 0 * 128 + 1 * (y 0).val; rw [e0, hk0]; omega
  | ⟨1, _⟩ => show (k 1).val = win1_4.index t 1 * 128 + 1 * (y 1).val; rw [e1, hk1]; omega

end Region

end Cert.KernelIdeal.Pair

end
-- ==== Proof.PairScore.lean ====
/-
  The arithmetic of one output block of the pairwise-score kernel, read at a pair of rows.  The body splits the
  256 hidden units into four chunks of 64 lanes.  For a chunk it forms, for every pair (p, q) of a row of the
  first tile and a row of the second, the 64 lane values  max (a p l + b q l) 0 · w l  and sums them over the
  lanes; the four partial sums are added in order onto zero and the bias word is added last.  Here the printed
  payloads are restated over one function `chunk` of the three loaded chunks, and, at the exact values, read at
  an index (p, q): broadcasting along a unit axis reads the operand at coordinate 0 of that axis, a reshape keeps
  the row-major position, the lane reduction is the sum over the 64 lanes.
-/
import proofs.«145914_j27221502722563_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pair

open Cert.KernelIdeal Cert.KernelIdeal.Gen
open Idealize.ShloMosaic Idealize.ShloMosaic.ValueIdx
open scoped BigOperators

variable {F : FTy → Type} [FloatOps F]

/-- One 64-lane chunk of the pairwise score, as the body computes it: row `p` of `a` and row `q` of `b`
    are added lane by lane, clamped below at zero, weighted by `w`, and the 64 lanes summed. -/
def chunk (a b : FVec F S128x64 .f32) (w : Vec F S1x64 .f32) : FVec F S128x128 .f32 :=
  multiReduction .add [2] S128x128
    (mulf
      (maximumf
        (addf (broadcastTo S128x128x64 (shapeCast S128x1x64 a shapeCasts_S128x64_S128x1x64) broadcasts_S128x1x64_S128x128x64)
          (broadcastTo S128x128x64 (shapeCast S1x128x64 b shapeCasts_S128x64_S1x128x64) broadcasts_S1x128x64_S128x128x64))
        (broadcast S128x128x64 (Scalar.ofBits .f32 0x00000000#32)))
      (broadcastTo S128x128x64 (shapeCast S1x1x64 (shapeCast S64 w shapeCasts_S1x64_S64) shapeCasts_S64_S1x1x64) broadcasts_S1x1x64_S128x128x64))
    0x00000000#32 reduces_S128x128x64_S128x128 (.inl rfl) rfl

/-- The first two chunks, accumulated from zero, are the part's payload. -/
theorem k1_pay3_eq (v10 v12 : Vec F S128x64 .f32) (v14 : Vec F S1x64 .f32) (v28 v30 : Vec F S128x64 .f32) (v32 : Vec F S1x64 .f32) :
    k1_pay3 v10 v12 v14 v28 v30 v32
      = addf (addf (broadcast S128x128 (Scalar.ofBits .f32 0x00000000#32))
            (chunk (shapeCast S128x64 v10 shapeCasts_S128x64_S128x64) (shapeCast S128x64 v12 shapeCasts_S128x64_S128x64) v14))
          (chunk (shapeCast S128x64 v28 shapeCasts_S128x64_S128x64) (shapeCast S128x64 v30 shapeCasts_S128x64_S128x64) v32) := rfl

/-- The last two chunks and the bias word are added by the store's payload. -/
theorem k1_pay2_eq (v45 : FVec F S128x128 .f32) (v47 : FVec F S128x64 .f32) (v48 : Vec F S128x64 .f32) (v50 : Vec F S1x64 .f32)
    (v64 v66 : Vec F S128x64 .f32) (v68 : Vec F S1x64 .f32) (v82 : Vec F S1x1 .f32) :
    k1_pay2 v45 v47 v48 v50 v64 v66 v68 v82
      = addf (addf (addf v45 (chunk v47 (shapeCast S128x64 v48 shapeCasts_S128x64_S128x64) v50))
            (chunk (shapeCast S128x64 v64 shapeCasts_S128x64_S128x64) (shapeCast S128x64 v66 shapeCasts_S128x64_S128x64) v68))
          (broadcast S128x128 (extractAt ![0, 0] v82 inpos_S1x1_p0_0)) := rfl

/-! ## Read at an index, at the exact values -/

/-- The reduced index with lane `l` put back has coordinates (p, q, l). -/
theorem lane_idx (p q : Fin 128) (l : Fin 64) :
    reduces_S128x128x64_S128x128.lift (ix2 p q) l = ix3 p q l := by
  funext a; match a with | ⟨0, _⟩ => rfl | ⟨1, _⟩ => rfl | ⟨2, _⟩ => rfl

theorem chunk_apply (a b : FVec Ideal S128x64 .f32) (w : Vec Ideal S1x64 .f32) (p q : Fin 128) :
    chunk a b w (ix2 p q) = ∑ l : Fin 64, max (a (ix2 p l) + b (ix2 q l)) 0 * w (ix2 0 l) := by
  unfold chunk
  refine (Ideal.multiReduction_add_single _ 0x00000000#32 reduces_S128x128x64_S128x128 (.inl rfl) rfl (ix2 p q)).trans ?_
  refine Finset.sum_congr rfl fun (l : Fin 64) _ => ?_
  rw [lane_idx p q l]
  have ea : broadcastTo S128x128x64 (shapeCast S128x1x64 a shapeCasts_S128x64_S128x1x64) broadcasts_S128x1x64_S128x128x64 (ix3 p q l) = a (ix2 p l) :=
    (broadcastTo_apply _ broadcasts_S128x1x64_S128x128x64 (ix3 p q l) (ix3 p (0 : Fin 1) l)
      (fun x => by match x with | ⟨0, _⟩ => rfl | ⟨1, _⟩ => rfl | ⟨2, _⟩ => rfl)).trans
    (shapeCast_apply a shapeCasts_S128x64_S128x1x64 (ix3 p (0 : Fin 1) l) (ix2 p l)
      (by rw [Shape.rowMajor_val_two, Shape.rowMajor_val_three]; show p.val * 64 + l.val = (p.val * 1 + 0) * 64 + l.val; omega))
  have eb : broadcastTo S128x128x64 (shapeCast S1x128x64 b shapeCasts_S128x64_S1x128x64) broadcasts_S1x128x64_S128x128x64 (ix3 p q l) = b (ix2 q l) :=
    (broadcastTo_apply _ broadcasts_S1x128x64_S128x128x64 (ix3 p q l) (ix3 (0 : Fin 1) q l)
      (fun x => by match x with | ⟨0, _⟩ => rfl | ⟨1, _⟩ => rfl | ⟨2, _⟩ => rfl)).trans
    (shapeCast_apply b shapeCasts_S128x64_S1x128x64 (ix3 (0 : Fin 1) q l) (ix2 q l)
      (by rw [Shape.rowMajor_val_two, Shape.rowMajor_val_three]; show q.val * 64 + l.val = (0 * 128 + q.val) * 64 + l.val; omega))
  have ew : broadcastTo S128x128x64 (shapeCast S1x1x64 (shapeCast S64 w shapeCasts_S1x64_S64) shapeCasts_S64_S1x1x64) broadcasts_S1x1x64_S128x128x64 (ix3 p q l) = w (ix2 0 l) :=
    (broadcastTo_apply _ broadcasts_S1x1x64_S128x128x64 (ix3 p q l) (ix3 (0 : Fin 1) (0 : Fin 1) l)
      (fun x => by match x with | ⟨0, _⟩ => rfl | ⟨1, _⟩ => rfl | ⟨2, _⟩ => rfl)).trans
    ((shapeCast_apply _ shapeCasts_S64_S1x1x64 (ix3 (0 : Fin 1) (0 : Fin 1) l) (ix1 l)
      (by rw [Shape.rowMajor_val_one, Shape.rowMajor_val_three]; show l.val = (0 * 1 + 0) * 64 + l.val; omega)).trans
    (shapeCast_apply w shapeCasts_S1x64_S64 (ix1 l) (ix2 (0 : Fin 1) l)
      (by rw [Shape.rowMajor_val_two, Shape.rowMajor_val_one]; show 0 * 64 + l.val = l.val; omega)))
  show max (_ + _) (Ideal.ofBits .f32 0x00000000#32) * _ = _
  rw [ea, eb, ew, Ideal.ofBits_zero_f32]

/-- The 64-lane partial sum at the pair of rows (p, q). -/
def lanes (a b : Vec Ideal S128x64 .f32) (w : Vec Ideal S1x64 .f32) (p q : Fin 128) : EReal :=
  ∑ l : Fin 64, max (a (ix2 p l) + b (ix2 q l)) 0 * w (ix2 (0 : Fin 1) l)

/-- The one word of the bias block. -/
theorem bias_word (v : Vec Ideal S1x1 .f32) : extractAt ![0, 0] v inpos_S1x1_p0_0 = v (ix2 (0 : Fin 1) (0 : Fin 1)) :=
  congrArg v (funext fun a => Fin.ext (by match a with | ⟨0, _⟩ => rfl | ⟨1, _⟩ => rfl))

/-- The block a computing point stores, at the pair of rows (p, q) of the two row tiles: zero, plus the four
    64-lane partial sums in order, plus the bias. -/
theorem pay_apply (a0 b0 : Vec Ideal S128x64 .f32) (w0 : Vec Ideal S1x64 .f32) (a1 b1 : Vec Ideal S128x64 .f32) (w1 : Vec Ideal S1x64 .f32)
    (a2 b2 : Vec Ideal S128x64 .f32) (w2 : Vec Ideal S1x64 .f32) (a3 b3 : Vec Ideal S128x64 .f32) (w3 : Vec Ideal S1x64 .f32)
    (bias : Vec Ideal S1x1 .f32) (p q : Fin 128) :
    k1_pay2 (k1_pay3 a0 b0 w0 a1 b1 w1) (k1_pay4 a2) b2 w2 a3 b3 w3 bias (ix2 p q)
      = ((((0 + lanes a0 b0 w0 p q) + lanes a1 b1 w1 p q) + lanes a2 b2 w2 p q) + lanes a3 b3 w3 p q)
          + bias (ix2 (0 : Fin 1) (0 : Fin 1)) := by
  rw [k1_pay2_eq, k1_pay3_eq]
  unfold k1_pay4
  simp only [shapeCast_self]
  show ((((Ideal.ofBits .f32 0x00000000#32 + chunk a0 b0 w0 (ix2 p q)) + chunk a1 b1 w1 (ix2 p q)) + chunk a2 b2 w2 (ix2 p q))
      + chunk a3 b3 w3 (ix2 p q)) + extractAt ![0, 0] bias inpos_S1x1_p0_0 = _
  rw [chunk_apply, chunk_apply, chunk_apply, chunk_apply, Ideal.ofBits_zero_f32, bias_word]
  rfl

end Cert.KernelIdeal.Pair

end
-- ==== Proof.PairValue.lean ====
/-
  The result of the pairwise-score region at the exact values, on the tiles that compute.  For (r, s) with the row
  tile of r not after the tile of s, the entry (r, s) of the result array is
      ((((0 + S 0) + S 64) + S 128) + S 192) + b,   S o = Σ_{k < 64} max (A (r, o + k) + B (s, o + k)) 0 · w (0, o + k),
  with A, B, w, b the four operand arrays as the region finds them: the entry lies in tile (r / 128, s / 128), whose
  point computes; the block it stores is the body's payload of the four loaded chunks, and each loaded chunk is a
  rectangle of rows of A, of B and of columns of w.
-/
import proofs.«145914_j27221502722563_2_alg».proof.Proof.PairTiles
import proofs.«145914_j27221502722563_2_alg».proof.Proof.PairScore
import proofs.«145914_j27221502722563_2_alg».proof.Proof.ScoreSpec
import Idealize.ShloMosaic.Lib.Pipeline.Value
import Idealize.ShloMosaic.Lib.Pipeline.Cells
import Idealize.ShloMosaic.Lib.ValueIdx

set_option maxRecDepth 16384

noncomputable section

namespace Cert.KernelIdeal.Pair

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]

/-! ## The score at a pair of rows -/

/-- One chunk of lanes, over the row tiles read out of the arrays: the partial sum of the specification. -/
theorem lanes_spec (x0 x1 : Vec Ideal S128x256 .f32) (x2 : Vec Ideal S1x256 .f32)
    (A B : FVec Ideal ⟨2, ![512, 256]⟩ .f32) (W : FVec Ideal ⟨2, ![1, 256]⟩ .f32) (i0 i1 : ℕ)
    (h0 : ∀ (y : S128x256.Idx) (k : S512x256.Idx), (k 0).val = 128 * i0 + (y 0).val → (k 1).val = (y 1).val → x0 y = A k)
    (h1 : ∀ (y : S128x256.Idx) (k : S512x256.Idx), (k 0).val = 128 * i1 + (y 0).val → (k 1).val = (y 1).val → x1 y = B k)
    (h2 : ∀ y : S1x256.Idx, x2 y = W y)
    (r s : Fin 512) (p q : Fin 128) (hr : r.val = 128 * i0 + p.val) (hs : s.val = 128 * i1 + q.val)
    (o : ℕ) (ho : o + 64 ≤ 256)
    (hA : ∀ a, (![0, o] : Fin 2 → ℕ) a + S128x64.size a ≤ S128x256.size a)
    (hW : ∀ a, (![0, o] : Fin 2 → ℕ) a + S1x64.size a ≤ S1x256.size a) :
    lanes (View.ld x0 (Rect.unit (s := S128x256) ![0, o] S128x64.size hA)) (View.ld x1 (Rect.unit (s := S128x256) ![0, o] S128x64.size hA))
        (View.ld x2 (Rect.unit (s := S1x256) ![0, o] S1x64.size hW)) p q
      = Cert.ScoreSpec.chunk A B W r s o ho := by
  unfold lanes Cert.ScoreSpec.chunk
  refine Finset.sum_congr rfl fun (l : Fin 64) _ => ?_
  have hl := l.isLt
  have ea : View.ld x0 (Rect.unit (s := S128x256) ![0, o] S128x64.size hA) (ix2 p l) = A (ix2 r (⟨o + l.val, by omega⟩ : Fin 256)) :=
    h0 _ _ (by show r.val = 128 * i0 + (0 + 1 * p.val); omega) (by show o + l.val = o + 1 * l.val; omega)
  have eb : View.ld x1 (Rect.unit (s := S128x256) ![0, o] S128x64.size hA) (ix2 q l) = B (ix2 s (⟨o + l.val, by omega⟩ : Fin 256)) :=
    h1 _ _ (by show s.val = 128 * i1 + (0 + 1 * q.val); omega) (by show o + l.val = o + 1 * l.val; omega)
  have ew : View.ld x2 (Rect.unit (s := S1x256) ![0, o] S1x64.size hW) (ix2 (0 : Fin 1) l) = W (ix2 (0 : Fin 1) (⟨o + l.val, by omega⟩ : Fin 256)) :=
    (h2 _).trans (congrArg W (funext fun a => Fin.ext (by
      match a with
      | ⟨0, _⟩ => show 0 + 1 * 0 = 0; omega
      | ⟨1, _⟩ => show o + 1 * l.val = o + l.val; omega)))
  rw [ea, eb, ew]

section AtIdeal
variable (V : (c : Dev nD) → (b : Ref sig .tc) → Buf (Elt Ideal) ((c : Thread nD τ).loc b))

/-- THE OUTPUT ARRAY after the region, on the tiles that compute: at (r, s) with the row tile of r not after the
    tile of s, the score of the pair of rows of the two operand arrays as the region found them. -/
theorem arr_tile (c : Dev nD) (r s : Fin 512) (h : r.val / 128 ≤ s.val / 128) :
    ((dat1 (F := Ideal) V c).arrAt 4 cfg1.N : S512x512.Idx → Elt Ideal .f32) (ix2 r s)
      = Cert.ScoreSpec.tile (V c (Pipeline.arrRef spec1 0)) (V c (Pipeline.arrRef spec1 1)) (V c (Pipeline.arrRef spec1 2))
          (V c (Pipeline.arrRef spec1 3)) r s := by
  have hr := r.isLt
  have hs := s.isLt
  have hN : cfg1.N = 16 := N_1
  obtain ⟨t, ht⟩ : ∃ t : Fin cfg1.N, t.val = (r.val / 128) * 4 + s.val / 128 := ⟨⟨(r.val / 128) * 4 + s.val / 128, by omega⟩, rfl⟩
  have ht4 : t.val / 4 = r.val / 128 := by omega
  have htm : t.val % 4 = s.val / 128 := by omega
  obtain ⟨p, hp⟩ : ∃ p : Fin 128, p.val = r.val % 128 := ⟨⟨r.val % 128, by omega⟩, rfl⟩
  obtain ⟨q, hq⟩ : ∃ q : Fin 128, q.val = s.val % 128 := ⟨⟨s.val % 128, by omega⟩, rfl⟩
  have hrp : r.val = 128 * (t.val / 4) + p.val := by omega
  have hsq : s.val = 128 * (t.val % 4) + q.val := by omega
  obtain ⟨-, -, -, -, -, -, -, -, -, -, g0, g1⟩ := tile_of_point t
  have hc : computes (grid1.coords t) := (computes_iff _).mpr (by rw [g0, g1]; omega)
  rw [out_at V c t (ix2 p q) (ix2 r s) hrp hsq, out1_4_of_computes hc]
  unfold scores
  rw [pay_apply]
  unfold Cert.ScoreSpec.tile
  rw [lanes_spec _ _ _ _ _ _ (t.val / 4) (t.val % 4) (rows_first V c t) (rows_second V c t) (weights_block V c t) r s p q hrp hsq 0 (by omega),
    lanes_spec _ _ _ _ _ _ (t.val / 4) (t.val % 4) (rows_first V c t) (rows_second V c t) (weights_block V c t) r s p q hrp hsq 64 (by omega),
    lanes_spec _ _ _ _ _ _ (t.val / 4) (t.val % 4) (rows_first V c t) (rows_second V c t) (weights_block V c t) r s p q hrp hsq 128 (by omega),
    lanes_spec _ _ _ _ _ _ (t.val / 4) (t.val % 4) (rows_first V c t) (rows_second V c t) (weights_block V c t) r s p q hrp hsq 192 (by omega)]
  congr 1
  exact (bias_block V c t (cellB.idx (ix2 (0 : Fin 1) (0 : Fin 1)))).trans
    (congrArg (V c (Pipeline.arrRef spec1 3) : S1x1.Idx → Elt Ideal .f32) (funext fun a => Fin.ext (by
      match a with
      | ⟨0, _⟩ => show 0 + 1 * 0 = 0; rfl
      | ⟨1, _⟩ => show 0 + 1 * 0 = 0; rfl)))

end AtIdeal

end Cert.KernelIdeal.Pair

end
-- ==== Proof.lean ====
/-
  The certificate's five claims.  The kernel program computes, for every pair i < j of the 512 feature rows,
      b2 + Σ_k W2 k · relu ((E i · W1[0:768] + b1) k + (E j · W1[768:1536]) k)
  by two launches (the two affine images of all rows; then the 512 x 512 score matrix tile by tile, the tiles
  left of the diagonal only zero-filled) and a gather at the strict upper triangle's index lists; the reference
  computes  relu (concat (E i, E j) · W1 + b1) · W2 + b2  at the same lists.  The frames are the programs' runs;
  the idealization rewrote nothing; and at the ideal values the two scores differ only in how sums are split and
  grouped, while every gathered entry lies on a computed tile because the lists' rows are below their columns.
-/
import proofs.«145914_j27221502722563_2_alg».proof.Defs
import proofs.«145914_j27221502722563_2_alg».proof.Proof.Frames
import proofs.«145914_j27221502722563_2_alg».proof.Proof.Algebraic
import proofs.«145914_j27221502722563_2_alg».proof.Proof.PairValue

noncomputable section

namespace Cert.Proof

open Idealize.ShloMosaic Idealize.SL.Sem

/-- The two idealized programs end with equal results: the second launch's value closes `algebraic_of`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of fun m ρ c r s h => Cert.KernelIdeal.Pair.arr_tile (Cert.KernelIdeal.Run.V3 m ρ) c r s h

theorem claim : Cert.Claim :=
  ⟨Cert.Kernel.Gen.facts, Cert.KernelIdeal.Gen.facts, Cert.ReferenceIdeal.Gen.facts, Cert.Pre_finite_inputs.Gen.facts,
    frame_k, frame_ki, Cert.RefRun.frame_ri, trivial, algebraic⟩

end Cert.Proof

end
